-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v125)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v125) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S100000 : Shape := ⟨1, ![100000]⟩
abbrev S64x32 : Shape := ⟨2, ![64, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_arg9 : FVec F S32 .f32) (main_arg15 : FVec F S64 .f32) (main_arg21 : FVec F S128 .f32) (main_v118 : IVec S_ 1) (main_cst_46 : FVec F S_ .f32) : IVec S_ 1 :=
  let main_v119 : FVec F S32 .f32 := broadcastInDim S32 ![] bcast_S_S32 main_cst_46
  let main_v120 : IVec S32 1 := cmpf .oge main_arg9 main_v119
  let main_c_47 : IVec S_ 1 := constantI S_ 1 1#1
  let main_v121 : IVec S_ 1 := (fun x v => Host.reduce IntOp.andi x v reducesTo_S32_S_d0 h_S_) main_v120 main_c_47
  let main_v122 : IVec S_ 1 := andi main_v118 main_v121
  let main_cst_48 : FVec F S_ .f32 := constant S_ .f32 0x00000000#32
  let main_v123 : FVec F S64 .f32 := broadcastInDim S64 ![] bcast_S_S64 main_cst_48
  let main_v124 : IVec S64 1 := cmpf .oge main_arg15 main_v123
  let main_c_49 : IVec S_ 1 := constantI S_ 1 1#1
  let main_v125 : IVec S_ 1 := (fun x v => Host.reduce IntOp.andi x v reducesTo_S64_S_d0 h_S_) main_v124 main_c_49
  let main_v126 : IVec S_ 1 := andi main_v122 main_v125
  let main_cst_50 : FVec F S_ .f32 := constant S_ .f32 0x00000000#32
  let main_v127 : FVec F S128 .f32 := broadcastInDim S128 ![] bcast_S_S128 main_cst_50
  let main_v128 : IVec S128 1 := cmpf .oge main_arg21 main_v127
  let main_c_51 : IVec S_ 1 := constantI S_ 1 1#1
  let main_v129 : IVec S_ 1 := (fun x v => Host.reduce IntOp.andi x v reducesTo_S128_S_d0 h_S_) main_v128 main_c_51
  let main_v130 : IVec S_ 1 := andi main_v126 main_v129
  main_v130

def fn_part6 {F : FTy → Type} [FloatOps F] (main_arg9 : FVec F S32 .f32) (main_arg15 : FVec F S64 .f32) (main_arg21 : FVec F S128 .f32) (main_arg23 : FVec F S64 .f32) (main_arg24 : FVec F S64x1 .f32) (main_arg25 : FVec F S1 .f32) (main_v98 : IVec S_ 1) (main_v101 : IVec S128x64 1) (main_c_39 : IVec S_ 1) : IVec S_ 1 :=
  let main_v102 : IVec S_ 1 := (fun x v => Host.reduce IntOp.andi x v reducesTo_S128x64_S_d0_1 h_S_) main_v101 main_c_39
  let main_v103 : IVec S_ 1 := andi main_v98 main_v102
  let main_v104 : FVec F S64 .f32 := Host.absf main_arg23
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64x1 .f32 := Host.absf main_arg24
  let main_cst_42 : FVec F S_ .f32 := constant S_ .f32 0x7F800000#32
  let main_v110 : FVec F S64x1 .f32 := broadcastInDim S64x1 ![] bcast_S_S64x1 main_cst_42
  let main_v111 : IVec S64x1 1 := cmpf .olt main_v109 main_v110
  let main_c_43 : IVec S_ 1 := constantI S_ 1 1#1
  let main_v112 : IVec S_ 1 := (fun x v => Host.reduce IntOp.andi x v reducesTo_S64x1_S_d0_1 h_S_) main_v111 main_c_43
  let main_v113 : IVec S_ 1 := andi main_v108 main_v112
  let main_v114 : FVec F S1 .f32 := Host.absf main_arg25
  let main_cst_44 : FVec F S_ .f32 := constant S_ .f32 0x7F800000#32
  let main_v115 : FVec F S1 .f32 := broadcastInDim S1 ![] bcast_S_S1 main_cst_44
  let main_v116 : IVec S1 1 := cmpf .olt main_v114 main_v115
  let main_c_45 : IVec S_ 1 := constantI S_ 1 1#1
  let main_v117 : IVec S_ 1 := (fun x v => Host.reduce IntOp.andi x v reducesTo_S1_S_d0 h_S_) main_v116 main_c_45
  let main_v118 : IVec S_ 1 := andi main_v113 main_v117
  let main_cst_46 : FVec F S_ .f32 := constant S_ .f32 0x00000000#32
  fn_part7 (F := F) main_arg9 main_arg15 main_arg21 main_v118 main_cst_46

def fn_part5 {F : FTy → Type} [FloatOps F] (main_arg9 : FVec F S32 .f32) (main_arg15 : FVec F S64 .f32) (main_arg20 : FVec F S128 .f32) (main_arg21 : FVec F S128 .f32) (main_arg22 : FVec F S128x64 .f32) (main_arg23 : FVec F S64 .f32) (main_arg24 : FVec F S64x1 .f32) (main_arg25 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x64 .f32 := Host.absf main_arg22
  let main_cst_38 : FVec F S_ .f32 := constant S_ .f32 0x7F800000#32
  let main_v100 : FVec F S128x64 .f32 := broadcastInDim S128x64 ![] bcast_S_S128x64 main_cst_38
  let main_v101 : IVec S128x64 1 := cmpf .olt main_v99 main_v100
  let main_c_39 : IVec S_ 1 := constantI S_ 1 1#1
  fn_part6 (F := F) main_arg9 main_arg15 main_arg21 main_arg23 main_arg24 main_arg25 main_v98 main_v101 main_c_39

def fn_part4 {F : FTy → Type} [FloatOps F] (main_arg9 : FVec F S32 .f32) (main_arg15 : FVec F S64 .f32) (main_arg16 : FVec F S64x128 .f32) (main_arg17 : FVec F S128 .f32) (main_arg18 : FVec F S128 .f32) (main_arg19 : FVec F S128 .f32) (main_arg20 : FVec F S128 .f32) (main_arg21 : FVec F S128 .f32) (main_arg22 : FVec F S128x64 .f32) (main_arg23 : FVec F S64 .f32) (main_arg24 : FVec F S64x1 .f32) (main_arg25 : FVec F S1 .f32) (main_v63 : IVec S_ 1) (main_v67 : IVec S_ 1) : IVec S_ 1 :=
  let main_v68 : IVec S_ 1 := andi main_v63 main_v67
  let main_v69 : FVec F S64x128 .f32 := Host.absf main_arg16
  let main_cst_26 : FVec F S_ .f32 := constant S_ .f32 0x7F800000#32
  let main_v70 : FVec F S64x128 .f32 := broadcastInDim S64x128 ![] bcast_S_S64x128 main_cst_26
  let main_v71 : IVec S64x128 1 := cmpf .olt main_v69 main_v70
  let main_c_27 : IVec S_ 1 := constantI S_ 1 1#1
  let main_v72 : IVec S_ 1 := (fun x v => Host.reduce IntOp.andi x v reducesTo_S64x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg9 main_arg15 main_arg20 main_arg21 main_arg22 main_arg23 main_arg24 main_arg25 main_v83 main_v84 main_cst_32

def fn_part3 {F : FTy → Type} [FloatOps F] (main_arg9 : FVec F S32 .f32) (main_arg13 : FVec F S64 .f32) (main_arg14 : FVec F S64 .f32) (main_arg15 : FVec F S64 .f32) (main_arg16 : FVec F S64x128 .f32) (main_arg17 : FVec F S128 .f32) (main_arg18 : FVec F S128 .f32) (main_arg19 : FVec F S128 .f32) (main_arg20 : FVec F S128 .f32) (main_arg21 : FVec F S128 .f32) (main_arg22 : FVec F S128x64 .f32) (main_arg23 : FVec F S64 .f32) (main_arg24 : FVec F S64x1 .f32) (main_arg25 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg9 main_arg15 main_arg16 main_arg17 main_arg18 main_arg19 main_arg20 main_arg21 main_arg22 main_arg23 main_arg24 main_arg25 main_v63 main_v67

def fn_part2 {F : FTy → Type} [FloatOps F] (main_arg9 : FVec F S32 .f32) (main_arg10 : FVec F S32x64 .f32) (main_arg11 : FVec F S64 .f32) (main_arg12 : FVec F S64 .f32) (main_arg13 : FVec F S64 .f32) (main_arg14 : FVec F S64 .f32) (main_arg15 : FVec F S64 .f32) (main_arg16 : FVec F S64x128 .f32) (main_arg17 : FVec F S128 .f32) (main_arg18 : FVec F S128 .f32) (main_arg19 : FVec F S128 .f32) (main_arg20 : FVec F S128 .f32) (main_arg21 : FVec F S128 .f32) (main_arg22 : FVec F S128x64 .f32) (main_arg23 : FVec F S64 .f32) (main_arg24 : FVec F S64x1 .f32) (main_arg25 : FVec F S1 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x64 .f32 := Host.absf main_arg10
  let main_cst_14 : FVec F S_ .f32 := constant S_ .f32 0x7F800000#32
  let main_v40 : FVec F S32x64 .f32 := broadcastInDim S32x64 ![] bcast_S_S32x64 main_cst_14
  let main_v41 : IVec S32x64 1 := cmpf .olt main_v39 main_v40
  let main_c_15 : IVec S_ 1 := constantI S_ 1 1#1
  let main_v42 : IVec S_ 1 := (fun x v => Host.reduce IntOp.andi x v reducesTo_S32x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg9 main_arg13 main_arg14 main_arg15 main_arg16 main_arg17 main_arg18 main_arg19 main_arg20 main_arg21 main_arg22 main_arg23 main_arg24 main_arg25 main_v48 main_v49 main_v50

def fn_part1 {F : FTy → Type} [FloatOps F] (main_arg6 : FVec F S32 .f32) (main_arg7 : FVec F S32 .f32) (main_arg8 : FVec F S32 .f32) (main_arg9 : FVec F S32 .f32) (main_arg10 : FVec F S32x64 .f32) (main_arg11 : FVec F S64 .f32) (main_arg12 : FVec F S64 .f32) (main_arg13 : FVec F S64 .f32) (main_arg14 : FVec F S64 .f32) (main_arg15 : FVec F S64 .f32) (main_arg16 : FVec F S64x128 .f32) (main_arg17 : FVec F S128 .f32) (main_arg18 : FVec F S128 .f32) (main_arg19 : FVec F S128 .f32) (main_arg20 : FVec F S128 .f32) (main_arg21 : FVec F S128 .f32) (main_arg22 : FVec F S128x64 .f32) (main_arg23 : FVec F S64 .f32) (main_arg24 : FVec F S64x1 .f32) (main_arg25 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S100000x64 .f32) (main_arg1 : IVec S2x1600000 32) (main_arg2 : FVec F S1600000 .f32) (main_arg3 : IVec S100000 32) (main_arg4 : FVec F S64x32 .f32) (main_arg5 : FVec F S32 .f32) (main_arg6 : FVec F S32 .f32) (main_arg7 : FVec F S32 .f32) (main_arg8 : FVec F S32 .f32) (main_arg9 : FVec F S32 .f32) (main_arg10 : FVec F S32x64 .f32) (main_arg11 : FVec F S64 .f32) (main_arg12 : FVec F S64 .f32) (main_arg13 : FVec F S64 .f32) (main_arg14 : FVec F S64 .f32) (main_arg15 : FVec F S64 .f32) (main_arg16 : FVec F S64x128 .f32) (main_arg17 : FVec F S128 .f32) (main_arg18 : FVec F S128 .f32) (main_arg19 : FVec F S128 .f32) (main_arg20 : FVec F S128 .f32) (main_arg21 : FVec F S128 .f32) (main_arg22 : FVec F S128x64 .f32) (main_arg23 : FVec F S64 .f32) (main_arg24 : FVec F S64x1 .f32) (main_arg25 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x32 .f32 := Host.absf main_arg4
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S100000 : Shape := ⟨1, ![100000]⟩
abbrev S64x32 : Shape := ⟨2, ![64, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S1x1600000 : Shape := ⟨2, ![1, 1600000]⟩
abbrev S_ : Shape := ⟨0, ![]⟩
abbrev S1600000x1 : Shape := ⟨2, ![1600000, 1]⟩
abbrev S100000x1 : Shape := ⟨2, ![100000, 1]⟩
abbrev S1x32 : Shape := ⟨2, ![1, 32]⟩
abbrev S100000x32 : Shape := ⟨2, ![100000, 32]⟩
abbrev S5000x64 : Shape := ⟨2, ![5000, 64]⟩
abbrev S5000x32 : Shape := ⟨2, ![5000, 32]⟩
abbrev S1600000x32 : Shape := ⟨2, ![1600000, 32]⟩
abbrev S1x64 : Shape := ⟨2, ![1, 64]⟩
abbrev S1600000x64 : Shape := ⟨2, ![1600000, 64]⟩
abbrev S1x128 : Shape := ⟨2, ![1, 128]⟩
abbrev S100000x128 : Shape := ⟨2, ![100000, 128]⟩
abbrev S5000x128 : Shape := ⟨2, ![5000, 128]⟩
abbrev S1600000x128 : Shape := ⟨2, ![1600000, 128]⟩
abbrev S64x64 : Shape := ⟨2, ![64, 64]⟩
abbrev S1x1 : Shape := ⟨2, ![1, 1]⟩

abbrev nBuf : Space → Nat
  | .hbm => 181
  | .vmem => 60
  | .smem => 0
  | _ => 0

abbrev hbmTy0_0 (i : Nat) : BufTy := match i % 128 with
  | 0 => ⟨S100000x64, .f32⟩
  | 1 => ⟨S2x1600000, .i32⟩
  | 2 => ⟨S1600000, .f32⟩
  | 3 => ⟨S100000, .i32⟩
  | 4 => ⟨S64x32, .f32⟩
  | 5 => ⟨S32, .f32⟩
  | 6 => ⟨S32, .f32⟩
  | 7 => ⟨S32, .f32⟩
  | 8 => ⟨S32, .f32⟩
  | 9 => ⟨S32, .f32⟩
  | 10 => ⟨S32x64, .f32⟩
  | 11 => ⟨S64, .f32⟩
  | 12 => ⟨S64, .f32⟩
  | 13 => ⟨S64, .f32⟩
  | 14 => ⟨S64, .f32⟩
  | 15 => ⟨S64, .f32⟩
  | 16 => ⟨S64x128, .f32⟩
  | 17 => ⟨S128, .f32⟩
  | 18 => ⟨S128, .f32⟩
  | 19 => ⟨S128, .f32⟩
  | 20 => ⟨S128, .f32⟩
  | 21 => ⟨S128, .f32⟩
  | 22 => ⟨S128x64, .f32⟩
  | 23 => ⟨S64, .f32⟩
  | 24 => ⟨S64x1, .f32⟩
  | 25 => ⟨S1, .f32⟩
  | 26 => ⟨S1x1600000, .i32⟩
  | 27 => ⟨S1600000, .i32⟩
  | 28 => ⟨S1x1600000, .i32⟩
  | 29 => ⟨S1600000, .i32⟩
  | 30 => ⟨S1x1600000, .i32⟩
  | 31 => ⟨S1600000, .i32⟩
  | 32 => ⟨S1x1600000, .i32⟩
  | 33 => ⟨S1600000, .i32⟩
  | 34 => ⟨S_, .f32⟩
  | 35 => ⟨S100000, .f32⟩
  | 36 => ⟨S1600000x1, .i32⟩
  | 37 => ⟨S100000, .f32⟩
  | 38 => ⟨S_, .f32⟩
  | 39 => ⟨S100000, .f32⟩
  | 40 => ⟨S100000, .f32⟩
  | 41 => ⟨S_, .f32⟩
  | 42 => ⟨S100000, .f32⟩
  | 43 => ⟨S100000, .i1⟩
  | 44 => ⟨S100000, .f32⟩
  | 45 => ⟨S_, .f32⟩
  | 46 => ⟨S100000, .f32⟩
  | 47 => ⟨S100000, .f32⟩
  | 48 => ⟨S_, .f32⟩
  | 49 => ⟨S_, .f32⟩
  | 50 => ⟨S100000, .f32⟩
  | 51 => ⟨S100000, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000, .f32⟩
  | 61 => ⟨S1600000, .f32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S1600000x1, .i32⟩
  | 70 => ⟨S1600000, .f32⟩
  | 71 => ⟨S1600000, .f32⟩
  | 72 => ⟨S100000, .f32⟩
  | 73 => ⟨S100000x1, .f32⟩
  | 74 => ⟨S100000x64, .f32⟩
  | 75 => ⟨S100000x64, .f32⟩
  | 76 => ⟨S1x32, .f32⟩
  | 77 => ⟨S100000x32, .f32⟩
  | 78 => ⟨S100000x32, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x32, .f32⟩
  | 88 => ⟨S1600000x1, .f32⟩
  | 89 => ⟨S1600000x32, .f32⟩
  | 90 => ⟨S1600000x32, .f32⟩
  | 91 => ⟨S_, .f32⟩
  | 92 => ⟨S100000x32, .f32⟩
  | 93 => ⟨S1600000x1, .i32⟩
  | 94 => ⟨S100000x32, .f32⟩
  | 95 => ⟨S1x32, .f32⟩
  | 96 => ⟨S1x32, .f32⟩
  | 97 => ⟨S1x32, .f32⟩
  | 98 => ⟨S1x32, .f32⟩
  | 99 => ⟨S100000x32, .f32⟩
  | 100 => ⟨S100000x1, .f32⟩
  | 101 => ⟨S100000x32, .f32⟩
  | 102 => ⟨S100000x32, .f32⟩
  | 103 => ⟨S1x64, .f32⟩
  | 104 => ⟨S100000x64, .f32⟩
  | 105 => ⟨S100000x64, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000x64, .f32⟩
  | 115 => ⟨S1600000x1, .f32⟩
  | 116 => ⟨S1600000x64, .f32⟩
  | 117 => ⟨S1600000x64, .f32⟩
  | 118 => ⟨S_, .f32⟩
  | 119 => ⟨S100000x64, .f32⟩
  | 120 => ⟨S1600000x1, .i32⟩
  | 121 => ⟨S100000x64, .f32⟩
  | 122 => ⟨S1x64, .f32⟩
  | 123 => ⟨S1x64, .f32⟩
  | 124 => ⟨S1x64, .f32⟩
  | 125 => ⟨S1x64, .f32⟩
  | 126 => ⟨S100000x64, .f32⟩
  | 127 => ⟨S100000x1, .f32⟩
  | _ => ⟨S100000x64, .f32⟩

abbrev hbmTy0_1 (i : Nat) : BufTy := match i % 128 with
  | 0 => ⟨S100000x64, .f32⟩
  | 1 => ⟨S100000x64, .f32⟩
  | 2 => ⟨S1x128, .f32⟩
  | 3 => ⟨S100000x128, .f32⟩
  | 4 => ⟨S100000x128, .f32⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S1600000x128, .f32⟩
  | 14 => ⟨S1600000x1, .f32⟩
  | 15 => ⟨S1600000x128, .f32⟩
  | 16 => ⟨S1600000x128, .f32⟩
  | 17 => ⟨S_, .f32⟩
  | 18 => ⟨S100000x128, .f32⟩
  | 19 => ⟨S1600000x1, .i32⟩
  | 20 => ⟨S100000x128, .f32⟩
  | 21 => ⟨S1x128, .f32⟩
  | 22 => ⟨S1x128, .f32⟩
  | 23 => ⟨S1x128, .f32⟩
  | 24 => ⟨S1x128, .f32⟩
  | 25 => ⟨S100000x128, .f32⟩
  | 26 => ⟨S_, .f32⟩
  | 27 => ⟨S64x128, .f32⟩
  | 28 => ⟨S100000x1, .i32⟩
  | 29 => ⟨S64x128, .f32⟩
  | 30 => ⟨S_, .f32⟩
  | 31 => ⟨S100000, .f32⟩
  | 32 => ⟨S_, .f32⟩
  | 33 => ⟨S64, .f32⟩
  | 34 => ⟨S100000x1, .i32⟩
  | 35 => ⟨S64, .f32⟩
  | 36 => ⟨S_, .f32⟩
  | 37 => ⟨S64, .f32⟩
  | 38 => ⟨S64, .f32⟩
  | 39 => ⟨S64x1, .f32⟩
  | 40 => ⟨S64x128, .f32⟩
  | 41 => ⟨S64x128, .f32⟩
  | 42 => ⟨S64x64, .f32⟩
  | 43 => ⟨S1x64, .f32⟩
  | 44 => ⟨S64x64, .f32⟩
  | 45 => ⟨S64x64, .f32⟩
  | 46 => ⟨S_, .f32⟩
  | 47 => ⟨S64x64, .f32⟩
  | 48 => ⟨S64x64, .f32⟩
  | 49 => ⟨S64x1, .f32⟩
  | 50 => ⟨S1x1, .f32⟩
  | 51 => ⟨S64x1, .f32⟩
  | 52 => ⟨S64x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x32, .f32⟩
  | .local _ .vmem, ⟨5, _⟩ => ⟨S1x32, .f32⟩
  | .local _ .vmem, ⟨6, _⟩ => ⟨S5000x32, .f32⟩
  | .local _ .vmem, ⟨7, _⟩ => ⟨S5000x32, .f32⟩
  | .local _ .vmem, ⟨8, _⟩ => ⟨S5000x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S5000x32, .f32⟩
  | .local _ .vmem, ⟨14, _⟩ => ⟨S1x32, .f32⟩
  | .local _ .vmem, ⟨15, _⟩ => ⟨S1x32, .f32⟩
  | .local _ .vmem, ⟨16, _⟩ => ⟨S1x32, .f32⟩
  | .local _ .vmem, ⟨17, _⟩ => ⟨S1x32, .f32⟩
  | .local _ .vmem, ⟨18, _⟩ => ⟨S5000x32, .f32⟩
  | .local _ .vmem, ⟨19, _⟩ => ⟨S5000x32, .f32⟩
  | .local _ .vmem, ⟨20, _⟩ => ⟨S5000x32, .f32⟩
  | .local _ .vmem, ⟨21, _⟩ => ⟨S5000x32, .f32⟩
  | .local _ .vmem, ⟨22, _⟩ => ⟨S5000x32, .f32⟩
  | .local _ .vmem, ⟨23, _⟩ => ⟨S5000x32, .f32⟩
  | .local _ .vmem, ⟨24, _⟩ => ⟨S32x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S1x64, .f32⟩
  | .local _ .vmem, ⟨35, _⟩ => ⟨S1x64, .f32⟩
  | .local _ .vmem, ⟨36, _⟩ => ⟨S1x64, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S64x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst_0 : Ref sig .tc := ⟨.hbm, 38, rfl⟩
abbrev main_v11 : Ref sig .tc := ⟨.hbm, 39, rfl⟩
abbrev main_v12 : Ref sig .tc := ⟨.hbm, 40, rfl⟩
abbrev main_cst_1 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_2 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_call0_v0 : Ref sig .tc := ⟨.hbm, 49, rfl⟩
abbrev main_call0_v1 : Ref sig .tc := ⟨.hbm, 50, rfl⟩
abbrev main_v18 : Ref sig .tc := ⟨.hbm, 51, rfl⟩
abbrev main_c : Ref sig .tc := ⟨.hbm, 52, rfl⟩
abbrev main_v19 : Ref sig .tc := ⟨.hbm, 53, rfl⟩
abbrev main_v20 : Ref sig .tc := ⟨.hbm, 54, rfl⟩
abbrev main_c_4 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_c_5 : Ref sig .tc := ⟨.hbm, 62, rfl⟩
abbrev main_v27 : Ref sig .tc := ⟨.hbm, 63, rfl⟩
abbrev main_v28 : Ref sig .tc := ⟨.hbm, 64, rfl⟩
abbrev main_c_6 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40_0 : Ref sig .tc := ⟨.hbm, 77, rfl⟩
abbrev main_v40_1 : Ref sig .tc := ⟨.hbm, 78, rfl⟩
abbrev main_c_7 : Ref sig .tc := ⟨.hbm, 79, rfl⟩
abbrev main_v41 : Ref sig .tc := ⟨.hbm, 80, rfl⟩
abbrev main_v42 : Ref sig .tc := ⟨.hbm, 81, rfl⟩
abbrev main_c_8 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_cst_9 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63_0 : Ref sig .tc := ⟨.hbm, 104, rfl⟩
abbrev main_v63_1 : Ref sig .tc := ⟨.hbm, 105, rfl⟩
abbrev main_c_10 : Ref sig .tc := ⟨.hbm, 106, rfl⟩
abbrev main_v64 : Ref sig .tc := ⟨.hbm, 107, rfl⟩
abbrev main_v65 : Ref sig .tc := ⟨.hbm, 108, rfl⟩
abbrev main_c_11 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_cst_12 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86_0 : Ref sig .tc := ⟨.hbm, 131, rfl⟩
abbrev main_v86_1 : Ref sig .tc := ⟨.hbm, 132, rfl⟩
abbrev main_c_13 : Ref sig .tc := ⟨.hbm, 133, rfl⟩
abbrev main_v87 : Ref sig .tc := ⟨.hbm, 134, rfl⟩
abbrev main_v88 : Ref sig .tc := ⟨.hbm, 135, rfl⟩
abbrev main_c_14 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_cst_15 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_cst_16 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_cst_17 : Ref sig .tc := ⟨.hbm, 158, rfl⟩
abbrev main_v108 : Ref sig .tc := ⟨.hbm, 159, rfl⟩
abbrev main_cst_18 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_cst_19 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_call1_cst : Ref sig .tc := ⟨.hbm, 174, rfl⟩
abbrev main_call1_v0 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg4_1 : Ref sig .tc := ⟨.vmem, 47, rfl⟩
abbrev cc4_stg5_0 : Ref sig .tc := ⟨.vmem, 48, rfl⟩
abbrev cc4_stg5_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg3_0 : Ref sig .tc := ⟨.vmem, 55, rfl⟩
abbrev cc5_stg4_0 : Ref sig .tc := ⟨.vmem, 56, rfl⟩
abbrev cc5_stg5_0 : Ref sig .tc := ⟨.vmem, 57, rfl⟩
abbrev cc5_stg6_0 : Ref sig .tc := ⟨.vmem, 58, rfl⟩
abbrev cc5_stg6_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem4_1 : DmaSem sig := 47
abbrev cc4_sem5_0 : DmaSem sig := 48
abbrev cc4_sem5_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem3_0 : DmaSem sig := 55
abbrev cc5_sem4_0 : DmaSem sig := 56
abbrev cc5_sem5_0 : DmaSem sig := 57
abbrev cc5_sem6_0 : DmaSem sig := 58
abbrev cc5_sem6_1 : DmaSem sig := 59

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S32_S1x32 : S32.ShapeCasts S1x32
  inb_S64x32_S64x32_0_0 : ∀ a, (![0, 0] : Fin 2 → Nat) a + S64x32.size a ≤ S64x32.size a
  h_S64x32 : 0 < S64x32.numel
  bitsLt_bf16_f32 : FTy.bits .bf16 < FTy.bits .f32
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x32_S5000x32_0_0 : ∀ a, (![0, 0] : Fin 2 → Nat) a + S5000x32.size a ≤ S5000x32.size a
  h_S5000x32 : 0 < S5000x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  shapeCasts_S5000x32_S5000x32 : S5000x32.ShapeCasts S5000x32
  bcast_S100000x1_S100000x32_0_1 : S100000x1.BroadcastsInDim S100000x32 (![0, 1] : Fin 2 → Fin S100000x32.rank)
  shapeCasts_S64_S1x64 : S64.ShapeCasts S1x64
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S128_S1x128 : S128.ShapeCasts S1x128
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S5000x128_S5000x128 : S5000x128.ShapeCasts S5000x128
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x64_S64x32_S5000x32_1_0_0_1_n_n_wf : DotDims.WF S5000x64 S64x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x64_S5000x64_1_0_0_1_n_n_wf : DotDims.WF S5000x32 S32x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x64_S64x64_1_0_0_1_n_n_wf : DotDims.WF S64x128 S128x64 S64x64 [1] [0] [0] [1] [] []
  dot_S64x64_S64x1_S64x1_1_0_0_1_n_n_wf : DotDims.WF S64x64 S64x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x32.size a ≤ S64x32.size a
  hwx0_2 : ∀ i : grid0.Coords, EltTy.bits .f32 = 32 ∨ (Rect.block (s := S64x32) S64x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x32.size a ≤ S100000x32.size a
  hwx0_4 : ∀ i : grid0.Coords, EltTy.bits .f32 = 32 ∨ (Rect.block (s := S100000x32) S5000x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x32.size a ≤ S100000x32.size a
  hwx0_5 : ∀ i : grid0.Coords, EltTy.bits .f32 = 32 ∨ (Rect.block (s := S100000x32) S5000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x32.size a ≤ S100000x32.size a
  hwx1_6 : ∀ i : grid1.Coords, EltTy.bits .f32 = 32 ∨ (Rect.block (s := S100000x32) S5000x32.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x32.size a ≤ S100000x32.size a
  hwx2_1 : ∀ i : grid2.Coords, EltTy.bits .f32 = 32 ∨ (Rect.block (s := S100000x32) S5000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x64.size a ≤ S32x64.size a
  hwx2_2 : ∀ i : grid2.Coords, EltTy.bits .f32 = 32 ∨ (Rect.block (s := S32x64) S32x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x128.size a ≤ S64x128.size a
  hwx4_2 : ∀ i : grid4.Coords, EltTy.bits .f32 = 32 ∨ (Rect.block (s := S64x128) S64x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S100000x128.size a
  hwx4_5 : ∀ i : grid4.Coords, EltTy.bits .f32 = 32 ∨ (Rect.block (s := S100000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S100000x128.size a
  hwx5_6 : ∀ i : grid5.Coords, EltTy.bits .f32 = 32 ∨ (Rect.block (s := S100000x128) S5000x128.size (cc5_transform_6 i) (hinb5_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v39) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v40_0) S5000x32.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v40_1) S5000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v53) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40_1) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v54) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v57) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v58) S5000x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v58) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S5000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S32x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63_0) S5000x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v63_1) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v76) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63_1) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v77) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v78) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v79) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v80) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v81) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v81) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v84) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg16) S64x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v85) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v86_0) S5000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v86_1) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v99) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v86_1) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v100) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v101) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v102) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v103) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v104) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S100000 : Shape := ⟨1, ![100000]⟩
abbrev S64x32 : Shape := ⟨2, ![64, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S1x1600000 : Shape := ⟨2, ![1, 1600000]⟩
abbrev S_ : Shape := ⟨0, ![]⟩
abbrev S1600000x1 : Shape := ⟨2, ![1600000, 1]⟩
abbrev S100000x32 : Shape := ⟨2, ![100000, 32]⟩
abbrev S1600000x32 : Shape := ⟨2, ![1600000, 32]⟩
abbrev S100000x1 : Shape := ⟨2, ![100000, 1]⟩
abbrev S1x32 : Shape := ⟨2, ![1, 32]⟩
abbrev S1600000x64 : Shape := ⟨2, ![1600000, 64]⟩
abbrev S1x64 : Shape := ⟨2, ![1, 64]⟩
abbrev S100000x128 : Shape := ⟨2, ![100000, 128]⟩
abbrev S1600000x128 : Shape := ⟨2, ![1600000, 128]⟩
abbrev S1x128 : Shape := ⟨2, ![1, 128]⟩
abbrev S64x64 : Shape := ⟨2, ![64, 64]⟩
abbrev S1x1 : Shape := ⟨2, ![1, 1]⟩

abbrev nBuf : Space → Nat
  | .hbm => 223
  | .vmem => 0
  | .smem => 0
  | _ => 0

abbrev hbmTy0_0 (i : Nat) : BufTy := match i % 128 with
  | 0 => ⟨S100000x64, .f32⟩
  | 1 => ⟨S2x1600000, .i32⟩
  | 2 => ⟨S1600000, .f32⟩
  | 3 => ⟨S100000, .i32⟩
  | 4 => ⟨S64x32, .f32⟩
  | 5 => ⟨S32, .f32⟩
  | 6 => ⟨S32, .f32⟩
  | 7 => ⟨S32, .f32⟩
  | 8 => ⟨S32, .f32⟩
  | 9 => ⟨S32, .f32⟩
  | 10 => ⟨S32x64, .f32⟩
  | 11 => ⟨S64, .f32⟩
  | 12 => ⟨S64, .f32⟩
  | 13 => ⟨S64, .f32⟩
  | 14 => ⟨S64, .f32⟩
  | 15 => ⟨S64, .f32⟩
  | 16 => ⟨S64x128, .f32⟩
  | 17 => ⟨S128, .f32⟩
  | 18 => ⟨S128, .f32⟩
  | 19 => ⟨S128, .f32⟩
  | 20 => ⟨S128, .f32⟩
  | 21 => ⟨S128, .f32⟩
  | 22 => ⟨S128x64, .f32⟩
  | 23 => ⟨S64, .f32⟩
  | 24 => ⟨S64x1, .f32⟩
  | 25 => ⟨S1, .f32⟩
  | 26 => ⟨S1x1600000, .i32⟩
  | 27 => ⟨S1600000, .i32⟩
  | 28 => ⟨S1x1600000, .i32⟩
  | 29 => ⟨S1600000, .i32⟩
  | 30 => ⟨S1x1600000, .i32⟩
  | 31 => ⟨S1600000, .i32⟩
  | 32 => ⟨S1x1600000, .i32⟩
  | 33 => ⟨S1600000, .i32⟩
  | 34 => ⟨S_, .f32⟩
  | 35 => ⟨S100000, .f32⟩
  | 36 => ⟨S1600000x1, .i32⟩
  | 37 => ⟨S100000, .f32⟩
  | 38 => ⟨S_, .f32⟩
  | 39 => ⟨S100000, .f32⟩
  | 40 => ⟨S100000, .f32⟩
  | 41 => ⟨S_, .f32⟩
  | 42 => ⟨S100000, .f32⟩
  | 43 => ⟨S100000, .i1⟩
  | 44 => ⟨S100000, .f32⟩
  | 45 => ⟨S_, .f32⟩
  | 46 => ⟨S100000, .f32⟩
  | 47 => ⟨S100000, .f32⟩
  | 48 => ⟨S_, .f32⟩
  | 49 => ⟨S_, .f32⟩
  | 50 => ⟨S100000, .f32⟩
  | 51 => ⟨S100000, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000, .f32⟩
  | 61 => ⟨S1600000, .f32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S1600000x1, .i32⟩
  | 70 => ⟨S1600000, .f32⟩
  | 71 => ⟨S1600000, .f32⟩
  | 72 => ⟨S100000, .f32⟩
  | 73 => ⟨S100000x32, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000x32, .f32⟩
  | 83 => ⟨S1600000x1, .f32⟩
  | 84 => ⟨S1600000x32, .f32⟩
  | 85 => ⟨S1600000x32, .f32⟩
  | 86 => ⟨S_, .f32⟩
  | 87 => ⟨S100000x32, .f32⟩
  | 88 => ⟨S1600000x1, .i32⟩
  | 89 => ⟨S100000x32, .f32⟩
  | 90 => ⟨S100000x1, .f32⟩
  | 91 => ⟨S100000x32, .f32⟩
  | 92 => ⟨S100000x32, .f32⟩
  | 93 => ⟨S100000x32, .f32⟩
  | 94 => ⟨S1x32, .f32⟩
  | 95 => ⟨S100000x32, .f32⟩
  | 96 => ⟨S100000x32, .f32⟩
  | 97 => ⟨S1x32, .f32⟩
  | 98 => ⟨S100000x32, .f32⟩
  | 99 => ⟨S100000x32, .f32⟩
  | 100 => ⟨S_, .f32⟩
  | 101 => ⟨S32, .f32⟩
  | 102 => ⟨S32, .f32⟩
  | 103 => ⟨S32, .f32⟩
  | 104 => ⟨S32, .f32⟩
  | 105 => ⟨S1x32, .f32⟩
  | 106 => ⟨S100000x32, .f32⟩
  | 107 => ⟨S100000x32, .f32⟩
  | 108 => ⟨S1x32, .f32⟩
  | 109 => ⟨S100000x32, .f32⟩
  | 110 => ⟨S100000x32, .f32⟩
  | 111 => ⟨S_, .f32⟩
  | 112 => ⟨S100000x32, .f32⟩
  | 113 => ⟨S100000x32, .f32⟩
  | 114 => ⟨S100000x64, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1600000x64, .f32⟩
  | 124 => ⟨S1600000x1, .f32⟩
  | 125 => ⟨S1600000x64, .f32⟩
  | 126 => ⟨S1600000x64, .f32⟩
  | 127 => ⟨S_, .f32⟩
  | _ => ⟨S100000x64, .f32⟩

abbrev hbmTy0_1 (i : Nat) : BufTy := match i % 128 with
  | 0 => ⟨S100000x64, .f32⟩
  | 1 => ⟨S1600000x1, .i32⟩
  | 2 => ⟨S100000x64, .f32⟩
  | 3 => ⟨S100000x1, .f32⟩
  | 4 => ⟨S100000x64, .f32⟩
  | 5 => ⟨S100000x64, .f32⟩
  | 6 => ⟨S100000x64, .f32⟩
  | 7 => ⟨S1x64, .f32⟩
  | 8 => ⟨S100000x64, .f32⟩
  | 9 => ⟨S100000x64, .f32⟩
  | 10 => ⟨S1x64, .f32⟩
  | 11 => ⟨S100000x64, .f32⟩
  | 12 => ⟨S100000x64, .f32⟩
  | 13 => ⟨S_, .f32⟩
  | 14 => ⟨S64, .f32⟩
  | 15 => ⟨S64, .f32⟩
  | 16 => ⟨S64, .f32⟩
  | 17 => ⟨S64, .f32⟩
  | 18 => ⟨S1x64, .f32⟩
  | 19 => ⟨S100000x64, .f32⟩
  | 20 => ⟨S100000x64, .f32⟩
  | 21 => ⟨S1x64, .f32⟩
  | 22 => ⟨S100000x64, .f32⟩
  | 23 => ⟨S100000x64, .f32⟩
  | 24 => ⟨S_, .f32⟩
  | 25 => ⟨S100000x64, .f32⟩
  | 26 => ⟨S100000x64, .f32⟩
  | 27 => ⟨S100000x128, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x128, .f32⟩
  | 37 => ⟨S1600000x1, .f32⟩
  | 38 => ⟨S1600000x128, .f32⟩
  | 39 => ⟨S1600000x128, .f32⟩
  | 40 => ⟨S_, .f32⟩
  | 41 => ⟨S100000x128, .f32⟩
  | 42 => ⟨S1600000x1, .i32⟩
  | 43 => ⟨S100000x128, .f32⟩
  | 44 => ⟨S100000x1, .f32⟩
  | 45 => ⟨S100000x128, .f32⟩
  | 46 => ⟨S100000x128, .f32⟩
  | 47 => ⟨S100000x128, .f32⟩
  | 48 => ⟨S1x128, .f32⟩
  | 49 => ⟨S100000x128, .f32⟩
  | 50 => ⟨S100000x128, .f32⟩
  | 51 => ⟨S1x128, .f32⟩
  | 52 => ⟨S100000x128, .f32⟩
  | 53 => ⟨S100000x128, .f32⟩
  | 54 => ⟨S_, .f32⟩
  | 55 => ⟨S128, .f32⟩
  | 56 => ⟨S128, .f32⟩
  | 57 => ⟨S128, .f32⟩
  | 58 => ⟨S128, .f32⟩
  | 59 => ⟨S1x128, .f32⟩
  | 60 => ⟨S100000x128, .f32⟩
  | 61 => ⟨S100000x128, .f32⟩
  | 62 => ⟨S1x128, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S_, .f32⟩
  | 69 => ⟨S64x128, .f32⟩
  | 70 => ⟨S100000x1, .i32⟩
  | 71 => ⟨S64x128, .f32⟩
  | 72 => ⟨S_, .f32⟩
  | 73 => ⟨S100000, .f32⟩
  | 74 => ⟨S_, .f32⟩
  | 75 => ⟨S64, .f32⟩
  | 76 => ⟨S100000x1, .i32⟩
  | 77 => ⟨S64, .f32⟩
  | 78 => ⟨S_, .f32⟩
  | 79 => ⟨S64, .f32⟩
  | 80 => ⟨S64, .f32⟩
  | 81 => ⟨S64x1, .f32⟩
  | 82 => ⟨S64x128, .f32⟩
  | 83 => ⟨S64x128, .f32⟩
  | 84 => ⟨S64x64, .f32⟩
  | 85 => ⟨S1x64, .f32⟩
  | 86 => ⟨S64x64, .f32⟩
  | 87 => ⟨S64x64, .f32⟩
  | 88 => ⟨S_, .f32⟩
  | 89 => ⟨S64x64, .f32⟩
  | 90 => ⟨S64x64, .f32⟩
  | 91 => ⟨S64x1, .f32⟩
  | 92 => ⟨S1x1, .f32⟩
  | 93 => ⟨S64x1, .f32⟩
  | 94 => ⟨S64x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst_0 : Ref sig .tc := ⟨.hbm, 38, rfl⟩
abbrev main_v11 : Ref sig .tc := ⟨.hbm, 39, rfl⟩
abbrev main_v12 : Ref sig .tc := ⟨.hbm, 40, rfl⟩
abbrev main_cst_1 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_2 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_call0_v0 : Ref sig .tc := ⟨.hbm, 49, rfl⟩
abbrev main_call0_v1 : Ref sig .tc := ⟨.hbm, 50, rfl⟩
abbrev main_v18 : Ref sig .tc := ⟨.hbm, 51, rfl⟩
abbrev main_c : Ref sig .tc := ⟨.hbm, 52, rfl⟩
abbrev main_v19 : Ref sig .tc := ⟨.hbm, 53, rfl⟩
abbrev main_v20 : Ref sig .tc := ⟨.hbm, 54, rfl⟩
abbrev main_c_4 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_c_5 : Ref sig .tc := ⟨.hbm, 62, rfl⟩
abbrev main_v27 : Ref sig .tc := ⟨.hbm, 63, rfl⟩
abbrev main_v28 : Ref sig .tc := ⟨.hbm, 64, rfl⟩
abbrev main_c_6 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_c_7 : Ref sig .tc := ⟨.hbm, 74, rfl⟩
abbrev main_v37 : Ref sig .tc := ⟨.hbm, 75, rfl⟩
abbrev main_v38 : Ref sig .tc := ⟨.hbm, 76, rfl⟩
abbrev main_c_8 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_cst_9 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_cst_10 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_call1_cst : Ref sig .tc := ⟨.hbm, 111, rfl⟩
abbrev main_call1_v0 : Ref sig .tc := ⟨.hbm, 112, rfl⟩
abbrev main_v70 : Ref sig .tc := ⟨.hbm, 113, rfl⟩
abbrev main_v71 : Ref sig .tc := ⟨.hbm, 114, rfl⟩
abbrev main_c_11 : Ref sig .tc := ⟨.hbm, 115, rfl⟩
abbrev main_v72 : Ref sig .tc := ⟨.hbm, 116, rfl⟩
abbrev main_v73 : Ref sig .tc := ⟨.hbm, 117, rfl⟩
abbrev main_c_12 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_cst_13 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_cst_14 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_call2_cst : Ref sig .tc := ⟨.hbm, 152, rfl⟩
abbrev main_call2_v0 : Ref sig .tc := ⟨.hbm, 153, rfl⟩
abbrev main_v105 : Ref sig .tc := ⟨.hbm, 154, rfl⟩
abbrev main_v106 : Ref sig .tc := ⟨.hbm, 155, rfl⟩
abbrev main_c_15 : Ref sig .tc := ⟨.hbm, 156, rfl⟩
abbrev main_v107 : Ref sig .tc := ⟨.hbm, 157, rfl⟩
abbrev main_v108 : Ref sig .tc := ⟨.hbm, 158, rfl⟩
abbrev main_c_16 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_cst_17 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_cst_18 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_call3_cst : Ref sig .tc := ⟨.hbm, 193, rfl⟩
abbrev main_call3_v0 : Ref sig .tc := ⟨.hbm, 194, rfl⟩
abbrev main_v140 : Ref sig .tc := ⟨.hbm, 195, rfl⟩
abbrev main_cst_19 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_cst_20 : Ref sig .tc := ⟨.hbm, 200, rfl⟩
abbrev main_v144 : Ref sig .tc := ⟨.hbm, 201, rfl⟩
abbrev main_cst_21 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_cst_22 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_call4_cst : Ref sig .tc := ⟨.hbm, 216, rfl⟩
abbrev main_call4_v0 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S32 : S_.BroadcastsInDim S32 (![] : Fin 0 → Fin S32.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x64_S100000x64_1_0_0_1_n_n_wf : DotDims.WF S100000x32 S32x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x64_S64x64_1_0_0_1_n_n_wf : DotDims.WF S64x128 S128x64 S64x64 [1] [0] [0] [1] [] []
  dot_S64x64_S64x1_S64x1_1_0_0_1_n_n_wf : DotDims.WF S64x64 S64x1 S64x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

class Facts : Prop extends Facts₀ where

variable [Facts]
-- ==== Proof.RunValue.lean ====
/-
  The kernel program's run with its RESULT kept. The program is a sequence of segments (host stretches and
  pipelined regions); the run of the segments terminates without fault and ends with every unscoped buffer of a
  TensorCore at the contents the fold over the segments assigns it after the last one, `W17`. The argument buffers
  are never written, so there those contents are the launch contents; the result buffer `main_v125` is read at
  `W17` itself, which is what a value proof then computes.
-/
import proofs.«147466_j88089779241259_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option backward.isDefEq.respectTransparency.types false in
/-- From any memory with zero counters, every weakly fair execution of the program on the TensorCores terminates,
    nothing faulting, and in every final state the result buffer holds the last boundary's contents `W17` and every
    argument buffer is as launched: the final thread state holds every unscoped buffer at `W17`, read against the
    final memory; the result buffer is unscoped, and the arguments' `W17` contents are the launch contents. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v125) = W17 m ρ c (Proc.devRef .tc main_v125)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v125 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c),
       (h c _ (mem_uc main_arg13 (by decide))).trans (W17_main_arg13 m ρ c),
       (h c _ (mem_uc main_arg14 (by decide))).trans (W17_main_arg14 m ρ c),
       (h c _ (mem_uc main_arg15 (by decide))).trans (W17_main_arg15 m ρ c),
       (h c _ (mem_uc main_arg16 (by decide))).trans (W17_main_arg16 m ρ c),
       (h c _ (mem_uc main_arg17 (by decide))).trans (W17_main_arg17 m ρ c),
       (h c _ (mem_uc main_arg18 (by decide))).trans (W17_main_arg18 m ρ c),
       (h c _ (mem_uc main_arg19 (by decide))).trans (W17_main_arg19 m ρ c),
       (h c _ (mem_uc main_arg20 (by decide))).trans (W17_main_arg20 m ρ c),
       (h c _ (mem_uc main_arg21 (by decide))).trans (W17_main_arg21 m ρ c),
       (h c _ (mem_uc main_arg22 (by decide))).trans (W17_main_arg22 m ρ c),
       (h c _ (mem_uc main_arg23 (by decide))).trans (W17_main_arg23 m ρ c),
       (h c _ (mem_uc main_arg24 (by decide))).trans (W17_main_arg24 m ρ c),
       (h c _ (mem_uc main_arg25 (by decide))).trans (W17_main_arg25 m ρ c)⟩)

end Cert.KernelIdeal.RunValue

end
-- ==== Proof.PreDomain.lean ====
/-
  The domain facts the precondition `finite_inputs` carries beyond finiteness, read back at the ideal instance
  (floats as extended reals): the three variance vectors (arguments 9, 15 and 21) are nonnegative at every index,
  and the additive constant under the reciprocal square roots, the f32 pattern `0x3727C5AC`, denotes a positive real.

  The precondition is a conjunction (a chain of one-bit `and`s) of `all`-reductions. Its value being 1 makes every
  conjunct 1; an `all`-reduction being 1 makes the reduced array 1 at every index; and the array here is the
  comparison `x ≥ 0` element by element, which at the extended reals is 1 exactly when `0 ≤ x`.
-/
import proofs.«147466_j88089779241259_1_alg».proof.Defs
import Idealize.ShloMosaic.Lib.ReduceAll
import Idealize.ShloMosaic.Lib.ValueIdx
import Idealize.ShloMosaic.Lib.IdealHost

noncomputable section

namespace Cert.PreDomain

open Idealize.ShloMosaic Idealize.SL.Sem Idealize.ShloMosaic.ValueIdx
open Cert.Pre_finite_inputs (S_ S32 S64 S128)

/-- The scalar shape has exactly one index (the empty tuple of coordinates). -/
instance instSubsingletonScalarIdx : Subsingleton S_.Idx := ⟨fun a b => funext fun d => d.elim0⟩

/-- A truth value read as a one-bit word is the word 1 exactly when it is true. -/
private theorem ofBool_eq_one {b : Bool} : BitVec.ofBool b = 1#1 ↔ b = true := by cases b <;> decide

/-- At the extended reals the comparison `x ≥ +0.0` is the order's `0 ≤ x`. -/
theorem nonneg_of_cmp_oge {x : EReal} (h : Ideal.cmp .oge x (Ideal.ofBits .f32 0x00000000#32) = 1#1) :
    (0 : EReal) ≤ x := by
  rw [Ideal.ofBits_zero_f32] at h
  simpa [Ideal.cmp, ofBool_eq_one] using h

/-- The last part of the precondition is `v ∧ all (a9 ≥ 0) ∧ all (a15 ≥ 0) ∧ all (a21 ≥ 0)`, whatever the
    conjunction `v` of the earlier conjuncts is: when it is 1, the three vectors are nonnegative everywhere. -/
theorem part7_nonneg [Cert.Pre_finite_inputs.Facts]
    (a9 : FVec Ideal S32 .f32) (a15 : FVec Ideal S64 .f32) (a21 : FVec Ideal S128 .f32) (v : IVec S_ 1)
    (h : Cert.Pre_finite_inputs.fn_part7 (F := Ideal) a9 a15 a21 v (constant S_ .f32 0x00000000#32) = fun _ => 1#1) :
    (∀ i : S32.Idx, (0 : EReal) ≤ a9 i) ∧ (∀ i : S64.Idx, (0 : EReal) ≤ a15 i) ∧ (∀ i : S128.Idx, (0 : EReal) ≤ a21 i) := by
  have h0 := congrFun h ix0
  dsimp only [Cert.Pre_finite_inputs.fn_part7] at h0
  -- the outermost three `and`s, from the right: arguments 21, 15 and 9; the rest of the chain is dropped
  obtain ⟨h12, h3⟩ := IntOp.andi_eq_one.1 h0
  obtain ⟨h1', h2⟩ := IntOp.andi_eq_one.1 h12
  obtain ⟨-, h1⟩ := IntOp.andi_eq_one.1 h1'
  exact ⟨fun i => nonneg_of_cmp_oge (Host.reduce_andi_all _ _ _ _ _ h1 i),
    fun i => nonneg_of_cmp_oge (Host.reduce_andi_all _ _ _ _ _ h2 i),
    fun i => nonneg_of_cmp_oge (Host.reduce_andi_all _ _ _ _ _ h3 i)⟩

/-- Under the precondition, on every device, arguments 9, 15 and 21 are nonnegative at every index. The whole
    precondition unfolds, part by part, to its last part applied to these three arrays. -/
theorem var_nonneg_idx [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
      (∀ i : S32.Idx, (0 : EReal) ≤ m ((c.tc : Thread Cert.KernelIdeal.nD Cert.KernelIdeal.τ).loc Cert.KernelIdeal.main_arg9) i)
    ∧ (∀ i : S64.Idx, (0 : EReal) ≤ m ((c.tc : Thread Cert.KernelIdeal.nD Cert.KernelIdeal.τ).loc Cert.KernelIdeal.main_arg15) i)
    ∧ (∀ i : S128.Idx, (0 : EReal) ≤ m ((c.tc : Thread Cert.KernelIdeal.nD Cert.KernelIdeal.τ).loc Cert.KernelIdeal.main_arg21) i) :=
  part7_nonneg _ _ _ _ (h c)

/-- The same, with each index named by its one coordinate. -/
theorem var_nonneg [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
      (∀ q : Fin 32, (0 : EReal) ≤ m ((c.tc : Thread Cert.KernelIdeal.nD Cert.KernelIdeal.τ).loc Cert.KernelIdeal.main_arg9) (ix1 q))
    ∧ (∀ q : Fin 64, (0 : EReal) ≤ m ((c.tc : Thread Cert.KernelIdeal.nD Cert.KernelIdeal.τ).loc Cert.KernelIdeal.main_arg15) (ix1 q))
    ∧ (∀ q : Fin 128, (0 : EReal) ≤ m ((c.tc : Thread Cert.KernelIdeal.nD Cert.KernelIdeal.τ).loc Cert.KernelIdeal.main_arg21) (ix1 q)) :=
  ⟨fun q => (var_nonneg_idx m h c).1 (ix1 q), fun q => (var_nonneg_idx m h c).2.1 (ix1 q),
    fun q => (var_nonneg_idx m h c).2.2 (ix1 q)⟩

/-! ### The additive constant

The pattern `0x3727C5AC` has sign 0, exponent field 110 and fraction field 2606508: the normal number
`(2^23 + 2606508) · 2^(110 - 127 - 23) = 10995116 / 2^40`, the f32 nearest `1e-5`. -/

/-- The real the pattern `0x3727C5AC` denotes. -/
def eps : ℝ := 10995116 / 2 ^ 40

theorem eps_pos_real : 0 < eps := by unfold eps; norm_num

theorem ofBits_eps : Ideal.ofBits .f32 0x3727C5AC#32 = ((eps : ℝ) : EReal) := by
  unfold eps
  simp [Ideal.ofBits, Ideal.ieee, -EReal.coe_mul]; norm_num

/-- The constant is a positive real. -/
theorem eps_pos : ∃ e : ℝ, 0 < e ∧ Ideal.ofBits .f32 0x3727C5AC#32 = ((e : ℝ) : EReal) :=
  ⟨eps, eps_pos_real, ofBits_eps⟩

/-- The kernel's spelling of the constant, a scalar literal, is that real. -/
theorem scalar_ofBits_eps : Scalar.ofBits (F := Ideal) .f32 0x3727C5AC#32 = ((eps : ℝ) : EReal) := ofBits_eps

/-- The kernel's splat of the scalar literal reads that real at every index, at any shape. -/
theorem broadcast_eps_apply (s : Shape) (i : s.Idx) :
    broadcast s (Scalar.ofBits (F := Ideal) .f32 0x3727C5AC#32) i = ((eps : ℝ) : EReal) := ofBits_eps

/-- The host's constant array of the same pattern reads that same real at every index, at any shape. -/
theorem constant_eps_apply (s : Shape) (i : s.Idx) :
    constant (F := Ideal) s .f32 0x3727C5AC#32 i = ((eps : ℝ) : EReal) := ofBits_eps

end Cert.PreDomain

end
-- ==== Proof.LayerLaw.lean ====
/-
  The two laws that join the two spellings of one graph-convolution layer, on the extended reals.

  * A nonnegative REAL factor moves across a finite sum: `s · Σ f = Σ s · f`. On the extended reals the distributive
    law fails in general (`x · (⊤ + ⊥)`), but it holds for a factor that is a nonnegative real: multiplying by it
    keeps the order and fixes both infinities (or, for `s = 0`, sends everything to `0`). Hence scaling every row
    entry before a contraction equals scaling the contracted entry: `Σ_k (h_k · s) · w_k = s · Σ_k h_k · w_k`.
  * For a variance `v ≥ 0` and a real `e > 0`, the factor `g · rsqrt (v + e)` equals the quotient `g / sqrt (v + e)`:
    for a real `v` the radicand is a positive real, whose reciprocal square root is the real `(√·)⁻¹`, and dividing by
    the nonzero real `√·` is multiplying by its inverse; for `v = ⊤` both sides are `g · 0`.
  * The self-loop coefficient `d · d`, where `d` is `1 / sqrt deg` when `deg > 0` and `0` otherwise, is a nonnegative
    real for EVERY extended real `deg`.
  Together they give one layer entry in both spellings.
-/
import Mathlib.Data.EReal.Basic
import Mathlib.Data.EReal.Operations
import Mathlib.Data.EReal.Inv
import Idealize.ShloMosaic.PureOps.Ideal

open scoped BigOperators

namespace Cert.LayerLaw

open Idealize.ShloMosaic

/-- A nonnegative real factor distributes over a finite sum of extended reals. -/
theorem mul_sum_of_nonneg {ι : Type} (S : Finset ι) (s : ℝ) (hs : 0 ≤ s) (f : ι → EReal) :
    (s : EReal) * ∑ k ∈ S, f k = ∑ k ∈ S, (s : EReal) * f k := by
  classical
  induction S using Finset.induction_on with
  | empty => simp
  | insert a S ha ih =>
    rw [Finset.sum_insert ha, Finset.sum_insert ha,
      EReal.left_distrib_of_nonneg_of_ne_top (by exact_mod_cast hs) (EReal.coe_ne_top s), ih]

/-- Scaling each left factor by a nonnegative real before contracting equals scaling the contraction. -/
theorem sum_scale {K : Nat} (s : ℝ) (hs : 0 ≤ s) (h w : Fin K → EReal) :
    ∑ k, (h k * (s : EReal)) * w k = (s : EReal) * ∑ k, h k * w k := by
  rw [mul_sum_of_nonneg _ s hs]
  refine Finset.sum_congr rfl fun k _ => ?_
  rw [mul_comm (h k) (s : EReal), mul_assoc]

/-- For `v ≥ 0` and a real `e > 0`: `g · rsqrt (v + e) = g / sqrt (v + e)`. -/
theorem scale_eq (g v : EReal) (e : ℝ) (he : 0 < e) (hv : 0 ≤ v) :
    g * Ideal.rsqrt (v + (e : EReal)) = Ideal.div g (Ideal.sqrt (v + (e : EReal))) := by
  induction v using EReal.rec with
  | bot => exact absurd hv (by simp)
  | top =>
    rw [EReal.top_add_coe, Ideal.rsqrt_top, Ideal.sqrt_top, Ideal.div, if_neg EReal.top_ne_zero, EReal.inv_top]
  | coe r =>
    have hr : 0 ≤ r := by exact_mod_cast hv
    have hpos : 0 < r + e := by linarith
    rw [← EReal.coe_add, Ideal.rsqrt_coe, if_neg (not_lt.2 hpos.le), if_neg hpos.ne', Ideal.sqrt_coe,
      if_neg (not_lt.2 hpos.le)]
    have hs : Real.sqrt (r + e) ≠ 0 := (Real.sqrt_pos.2 hpos).ne'
    rw [Ideal.div_coe hs, one_div]

/-- `1 / sqrt deg` where `deg > 0`, else `0`: a nonnegative real, whatever extended real `deg` is. -/
theorem dinv_real (deg : EReal) :
    ∃ d : ℝ, 0 ≤ d ∧ (if 0 < deg then Ideal.div 1 (Ideal.sqrt deg) else 0) = (d : EReal) := by
  induction deg using EReal.rec with
  | bot => exact ⟨0, le_rfl, by simp⟩
  | top =>
    refine ⟨0, le_rfl, ?_⟩
    rw [if_pos (by simp), Ideal.sqrt_top, Ideal.div, if_neg EReal.top_ne_zero, EReal.inv_top, mul_zero]
    rfl
  | coe r =>
    by_cases h : 0 < r
    · have hs : Real.sqrt r ≠ 0 := (Real.sqrt_pos.2 h).ne'
      refine ⟨1 / Real.sqrt r, by positivity, ?_⟩
      rw [if_pos (by exact_mod_cast h), Ideal.sqrt_coe, if_neg (not_lt.2 h.le), Ideal.div_coe hs, one_mul]
    · exact ⟨0, le_rfl, by rw [if_neg (by exact_mod_cast h)]; rfl⟩

/-- One layer entry, before the final threshold, in both spellings: the kernel scales the row before the contraction,
    adds the bias inside and multiplies by `g · rsqrt`; the reference scales the contraction, adds the bias outside and
    divides by `sqrt`. -/
theorem layer_entry {K : Nat} (agg b mu g be v : EReal) (s e : ℝ) (hs : 0 ≤ s) (he : 0 < e) (hv : 0 ≤ v)
    (h w : Fin K → EReal) :
    ((agg + (∑ k, (h k * (s : EReal)) * w k + b)) - mu) * (g * Ideal.rsqrt (v + (e : EReal))) + be
      = (((agg + (s : EReal) * ∑ k, h k * w k) + b) - mu) * Ideal.div g (Ideal.sqrt (v + (e : EReal))) + be := by
  rw [sum_scale s hs, scale_eq g v e he hv, ← add_assoc]

end Cert.LayerLaw
-- ==== Proof.LibHostRowOps.lean ====
/-
  Two operations a host program makes on a `[B, n]` array, each read at an entry.

  * A column `[B, 1]` laid along both axes of `[B, n]` by the host's broadcast: every lane of row `p` holds the
    column's entry of row `p`. This is how a host program spells a per-row factor kept as a column.
  * The host's product of an `M x K` matrix by a `K x N` matrix at the exact extended reals: entry `(p, c)` is the sum
    over `k` of left `(p, k)` times right `(k, c)`. Nothing is rounded and no order of accumulation is left. The
    product's dimension record enters only through how it places the coordinates: the left operand is read at
    (row of the result, k), the right operand at (k, column of the result); these placement facts are hypotheses, so
    the lemma serves any record of that pattern.

  Nothing here mentions a program.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.HostRowOps

open Idealize.ShloMosaic Idealize.ShloMosaic.ValueIdx

variable {α : Type}

/-- A column laid along both axes of `[B, n]` holds the column's entry of row `p` in every lane of row `p`. -/
theorem bcastColHost_apply {B n : Nat} (y : (⟨2, ![B, 1]⟩ : Shape).Idx → α)
    (h : (⟨2, ![B, 1]⟩ : Shape).BroadcastsInDim (⟨2, ![B, n]⟩ : Shape) ![0, 1]) (p : Fin B) (q : Fin n) :
    broadcastInDim (⟨2, ![B, n]⟩ : Shape) ![0, 1] h y (ix2 p q) = y (ix2 p (0 : Fin 1)) :=
  broadcastInDim_apply _ h y (ix2 p q) (ix2 p (0 : Fin 1)) (fun a => match a with
    | ⟨0, _⟩ => by
        show p.val = if B = 1 then 0 else p.val
        split
        · have := p.isLt; omega
        · rfl
    | ⟨1, _⟩ => by
        show 0 = if (1 : Nat) = 1 then 0 else q.val
        rw [if_pos rfl])

/-- Entry (p, c) of the host's M x K by K x N product is the sum over k of left (p, k) * right (k, c). -/
theorem hostDot_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂) (p : Fin M) (c : Fin N) :
    Host.dotGeneral (F := Ideal) D prec l r (ix2 p c) = ∑ k : Fin K, l (ix2 p k) * r (ix2 k c) := by
  refine (Ideal.dotGeneral_apply D prec .single l r (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.HostRowOps

end
-- ==== Proof.LibRowBias.lean ====
/-
  A bias row added to every row of a `[B, n]` array, read at an index.

  * a flat vector `[n]` cast to a single row `[1, n]`: the same entry, lane by lane;
  * a single row `[1, n]` broadcast down `B` rows: every row holds the row's entries.

  Statements about indices only; the element type is arbitrary. Nothing here mentions a program.
-/
import Idealize.ShloMosaic.PureOps.Ideal
import Idealize.ShloMosaic.Lib.ValueIdx
import Idealize.ShloMosaic.Lib.Pipeline.Value

noncomputable section

namespace Cert.RowBias

open Idealize.ShloMosaic Idealize.ShloMosaic.ValueIdx

variable {α : Type}

/-- A flat vector cast to a single row holds, in lane `j`, the vector's entry `j`. -/
theorem castRow_apply {n : Nat} (v : (⟨1, ![n]⟩ : Shape).Idx → α)
    (h : Shape.ShapeCasts (⟨1, ![n]⟩ : Shape) (⟨2, ![1, n]⟩ : Shape)) (j : Fin n) :
    shapeCast (⟨2, ![1, n]⟩ : Shape) v h (ix2 (0 : Fin 1) j) = v (ix1 j) :=
  shapeCast_apply v h (ix2 (0 : Fin 1) j) (ix1 j) (by
    rw [Shape.rowMajor_val_one, Shape.rowMajor_val_two]
    show j.val = 0 * n + j.val
    omega)

/-- A single row broadcast down `B` rows holds the row's entry of lane `j` in lane `j` of every row. -/
theorem bcastRow_apply {B n : Nat} (y : (⟨2, ![1, n]⟩ : Shape).Idx → α)
    (h : Shape.Broadcasts (⟨2, ![1, n]⟩ : Shape) (⟨2, ![B, n]⟩ : Shape)) (p : Fin B) (j : Fin n) :
    broadcastTo (⟨2, ![B, n]⟩ : Shape) y h (ix2 p j) = y (ix2 (0 : Fin 1) j) :=
  broadcastTo_apply y h (ix2 p j) (ix2 (0 : Fin 1) j) (fun a => match a with
    | ⟨0, _⟩ => by
        show 0 = if (1 : Nat) = 1 then 0 else p.val
        rw [if_pos rfl]
    | ⟨1, _⟩ => by
        show j.val = if n = 1 then 0 else j.val
        split
        · have := j.isLt; omega
        · rfl)

end Cert.RowBias

end
-- ==== Proof.LayerSpec.lean ====
/-
  One graph-convolution layer over a whole [100000, K] array of node features, in two spellings, with nothing of a
  program in it.

  The arrays. `prodArr X W` is the product of a [100000, K] array by a [K, N] matrix, entry by entry;
  `prodBiasArr` adds a bias row to every row; `normArr A C G BE MU VV` is the inference-mode normalisation of A + C,
  lane by lane, thresholded at zero: max (((A + C) − mu) · (g · rsqrt (v + eps)) + be) 0.

  The kernel's spelling of a layer pre-scales the node features by the self-loop coefficient (a column laid along the
  lanes), projects the plain and the pre-scaled features, adds the bias to the second projection and normalises the
  aggregated messages plus that. The host's spelling projects once, adds coefficient · projection and the bias to the
  aggregated messages, and normalises with g / sqrt (v + eps). Given the same aggregated messages the two arrays are
  equal whenever every self-loop coefficient is a nonnegative real and every variance is ≥ 0 (`layer_eq`): a
  nonnegative real factor crosses the contraction, and rsqrt of a positive radicand is the reciprocal of sqrt.
-/
import proofs.«147466_j88089779241259_1_alg».proof.Proof.LayerLaw
import proofs.«147466_j88089779241259_1_alg».proof.Proof.LibHostRowOps
import proofs.«147466_j88089779241259_1_alg».proof.Proof.LibRowBias
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LayerSpec

open Idealize.ShloMosaic Idealize.ShloMosaic.ValueIdx

/-! ## The arrays -/

/-- The contraction of a row against a column. -/
def dotRow {K : Nat} (f g : Fin K → EReal) : EReal := ∑ k : Fin K, f k * g k

/-- The same plus a bias. -/
def dotRowBias {K : Nat} (f g : Fin K → EReal) (b : EReal) : EReal := dotRow f g + b

/-- Entry (p, q) of the product of a [100000, K] array by a [K, N] matrix. -/
def prodArr {K N : Nat} (X : (⟨2, ![100000, K]⟩ : Shape).Idx → EReal) (W : (⟨2, ![K, N]⟩ : Shape).Idx → EReal) : (⟨2, ![100000, N]⟩ : Shape).Idx → EReal :=
  fun i => dotRow (fun k : Fin K => X (ix2 (i 0) k)) (fun k : Fin K => W (ix2 k (i 1)))

/-- The same with a bias row added to every row. -/
def prodBiasArr {K N : Nat} (X : (⟨2, ![100000, K]⟩ : Shape).Idx → EReal) (W : (⟨2, ![K, N]⟩ : Shape).Idx → EReal) (B : (⟨2, ![1, N]⟩ : Shape).Idx → EReal) :
    (⟨2, ![100000, N]⟩ : Shape).Idx → EReal :=
  fun i => dotRowBias (fun k : Fin K => X (ix2 (i 0) k)) (fun k : Fin K => W (ix2 k (i 1))) (B (ix2 (0 : Fin 1) (i 1)))

/-- One normalised entry from the two summands and the four parameters of its lane. -/
def entry (a c g v mu be : EReal) : EReal :=
  max (((a + c) - mu) * (g * Ideal.rsqrt (v + Scalar.ofBits (F := Ideal) .f32 0x3727C5AC#32)) + be)
    (Scalar.ofBits (F := Ideal) .f32 0x00000000#32)

/-- The normalised array from two [100000, N] summands and four parameter rows [1, N]. -/
def normArr {N : Nat} (A C : (⟨2, ![100000, N]⟩ : Shape).Idx → EReal) (G BE MU VV : (⟨2, ![1, N]⟩ : Shape).Idx → EReal) : (⟨2, ![100000, N]⟩ : Shape).Idx → EReal :=
  fun i => entry (A i) (C i) (G (ix2 (0 : Fin 1) (i 1))) (VV (ix2 (0 : Fin 1) (i 1))) (MU (ix2 (0 : Fin 1) (i 1))) (BE (ix2 (0 : Fin 1) (i 1)))

/-! ## Host layouts read at an index -/

variable {α : Type}

/-- A vector laid out as a column [B, 1] holds entry p in row p. -/
theorem vecCol_apply {B : Nat} (y : (⟨1, ![B]⟩ : Shape).Idx → α)
    (h : (⟨1, ![B]⟩ : Shape).BroadcastsInDim (⟨2, ![B, 1]⟩ : Shape) ![0]) (p : Fin B) :
    broadcastInDim (⟨2, ![B, 1]⟩ : Shape) ![0] h y (ix2 p (0 : Fin 1)) = y (ix1 p) :=
  broadcastInDim_apply _ h y (ix2 p (0 : Fin 1)) (ix1 p) (fun a => match a with
    | ⟨0, _⟩ => by
        show p.val = if B = 1 then 0 else p.val
        split
        · have := p.isLt; omega
        · rfl)

/-- A vector laid out as a single row [1, n] holds entry q in lane q. -/
theorem vecRow_apply {n : Nat} (y : (⟨1, ![n]⟩ : Shape).Idx → α)
    (h : (⟨1, ![n]⟩ : Shape).BroadcastsInDim (⟨2, ![1, n]⟩ : Shape) ![1]) (q : Fin n) :
    broadcastInDim (⟨2, ![1, n]⟩ : Shape) ![1] h y (ix2 (0 : Fin 1) q) = y (ix1 q) :=
  broadcastInDim_apply _ h y (ix2 (0 : Fin 1) q) (ix1 q) (fun a => match a with
    | ⟨0, _⟩ => by
        show q.val = if n = 1 then 0 else q.val
        split
        · have := q.isLt; omega
        · rfl)

/-- A single row laid down B rows holds the row's lane q in lane q of every row. -/
theorem rowDown_apply {B n : Nat} (y : (⟨2, ![1, n]⟩ : Shape).Idx → α)
    (h : (⟨2, ![1, n]⟩ : Shape).BroadcastsInDim (⟨2, ![B, n]⟩ : Shape) ![0, 1]) (p : Fin B) (q : Fin n) :
    broadcastInDim (⟨2, ![B, n]⟩ : Shape) ![0, 1] h y (ix2 p q) = y (ix2 (0 : Fin 1) q) :=
  broadcastInDim_apply _ h y (ix2 p q) (ix2 (0 : Fin 1) q) (fun a => match a with
    | ⟨0, _⟩ => by
        show 0 = if (1 : Nat) = 1 then 0 else p.val
        rw [if_pos rfl]
    | ⟨1, _⟩ => by
        show q.val = if n = 1 then 0 else q.val
        split
        · have := q.isLt; omega
        · rfl)

/-- A scalar spread over any shape holds the scalar everywhere. -/
theorem splat_apply {t : Shape} (y : (⟨0, ![]⟩ : Shape).Idx → α) (h : (⟨0, ![]⟩ : Shape).BroadcastsInDim t ![]) (i : t.Idx) :
    broadcastInDim t ![] h y i = y ix0 :=
  broadcastInDim_apply _ h y i ix0 (fun a => a.elim0)

/-- The product array is the host's `dot_general` of the two operands, for a record that contracts the lanes of the
    left operand against the rows of the right. -/
theorem prodArr_eq_dot {K N : Nat}
    (X : FVec Ideal (⟨2, ![100000, K]⟩ : Shape) .f32) (W : FVec Ideal (⟨2, ![K, N]⟩ : Shape) .f32)
    (D : DotDims (⟨2, ![100000, K]⟩ : Shape) (⟨2, ![K, N]⟩ : Shape) (⟨2, ![100000, N]⟩ : Shape))
    (hr : D.contr.rank = 1) (hs : D.contr.size ⟨0, by omega⟩ = K)
    (hl0 : ∀ (j : (⟨2, ![100000, N]⟩ : Shape).Idx) (q : D.contr.Idx), (D.lhsIdx j q 0).val = (j 0).val)
    (hl1 : ∀ (j : (⟨2, ![100000, N]⟩ : Shape).Idx) (q : D.contr.Idx), (D.lhsIdx j q 1).val = (q ⟨0, by omega⟩).val)
    (hr0 : ∀ (j : (⟨2, ![100000, N]⟩ : Shape).Idx) (q : D.contr.Idx), (D.rhsIdx j q 0).val = (q ⟨0, by omega⟩).val)
    (hr1 : ∀ (j : (⟨2, ![100000, N]⟩ : Shape).Idx) (q : D.contr.Idx), (D.rhsIdx j q 1).val = (j 1).val) :
    prodArr X W = Host.dotGeneral (F := Ideal) D none X W := by
  funext i
  obtain ⟨p, q, rfl⟩ : ∃ (p : Fin 100000) (q : Fin N), i = ix2 p q := ⟨i 0, i 1, eq_ix2 i⟩
  exact (Cert.HostRowOps.hostDot_apply D hr hs hl0 hl1 hr0 hr1 none X W p q).symm

/-! ## The two spellings of a layer -/

/-- The kernel's spelling equals the host's, array for array, given the same aggregated messages `agg`, self-loop
    coefficients that are nonnegative reals and variances ≥ 0. `e` is the real the eps literal denotes. -/
theorem layer_eq {K N : Nat}
    (hin : FVec Ideal (⟨2, ![100000, K]⟩ : Shape) .f32) (w : FVec Ideal (⟨2, ![K, N]⟩ : Shape) .f32)
    (sn : FVec Ideal (⟨1, ![100000]⟩ : Shape) .f32) (b g be mu v : FVec Ideal (⟨1, ![N]⟩ : Shape) .f32)
    (agg : FVec Ideal (⟨2, ![100000, N]⟩ : Shape) .f32)
    (D : DotDims (⟨2, ![100000, K]⟩ : Shape) (⟨2, ![K, N]⟩ : Shape) (⟨2, ![100000, N]⟩ : Shape))
    (hr : D.contr.rank = 1) (hs : D.contr.size ⟨0, by omega⟩ = K)
    (hl0 : ∀ (j : (⟨2, ![100000, N]⟩ : Shape).Idx) (q : D.contr.Idx), (D.lhsIdx j q 0).val = (j 0).val)
    (hl1 : ∀ (j : (⟨2, ![100000, N]⟩ : Shape).Idx) (q : D.contr.Idx), (D.lhsIdx j q 1).val = (q ⟨0, by omega⟩).val)
    (hr0 : ∀ (j : (⟨2, ![100000, N]⟩ : Shape).Idx) (q : D.contr.Idx), (D.rhsIdx j q 0).val = (q ⟨0, by omega⟩).val)
    (hr1 : ∀ (j : (⟨2, ![100000, N]⟩ : Shape).Idx) (q : D.contr.Idx), (D.rhsIdx j q 1).val = (j 1).val)
    (hcol : (⟨1, ![100000]⟩ : Shape).BroadcastsInDim (⟨2, ![100000, 1]⟩ : Shape) ![0])
    (hcolK : (⟨2, ![100000, 1]⟩ : Shape).BroadcastsInDim (⟨2, ![100000, K]⟩ : Shape) ![0, 1])
    (hcolN : (⟨2, ![100000, 1]⟩ : Shape).BroadcastsInDim (⟨2, ![100000, N]⟩ : Shape) ![0, 1])
    (hrow1 : (⟨1, ![N]⟩ : Shape).BroadcastsInDim (⟨2, ![1, N]⟩ : Shape) ![1])
    (hrowB : (⟨2, ![1, N]⟩ : Shape).BroadcastsInDim (⟨2, ![100000, N]⟩ : Shape) ![0, 1])
    (hsN : (⟨0, ![]⟩ : Shape).BroadcastsInDim (⟨1, ![N]⟩ : Shape) ![])
    (hsBN : (⟨0, ![]⟩ : Shape).BroadcastsInDim (⟨2, ![100000, N]⟩ : Shape) ![])
    (hcast : Shape.ShapeCasts (⟨1, ![N]⟩ : Shape) (⟨2, ![1, N]⟩ : Shape))
    (hsn : ∀ p : Fin 100000, ∃ s : ℝ, 0 ≤ s ∧ sn (ix1 p) = ((s : ℝ) : EReal))
    (hv : ∀ q : Fin N, (0 : EReal) ≤ v (ix1 q))
    (e : ℝ) (he : 0 < e) (heps : Ideal.ofBits .f32 0x3727C5AC#32 = ((e : ℝ) : EReal)) :
    normArr agg
        (prodBiasArr (mulf hin (broadcastInDim (⟨2, ![100000, K]⟩ : Shape) ![0, 1] hcolK (broadcastInDim (⟨2, ![100000, 1]⟩ : Shape) ![0] hcol sn))) w
          (shapeCast (⟨2, ![1, N]⟩ : Shape) b hcast))
        (shapeCast (⟨2, ![1, N]⟩ : Shape) g hcast) (shapeCast (⟨2, ![1, N]⟩ : Shape) be hcast) (shapeCast (⟨2, ![1, N]⟩ : Shape) mu hcast) (shapeCast (⟨2, ![1, N]⟩ : Shape) v hcast)
      = maximumf
          (addf
            (mulf
              (subf
                (addf
                  (addf agg
                    (mulf (broadcastInDim (⟨2, ![100000, N]⟩ : Shape) ![0, 1] hcolN (broadcastInDim (⟨2, ![100000, 1]⟩ : Shape) ![0] hcol sn))
                      (Host.dotGeneral D none hin w)))
                  (broadcastInDim (⟨2, ![100000, N]⟩ : Shape) ![0, 1] hrowB (broadcastInDim (⟨2, ![1, N]⟩ : Shape) ![1] hrow1 b)))
                (broadcastInDim (⟨2, ![100000, N]⟩ : Shape) ![0, 1] hrowB (broadcastInDim (⟨2, ![1, N]⟩ : Shape) ![1] hrow1 mu)))
              (broadcastInDim (⟨2, ![100000, N]⟩ : Shape) ![0, 1] hrowB (broadcastInDim (⟨2, ![1, N]⟩ : Shape) ![1] hrow1
                (Host.divf g (Host.sqrt (addf v (broadcastInDim (⟨1, ![N]⟩ : Shape) ![] hsN (constant (F := Ideal) (⟨0, ![]⟩ : Shape) .f32 0x3727C5AC#32))))))))
            (broadcastInDim (⟨2, ![100000, N]⟩ : Shape) ![0, 1] hrowB (broadcastInDim (⟨2, ![1, N]⟩ : Shape) ![1] hrow1 be)))
          (broadcastInDim (⟨2, ![100000, N]⟩ : Shape) ![] hsBN (constant (F := Ideal) (⟨0, ![]⟩ : Shape) .f32 0x00000000#32)) := by
  funext i
  obtain ⟨p, q, rfl⟩ : ∃ (p : Fin 100000) (q : Fin N), i = ix2 p q := ⟨i 0, i 1, eq_ix2 i⟩
  obtain ⟨s, hs0, hsp⟩ := hsn p
  -- the host's side, read at (p, q)
  rw [maximumf_apply, addf_apply, mulf_apply, subf_apply, addf_apply, addf_apply, mulf_apply,
    Cert.HostRowOps.bcastColHost_apply, vecCol_apply, Cert.HostRowOps.hostDot_apply D hr hs hl0 hl1 hr0 hr1,
    rowDown_apply, vecRow_apply, rowDown_apply, vecRow_apply, rowDown_apply, vecRow_apply, rowDown_apply, vecRow_apply,
    splat_apply, constant_apply]
  -- the kernel's side, read at (p, q)
  show max (((agg (ix2 p q) + ((∑ k : Fin K, (mulf hin (broadcastInDim (⟨2, ![100000, K]⟩ : Shape) ![0, 1] hcolK (broadcastInDim (⟨2, ![100000, 1]⟩ : Shape) ![0] hcol sn))) (ix2 p k) * w (ix2 k q))
        + shapeCast (⟨2, ![1, N]⟩ : Shape) b hcast (ix2 (0 : Fin 1) q))) - shapeCast (⟨2, ![1, N]⟩ : Shape) mu hcast (ix2 (0 : Fin 1) q))
      * (shapeCast (⟨2, ![1, N]⟩ : Shape) g hcast (ix2 (0 : Fin 1) q) * Ideal.rsqrt (shapeCast (⟨2, ![1, N]⟩ : Shape) v hcast (ix2 (0 : Fin 1) q) + Ideal.ofBits .f32 0x3727C5AC#32))
      + shapeCast (⟨2, ![1, N]⟩ : Shape) be hcast (ix2 (0 : Fin 1) q)) (Ideal.ofBits .f32 0x00000000#32) = _
  have hsum : (∑ k : Fin K, (mulf hin (broadcastInDim (⟨2, ![100000, K]⟩ : Shape) ![0, 1] hcolK (broadcastInDim (⟨2, ![100000, 1]⟩ : Shape) ![0] hcol sn))) (ix2 p k) * w (ix2 k q))
      = ∑ k : Fin K, (hin (ix2 p k) * ((s : ℝ) : EReal)) * w (ix2 k q) :=
    Finset.sum_congr rfl fun k _ => by
      rw [mulf_apply, Cert.HostRowOps.bcastColHost_apply, vecCol_apply, hsp]
  rw [hsum]
  simp only [Cert.RowBias.castRow_apply]
  show max _ (Ideal.ofBits .f32 0x00000000#32)
    = max ((((agg (ix2 p q) + sn (ix1 p) * ∑ k : Fin K, hin (ix2 p k) * w (ix2 k q)) + b (ix1 q)) - mu (ix1 q))
        * Ideal.div (g (ix1 q)) (Ideal.sqrt (v (ix1 q) + Ideal.ofBits .f32 0x3727C5AC#32)) + be (ix1 q)) (Ideal.ofBits .f32 0x00000000#32)
  rw [hsp, heps]
  exact congrArg (max · (Ideal.ofBits .f32 0x00000000#32))
    (Cert.LayerLaw.layer_entry (agg (ix2 p q)) (b (ix1 q)) (mu (ix1 q)) (g (ix1 q)) (be (ix1 q)) (v (ix1 q)) s e hs0 he (hv q)
      (fun k => hin (ix2 p k)) (fun k => w (ix2 k q)))

end Cert.LayerSpec

end
-- ==== Proof.LibPlainMatmul.lean ====
/-
  A plain matrix product read at an entry.

  A matrix unit's product of an M x K matrix by a K x N matrix, accumulated into the zero matrix, holds at entry
  (p, c) the sum over k of the left matrix at (p, k) times the right matrix at (k, c): at the exact extended reals
  there is no rounding and no order of accumulation left, and the zero accumulator adds nothing.

  The product's dimension numbers arrive as a record; what is used of it is only that it contracts one axis of extent K
  and how it places the coordinates: the left operand is read at (row of the result, k), the right operand at
  (k, column of the result).  These four placement facts are hypotheses, so the lemma serves any record of that pattern.
  Nothing here mentions a program.
-/
import Idealize.ShloMosaic.PureOps.Ideal
import Idealize.ShloMosaic.PureOps.Ideal.Laws
import Idealize.ShloMosaic.Lib.ValueIdx

noncomputable section

open scoped BigOperators

namespace Cert.PlainMatmul

open Idealize.ShloMosaic Idealize.ShloMosaic.ValueIdx

/-- Entry (p, c) of an M x K by K x N product into the zero accumulator is the sum over k of left (p, k) * right (k, c). -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂) (p : Fin M) (c : Fin N) :
    matmul D prec l r (constant (F := Ideal) (⟨2, ![M, N]⟩ : Shape) .f32 0x00000000#32) (ix2 p c)
      = ∑ k : Fin K, l (ix2 p k) * r (ix2 k c) := by
  refine (Ideal.matmul_constant_zero_apply D prec l r (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainMatmul

end
-- ==== Proof.Proj0.lean ====
/-
  The two arrays a projection kernel leaves, entry by entry.

  The kernel walks the node axis in 20 tiles of 5000 rows. At a tile it multiplies the tile of the node features and
  the tile of the pre-scaled node features by the whole weight matrix (the matrix unit, into a zero accumulator) and
  adds the bias row to the second product. A tile's row r of tile t is row 5000·t + r of the array, the weight
  matrix and the bias row are the same at every tile, and the 20 tiles cover the 100000 rows; so after the run
    first output  (p, q) = Σ_k X (p, k) · W (k, q)
    second output (p, q) = Σ_k Xs (p, k) · W (k, q) + b (0, q)
  whatever arrays X, Xs, W, b the kernel finds when it is entered.
-/
import proofs.«147466_j88089779241259_1_alg».proof.Proof.Gen.KernelIdeal.Frame
import proofs.«147466_j88089779241259_1_alg».proof.Proof.LibPlainMatmul
import proofs.«147466_j88089779241259_1_alg».proof.Proof.LibRowBias
import proofs.«147466_j88089779241259_1_alg».proof.Proof.LayerSpec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Proj0

open Cert.KernelIdeal Cert.KernelIdeal.Gen Idealize.ShloMosaic Idealize.ShloMosaic.ValueIdx Idealize.ShloMosaic.TcCoe Idealize.SL.Sem Cert.LayerSpec

theorem hz : (![0, 0] : Fin 2 → Nat) = fun _ => 0 := funext fun a => by fin_cases a <;> rfl

/-! ## The product's placement of coordinates -/

theorem lhs0 (i : S5000x32.Idx) (q : dot_S5000x64_S64x32_S5000x32_1_0_0_1_n_n.contr.Idx) : (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem lhs1 (i : S5000x32.Idx) (q : dot_S5000x64_S64x32_S5000x32_1_0_0_1_n_n.contr.Idx) : (dot_S5000x64_S64x32_S5000x32_1_0_0_1_n_n.lhsIdx i q 1).val = (q ⟨0, by decide⟩).val :=
  dot_S5000x64_S64x32_S5000x32_1_0_0_1_n_n.lhsIdx_val_of_single rfl i q
theorem rhs0 (i : S5000x32.Idx) (q : dot_S5000x64_S64x32_S5000x32_1_0_0_1_n_n.contr.Idx) : (dot_S5000x64_S64x32_S5000x32_1_0_0_1_n_n.rhsIdx i q 0).val = (q ⟨0, by decide⟩).val :=
  dot_S5000x64_S64x32_S5000x32_1_0_0_1_n_n.rhsIdx_val_of_single rfl i q
theorem rhs1 (i : S5000x32.Idx) (q : dot_S5000x64_S64x32_S5000x32_1_0_0_1_n_n.contr.Idx) : (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-! ## The body's two stored values at an entry of the tile -/

/-- The first stored value: the tile times the weight matrix. -/
theorem prod_apply (w : Vec Ideal S64x32 .f32) (x : Vec Ideal S5000x64 .f32) (r : Fin 5000) (q : Fin 32) :
    k0_pay2 (F := Ideal) w x (ix2 r q) = ∑ k : Fin 64, x (ix2 r k) * w (ix2 k q) := by
  unfold k0_pay2 k0_pay1
  try simp only [shapeCast_self]
  exact Cert.PlainMatmul.matmul_zero_apply dot_S5000x64_S64x32_S5000x32_1_0_0_1_n_n rfl rfl lhs0 lhs1 rhs0 rhs1 none x w r q

/-- The second stored value: the pre-scaled tile times the weight matrix, plus the bias row. -/
theorem prodBias_apply (w : Vec Ideal S64x32 .f32) (x : Vec Ideal S5000x64 .f32) (b : Vec Ideal S1x32 .f32) (r : Fin 5000) (q : Fin 32) :
    k0_pay3 (F := Ideal) w x b (ix2 r q) = (∑ k : Fin 64, x (ix2 r k) * w (ix2 k q)) + b (ix2 (0 : Fin 1) q) := by
  unfold k0_pay3 k0_pay1
  simp only [shapeCast_self]
  rw [addf_apply, Cert.RowBias.bcastRow_apply]
  exact congrArg (· + b (ix2 (0 : Fin 1) q)) (Cert.PlainMatmul.matmul_zero_apply dot_S5000x64_S64x32_S5000x32_1_0_0_1_n_n rfl rfl lhs0 lhs1 rhs0 rhs1 none x w r q)

/-! ## The arrays after the run -/

variable (V : (c : Dev nD) → (b : Ref sig .tc) → Buf (Elt Ideal) ((c : Thread nD τ).loc b))

/-- The printed index maps over the grid: the row-tiled windows move together, tile by tile; the weight matrix and the
    bias row stay at block (0, 0). -/
theorem idx_facts : ∀ t : Fin cfg0.N,
    win0_0.index t (0 : Fin 2) = win0_4.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_5.index t (1 : Fin 2) = 0
    ∧ win0_4.index t (0 : Fin 2) ≤ 19 ∧ win0_5.index t (0 : Fin 2) ≤ 19 :=
  (by decide +kernel : ∀ t : Fin grid0.N, _)

/-- Every one of the 20 row tiles is some point's, for either output. -/
theorem idx_onto4 : ∀ q0 : Fin 20, ∃ t : Fin cfg0.N, win0_4.index t = ![q0.val, 0] :=
  (by decide +kernel : ∀ q0 : Fin 20, ∃ t : Fin grid0.N, win0_4.index t = ![q0.val, 0])
theorem idx_onto5 : ∀ q0 : Fin 20, ∃ t : Fin cfg0.N, win0_5.index t = ![q0.val, 0] :=
  (by decide +kernel : ∀ q0 : Fin 20, ∃ t : Fin grid0.N, win0_5.index t = ![q0.val, 0])

set_option maxHeartbeats 4000000 in
/-- What point t writes back to the first output is tile t of the product of the arrays as the kernel finds them. -/
theorem flushed4_eq (c : Dev nD) (t : Fin cfg0.N) :
    (dat0 V c).flushed 4 t = ((cfg0.win 4).blk t).view.read (Elt Ideal) (prodArr (K := 64) (N := 32) (V c main_arg0) (V c main_arg4)) := by
  show (cfg0.win 4).cut (grid0.coords t) ((dat0 V c).after 4 t) = _
  rw [after0_4]
  unfold out0_4
  rw [View.canon_unit_zero hz]
  simp only [View.ld_unit_zero (S := S64x32) hz, View.ld_unit_zero (S := S5000x64) hz]
  obtain ⟨e00, e01, e10, e11, e20, e21, e30, e31, e41, e51, b4, b5⟩ := idx_facts t
  funext j
  obtain ⟨r, q, rfl⟩ : ∃ (r : Fin 5000) (q : Fin 32), j = ix2 r q := ⟨j 0, j 1, eq_ix2 j⟩
  refine (prod_apply (iblk0 V c 2 t) (iblk0 V c 0 t) r q).trans ?_
  show dotRow (fun k : Fin 64 => V c main_arg0 (((cfg0.win 0).blk t).view.emb (ix2 r k))) (fun k : Fin 64 => V c main_arg4 (((cfg0.win 2).blk t).view.emb (ix2 k q)))
    = dotRow (fun k : Fin 64 => V c main_arg0 (ix2 ((((cfg0.win 4).blk t).view.emb (ix2 r q)) 0) k)) (fun k : Fin 64 => V c main_arg4 (ix2 k ((((cfg0.win 4).blk t).view.emb (ix2 r q)) 1)))
  have h0 : ∀ k : Fin 64, (((cfg0.win 0).blk t).view.emb (ix2 r k)) = ix2 ((((cfg0.win 4).blk t).view.emb (ix2 r q)) 0) k := fun k => by
    funext a; apply Fin.ext
    match a with
    | ⟨0, _⟩ => show win0_0.index t (0 : Fin 2) * 5000 + 1 * r.val = win0_4.index t (0 : Fin 2) * 5000 + 1 * r.val; omega
    | ⟨1, _⟩ => show win0_0.index t (1 : Fin 2) * 64 + 1 * k.val = k.val; omega
  have h2 : ∀ k : Fin 64, (((cfg0.win 2).blk t).view.emb (ix2 k q)) = ix2 k ((((cfg0.win 4).blk t).view.emb (ix2 r q)) 1) := fun k => by
    funext a; apply Fin.ext
    match a with
    | ⟨0, _⟩ => show win0_2.index t (0 : Fin 2) * 64 + 1 * k.val = k.val; omega
    | ⟨1, _⟩ => show win0_2.index t (1 : Fin 2) * 32 + 1 * q.val = win0_4.index t (1 : Fin 2) * 32 + 1 * q.val; omega
  have hf : (fun k : Fin 64 => V c main_arg0 (((cfg0.win 0).blk t).view.emb (ix2 r k))) = fun k : Fin 64 => V c main_arg0 (ix2 ((((cfg0.win 4).blk t).view.emb (ix2 r q)) 0) k) := funext fun k => by rw [h0 k]; rfl
  have hg : (fun k : Fin 64 => V c main_arg4 (((cfg0.win 2).blk t).view.emb (ix2 k q))) = fun k : Fin 64 => V c main_arg4 (ix2 k ((((cfg0.win 4).blk t).view.emb (ix2 r q)) 1)) := funext fun k => by rw [h2 k]; rfl
  rw [hf, hg] <;> rfl

set_option maxHeartbeats 4000000 in
/-- What point t writes back to the second output is tile t of the biased product. -/
theorem flushed5_eq (c : Dev nD) (t : Fin cfg0.N) :
    (dat0 V c).flushed 5 t = ((cfg0.win 5).blk t).view.read (Elt Ideal) (prodBiasArr (K := 64) (N := 32) (V c main_v38) (V c main_arg4) (V c main_v39)) := by
  show (cfg0.win 5).cut (grid0.coords t) ((dat0 V c).after 5 t) = _
  rw [after0_5]
  unfold out0_5
  rw [View.canon_unit_zero hz]
  simp only [View.ld_unit_zero (S := S64x32) hz, View.ld_unit_zero (S := S5000x64) hz, View.ld_unit_zero (S := S1x32) hz]
  obtain ⟨e00, e01, e10, e11, e20, e21, e30, e31, e41, e51, b4, b5⟩ := idx_facts t
  funext j
  obtain ⟨r, q, rfl⟩ : ∃ (r : Fin 5000) (q : Fin 32), j = ix2 r q := ⟨j 0, j 1, eq_ix2 j⟩
  refine (prodBias_apply (iblk0 V c 2 t) (iblk0 V c 1 t) (iblk0 V c 3 t) r q).trans ?_
  show dotRowBias (fun k : Fin 64 => V c main_v38 (((cfg0.win 1).blk t).view.emb (ix2 r k))) (fun k : Fin 64 => V c main_arg4 (((cfg0.win 2).blk t).view.emb (ix2 k q))) (V c main_v39 (((cfg0.win 3).blk t).view.emb (ix2 (0 : Fin 1) q)))
    = dotRowBias (fun k : Fin 64 => V c main_v38 (ix2 ((((cfg0.win 5).blk t).view.emb (ix2 r q)) 0) k)) (fun k : Fin 64 => V c main_arg4 (ix2 k ((((cfg0.win 5).blk t).view.emb (ix2 r q)) 1))) (V c main_v39 (ix2 (0 : Fin 1) ((((cfg0.win 5).blk t).view.emb (ix2 r q)) 1)))
  have h1 : ∀ k : Fin 64, (((cfg0.win 1).blk t).view.emb (ix2 r k)) = ix2 ((((cfg0.win 5).blk t).view.emb (ix2 r q)) 0) k := fun k => by
    funext a; apply Fin.ext
    match a with
    | ⟨0, _⟩ => show win0_1.index t (0 : Fin 2) * 5000 + 1 * r.val = win0_5.index t (0 : Fin 2) * 5000 + 1 * r.val; omega
    | ⟨1, _⟩ => show win0_1.index t (1 : Fin 2) * 64 + 1 * k.val = k.val; omega
  have h2 : ∀ k : Fin 64, (((cfg0.win 2).blk t).view.emb (ix2 k q)) = ix2 k ((((cfg0.win 5).blk t).view.emb (ix2 r q)) 1) := fun k => by
    funext a; apply Fin.ext
    match a with
    | ⟨0, _⟩ => show win0_2.index t (0 : Fin 2) * 64 + 1 * k.val = k.val; omega
    | ⟨1, _⟩ => show win0_2.index t (1 : Fin 2) * 32 + 1 * q.val = win0_5.index t (1 : Fin 2) * 32 + 1 * q.val; omega
  have h3 : (((cfg0.win 3).blk t).view.emb (ix2 (0 : Fin 1) q)) = ix2 (0 : Fin 1) ((((cfg0.win 5).blk t).view.emb (ix2 r q)) 1) := by
    funext a; apply Fin.ext
    match a with
    | ⟨0, _⟩ => show win0_3.index t (0 : Fin 2) * 1 + 1 * 0 = 0; omega
    | ⟨1, _⟩ => show win0_3.index t (1 : Fin 2) * 32 + 1 * q.val = win0_5.index t (1 : Fin 2) * 32 + 1 * q.val; omega
  have hf : (fun k : Fin 64 => V c main_v38 (((cfg0.win 1).blk t).view.emb (ix2 r k))) = fun k : Fin 64 => V c main_v38 (ix2 ((((cfg0.win 5).blk t).view.emb (ix2 r q)) 0) k) := funext fun k => by rw [h1 k]; rfl
  have hg : (fun k : Fin 64 => V c main_arg4 (((cfg0.win 2).blk t).view.emb (ix2 k q))) = fun k : Fin 64 => V c main_arg4 (ix2 k ((((cfg0.win 5).blk t).view.emb (ix2 r q)) 1)) := funext fun k => by rw [h2 k]; rfl
  rw [hf, hg, h3] <;> rfl

/-- An index of an output array lies in point t's tile iff each coordinate lies in the tile's range on its axis. -/
theorem mem_blk4 (t : Fin cfg0.N) (i : S100000x32.Idx) :
    i ∈ ((cfg0.win 4).blk t).view.set ↔ ∀ a : Fin 2, win0_4.index t a * S5000x32.size a ≤ (i a).val ∧ (i a).val < win0_4.index t a * S5000x32.size a + S5000x32.size a := by
  show i ∈ ((View.whole main_v40_0).slice (win0_4.rect t)).set ↔ _
  rw [View.set_slice_whole, Rect.mem_set_unit]
  exact Iff.rfl
theorem mem_blk5 (t : Fin cfg0.N) (i : S100000x32.Idx) :
    i ∈ ((cfg0.win 5).blk t).view.set ↔ ∀ a : Fin 2, win0_5.index t a * S5000x32.size a ≤ (i a).val ∧ (i a).val < win0_5.index t a * S5000x32.size a + S5000x32.size a := by
  show i ∈ ((View.whole main_v40_1).slice (win0_5.rect t)).set ↔ _
  rw [View.set_slice_whole, Rect.mem_set_unit]
  exact Iff.rfl

/-- Row p of the array lies in the tile of the point whose tile index is p / 5000. -/
theorem cover4 (i : S100000x32.Idx) : ∃ t : Fin cfg0.N, (cfg0.win 4).flush t = true ∧ i ∈ ((cfg0.win 4).blk t).view.set := by
  have hi0 : (i 0).val < 100000 := (i 0).isLt
  have hi1 : (i 1).val < 32 := (i 1).isLt
  obtain ⟨t, ht⟩ := idx_onto4 ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 32 ≤ (i 1).val ∧ (i 1).val < win0_4.index t (1 : Fin 2) * 32 + 32; omega
theorem cover5 (i : S100000x32.Idx) : ∃ t : Fin cfg0.N, (cfg0.win 5).flush t = true ∧ i ∈ ((cfg0.win 5).blk t).view.set := by
  have hi0 : (i 0).val < 100000 := (i 0).isLt
  have hi1 : (i 1).val < 32 := (i 1).isLt
  obtain ⟨t, ht⟩ := idx_onto5 ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk5]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 32 ≤ (i 1).val ∧ (i 1).val < win0_5.index t (1 : Fin 2) * 32 + 32; omega

/-- THE FIRST OUTPUT after the run: the product of the node features by the weights. -/
theorem arr4 (c : Dev nD) : (dat0 V c).arrAt 4 cfg0.N = prodArr (K := 64) (N := 32) (V c main_arg0) (V c main_arg4) :=
  (dat0 V c).arrAt_eq_of_cover 4 (prodArr (K := 64) (N := 32) (V c main_arg0) (V c main_arg4)) (fun t _ => flushed4_eq V c t) cover4

/-- THE SECOND OUTPUT after the run: the product of the pre-scaled node features by the weights, plus the bias row. -/
theorem arr5 (c : Dev nD) : (dat0 V c).arrAt 5 cfg0.N = prodBiasArr (K := 64) (N := 32) (V c main_v38) (V c main_arg4) (V c main_v39) :=
  (dat0 V c).arrAt_eq_of_cover 5 (prodBiasArr (K := 64) (N := 32) (V c main_v38) (V c main_arg4) (V c main_v39)) (fun t _ => flushed5_eq V c t) cover5

end Cert.KernelIdeal.Proj0

end
-- ==== Proof.Proj2.lean ====
/-
  The two arrays a projection kernel leaves, entry by entry.

  The kernel walks the node axis in 20 tiles of 5000 rows. At a tile it multiplies the tile of the node features and
  the tile of the pre-scaled node features by the whole weight matrix (the matrix unit, into a zero accumulator) and
  adds the bias row to the second product. A tile's row r of tile t is row 5000·t + r of the array, the weight
  matrix and the bias row are the same at every tile, and the 20 tiles cover the 100000 rows; so after the run
    first output  (p, q) = Σ_k X (p, k) · W (k, q)
    second output (p, q) = Σ_k Xs (p, k) · W (k, q) + b (0, q)
  whatever arrays X, Xs, W, b the kernel finds when it is entered.
-/
import proofs.«147466_j88089779241259_1_alg».proof.Proof.Gen.KernelIdeal.Frame
import proofs.«147466_j88089779241259_1_alg».proof.Proof.LibPlainMatmul
import proofs.«147466_j88089779241259_1_alg».proof.Proof.LibRowBias
import proofs.«147466_j88089779241259_1_alg».proof.Proof.LayerSpec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Proj2

open Cert.KernelIdeal Cert.KernelIdeal.Gen Idealize.ShloMosaic Idealize.ShloMosaic.ValueIdx Idealize.ShloMosaic.TcCoe Idealize.SL.Sem Cert.LayerSpec

theorem hz : (![0, 0] : Fin 2 → Nat) = fun _ => 0 := funext fun a => by fin_cases a <;> rfl

/-! ## The product's placement of coordinates -/

theorem lhs0 (i : S5000x64.Idx) (q : dot_S5000x32_S32x64_S5000x64_1_0_0_1_n_n.contr.Idx) : (dot_S5000x32_S32x64_S5000x64_1_0_0_1_n_n.lhsIdx i q 0).val = (i 0).val := by
  unfold DotDims.lhsIdx
  rw [dif_neg (show ¬(0 : Fin S5000x32.rank) ∈ dot_S5000x32_S32x64_S5000x64_1_0_0_1_n_n.lhsBatch by decide), dif_pos (show (0 : Fin S5000x32.rank) ∈ dot_S5000x32_S32x64_S5000x64_1_0_0_1_n_n.lhsNonContracting by decide)]
  rfl
theorem lhs1 (i : S5000x64.Idx) (q : dot_S5000x32_S32x64_S5000x64_1_0_0_1_n_n.contr.Idx) : (dot_S5000x32_S32x64_S5000x64_1_0_0_1_n_n.lhsIdx i q 1).val = (q ⟨0, by decide⟩).val :=
  dot_S5000x32_S32x64_S5000x64_1_0_0_1_n_n.lhsIdx_val_of_single rfl i q
theorem rhs0 (i : S5000x64.Idx) (q : dot_S5000x32_S32x64_S5000x64_1_0_0_1_n_n.contr.Idx) : (dot_S5000x32_S32x64_S5000x64_1_0_0_1_n_n.rhsIdx i q 0).val = (q ⟨0, by decide⟩).val :=
  dot_S5000x32_S32x64_S5000x64_1_0_0_1_n_n.rhsIdx_val_of_single rfl i q
theorem rhs1 (i : S5000x64.Idx) (q : dot_S5000x32_S32x64_S5000x64_1_0_0_1_n_n.contr.Idx) : (dot_S5000x32_S32x64_S5000x64_1_0_0_1_n_n.rhsIdx i q 1).val = (i 1).val := by
  unfold DotDims.rhsIdx
  rw [dif_neg (show ¬(1 : Fin S32x64.rank) ∈ dot_S5000x32_S32x64_S5000x64_1_0_0_1_n_n.rhsBatch by decide), dif_pos (show (1 : Fin S32x64.rank) ∈ dot_S5000x32_S32x64_S5000x64_1_0_0_1_n_n.rhsNonContracting by decide)]
  rfl

/-! ## The body's two stored values at an entry of the tile -/

/-- The first stored value: the tile times the weight matrix. -/
theorem prod_apply (w : Vec Ideal S32x64 .f32) (x : Vec Ideal S5000x32 .f32) (r : Fin 5000) (q : Fin 64) :
    k2_pay2 (F := Ideal) w x (ix2 r q) = ∑ k : Fin 32, x (ix2 r k) * w (ix2 k q) := by
  unfold k2_pay2 k2_pay1
  try simp only [shapeCast_self]
  exact Cert.PlainMatmul.matmul_zero_apply dot_S5000x32_S32x64_S5000x64_1_0_0_1_n_n rfl rfl lhs0 lhs1 rhs0 rhs1 none x w r q

/-- The second stored value: the pre-scaled tile times the weight matrix, plus the bias row. -/
theorem prodBias_apply (w : Vec Ideal S32x64 .f32) (x : Vec Ideal S5000x32 .f32) (b : Vec Ideal S1x64 .f32) (r : Fin 5000) (q : Fin 64) :
    k2_pay3 (F := Ideal) w x b (ix2 r q) = (∑ k : Fin 32, x (ix2 r k) * w (ix2 k q)) + b (ix2 (0 : Fin 1) q) := by
  unfold k2_pay3 k2_pay1
  simp only [shapeCast_self]
  rw [addf_apply, Cert.RowBias.bcastRow_apply]
  exact congrArg (· + b (ix2 (0 : Fin 1) q)) (Cert.PlainMatmul.matmul_zero_apply dot_S5000x32_S32x64_S5000x64_1_0_0_1_n_n rfl rfl lhs0 lhs1 rhs0 rhs1 none x w r q)

/-! ## The arrays after the run -/

variable (V : (c : Dev nD) → (b : Ref sig .tc) → Buf (Elt Ideal) ((c : Thread nD τ).loc b))

/-- The printed index maps over the grid: the row-tiled windows move together, tile by tile; the weight matrix and the
    bias row stay at block (0, 0). -/
theorem idx_facts : ∀ t : Fin cfg2.N,
    win2_0.index t (0 : Fin 2) = win2_4.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (1 : Fin 2) = 0 ∧ win2_5.index t (1 : Fin 2) = 0
    ∧ win2_4.index t (0 : Fin 2) ≤ 19 ∧ win2_5.index t (0 : Fin 2) ≤ 19 :=
  (by decide +kernel : ∀ t : Fin grid2.N, _)

/-- Every one of the 20 row tiles is some point's, for either output. -/
theorem idx_onto4 : ∀ q0 : Fin 20, ∃ t : Fin cfg2.N, win2_4.index t = ![q0.val, 0] :=
  (by decide +kernel : ∀ q0 : Fin 20, ∃ t : Fin grid2.N, win2_4.index t = ![q0.val, 0])
theorem idx_onto5 : ∀ q0 : Fin 20, ∃ t : Fin cfg2.N, win2_5.index t = ![q0.val, 0] :=
  (by decide +kernel : ∀ q0 : Fin 20, ∃ t : Fin grid2.N, win2_5.index t = ![q0.val, 0])

set_option maxHeartbeats 4000000 in
/-- What point t writes back to the first output is tile t of the product of the arrays as the kernel finds them. -/
theorem flushed4_eq (c : Dev nD) (t : Fin cfg2.N) :
    (dat2 V c).flushed 4 t = ((cfg2.win 4).blk t).view.read (Elt Ideal) (prodArr (K := 32) (N := 64) (V c main_v58) (V c main_arg10)) := by
  show (cfg2.win 4).cut (grid2.coords t) ((dat2 V c).after 4 t) = _
  rw [after2_4]
  unfold out2_4
  rw [View.canon_unit_zero hz]
  simp only [View.ld_unit_zero (S := S32x64) hz, View.ld_unit_zero (S := S5000x32) hz]
  obtain ⟨e00, e01, e10, e11, e20, e21, e30, e31, e41, e51, b4, b5⟩ := idx_facts t
  funext j
  obtain ⟨r, q, rfl⟩ : ∃ (r : Fin 5000) (q : Fin 64), j = ix2 r q := ⟨j 0, j 1, eq_ix2 j⟩
  refine (prod_apply (iblk2 V c 2 t) (iblk2 V c 0 t) r q).trans ?_
  show dotRow (fun k : Fin 32 => V c main_v58 (((cfg2.win 0).blk t).view.emb (ix2 r k))) (fun k : Fin 32 => V c main_arg10 (((cfg2.win 2).blk t).view.emb (ix2 k q)))
    = dotRow (fun k : Fin 32 => V c main_v58 (ix2 ((((cfg2.win 4).blk t).view.emb (ix2 r q)) 0) k)) (fun k : Fin 32 => V c main_arg10 (ix2 k ((((cfg2.win 4).blk t).view.emb (ix2 r q)) 1)))
  have h0 : ∀ k : Fin 32, (((cfg2.win 0).blk t).view.emb (ix2 r k)) = ix2 ((((cfg2.win 4).blk t).view.emb (ix2 r q)) 0) k := fun k => by
    funext a; apply Fin.ext
    match a with
    | ⟨0, _⟩ => show win2_0.index t (0 : Fin 2) * 5000 + 1 * r.val = win2_4.index t (0 : Fin 2) * 5000 + 1 * r.val; omega
    | ⟨1, _⟩ => show win2_0.index t (1 : Fin 2) * 32 + 1 * k.val = k.val; omega
  have h2 : ∀ k : Fin 32, (((cfg2.win 2).blk t).view.emb (ix2 k q)) = ix2 k ((((cfg2.win 4).blk t).view.emb (ix2 r q)) 1) := fun k => by
    funext a; apply Fin.ext
    match a with
    | ⟨0, _⟩ => show win2_2.index t (0 : Fin 2) * 32 + 1 * k.val = k.val; omega
    | ⟨1, _⟩ => show win2_2.index t (1 : Fin 2) * 64 + 1 * q.val = win2_4.index t (1 : Fin 2) * 64 + 1 * q.val; omega
  have hf : (fun k : Fin 32 => V c main_v58 (((cfg2.win 0).blk t).view.emb (ix2 r k))) = fun k : Fin 32 => V c main_v58 (ix2 ((((cfg2.win 4).blk t).view.emb (ix2 r q)) 0) k) := funext fun k => by rw [h0 k]; rfl
  have hg : (fun k : Fin 32 => V c main_arg10 (((cfg2.win 2).blk t).view.emb (ix2 k q))) = fun k : Fin 32 => V c main_arg10 (ix2 k ((((cfg2.win 4).blk t).view.emb (ix2 r q)) 1)) := funext fun k => by rw [h2 k]; rfl
  rw [hf, hg] <;> rfl

set_option maxHeartbeats 4000000 in
/-- What point t writes back to the second output is tile t of the biased product. -/
theorem flushed5_eq (c : Dev nD) (t : Fin cfg2.N) :
    (dat2 V c).flushed 5 t = ((cfg2.win 5).blk t).view.read (Elt Ideal) (prodBiasArr (K := 32) (N := 64) (V c main_v61) (V c main_arg10) (V c main_v62)) := by
  show (cfg2.win 5).cut (grid2.coords t) ((dat2 V c).after 5 t) = _
  rw [after2_5]
  unfold out2_5
  rw [View.canon_unit_zero hz]
  simp only [View.ld_unit_zero (S := S32x64) hz, View.ld_unit_zero (S := S5000x32) hz, View.ld_unit_zero (S := S1x64) hz]
  obtain ⟨e00, e01, e10, e11, e20, e21, e30, e31, e41, e51, b4, b5⟩ := idx_facts t
  funext j
  obtain ⟨r, q, rfl⟩ : ∃ (r : Fin 5000) (q : Fin 64), j = ix2 r q := ⟨j 0, j 1, eq_ix2 j⟩
  refine (prodBias_apply (iblk2 V c 2 t) (iblk2 V c 1 t) (iblk2 V c 3 t) r q).trans ?_
  show dotRowBias (fun k : Fin 32 => V c main_v61 (((cfg2.win 1).blk t).view.emb (ix2 r k))) (fun k : Fin 32 => V c main_arg10 (((cfg2.win 2).blk t).view.emb (ix2 k q))) (V c main_v62 (((cfg2.win 3).blk t).view.emb (ix2 (0 : Fin 1) q)))
    = dotRowBias (fun k : Fin 32 => V c main_v61 (ix2 ((((cfg2.win 5).blk t).view.emb (ix2 r q)) 0) k)) (fun k : Fin 32 => V c main_arg10 (ix2 k ((((cfg2.win 5).blk t).view.emb (ix2 r q)) 1))) (V c main_v62 (ix2 (0 : Fin 1) ((((cfg2.win 5).blk t).view.emb (ix2 r q)) 1)))
  have h1 : ∀ k : Fin 32, (((cfg2.win 1).blk t).view.emb (ix2 r k)) = ix2 ((((cfg2.win 5).blk t).view.emb (ix2 r q)) 0) k := fun k => by
    funext a; apply Fin.ext
    match a with
    | ⟨0, _⟩ => show win2_1.index t (0 : Fin 2) * 5000 + 1 * r.val = win2_5.index t (0 : Fin 2) * 5000 + 1 * r.val; omega
    | ⟨1, _⟩ => show win2_1.index t (1 : Fin 2) * 32 + 1 * k.val = k.val; omega
  have h2 : ∀ k : Fin 32, (((cfg2.win 2).blk t).view.emb (ix2 k q)) = ix2 k ((((cfg2.win 5).blk t).view.emb (ix2 r q)) 1) := fun k => by
    funext a; apply Fin.ext
    match a with
    | ⟨0, _⟩ => show win2_2.index t (0 : Fin 2) * 32 + 1 * k.val = k.val; omega
    | ⟨1, _⟩ => show win2_2.index t (1 : Fin 2) * 64 + 1 * q.val = win2_5.index t (1 : Fin 2) * 64 + 1 * q.val; omega
  have h3 : (((cfg2.win 3).blk t).view.emb (ix2 (0 : Fin 1) q)) = ix2 (0 : Fin 1) ((((cfg2.win 5).blk t).view.emb (ix2 r q)) 1) := by
    funext a; apply Fin.ext
    match a with
    | ⟨0, _⟩ => show win2_3.index t (0 : Fin 2) * 1 + 1 * 0 = 0; omega
    | ⟨1, _⟩ => show win2_3.index t (1 : Fin 2) * 64 + 1 * q.val = win2_5.index t (1 : Fin 2) * 64 + 1 * q.val; omega
  have hf : (fun k : Fin 32 => V c main_v61 (((cfg2.win 1).blk t).view.emb (ix2 r k))) = fun k : Fin 32 => V c main_v61 (ix2 ((((cfg2.win 5).blk t).view.emb (ix2 r q)) 0) k) := funext fun k => by rw [h1 k]; rfl
  have hg : (fun k : Fin 32 => V c main_arg10 (((cfg2.win 2).blk t).view.emb (ix2 k q))) = fun k : Fin 32 => V c main_arg10 (ix2 k ((((cfg2.win 5).blk t).view.emb (ix2 r q)) 1)) := funext fun k => by rw [h2 k]; rfl
  rw [hf, hg, h3] <;> rfl

/-- An index of an output array lies in point t's tile iff each coordinate lies in the tile's range on its axis. -/
theorem mem_blk4 (t : Fin cfg2.N) (i : S100000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v63_0).slice (win2_4.rect t)).set ↔ _
  rw [View.set_slice_whole, Rect.mem_set_unit]
  exact Iff.rfl
theorem mem_blk5 (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v63_1).slice (win2_5.rect t)).set ↔ _
  rw [View.set_slice_whole, Rect.mem_set_unit]
  exact Iff.rfl

/-- Row p of the array lies in the tile of the point whose tile index is p / 5000. -/
theorem cover4 (i : S100000x64.Idx) : ∃ t : Fin cfg2.N, (cfg2.win 4).flush t = true ∧ i ∈ ((cfg2.win 4).blk t).view.set := by
  have hi0 : (i 0).val < 100000 := (i 0).isLt
  have hi1 : (i 1).val < 64 := (i 1).isLt
  obtain ⟨t, ht⟩ := idx_onto4 ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk4]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega
theorem cover5 (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  obtain ⟨t, ht⟩ := idx_onto5 ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk5]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-- THE FIRST OUTPUT after the run: the product of the node features by the weights. -/
theorem arr4 (c : Dev nD) : (dat2 V c).arrAt 4 cfg2.N = prodArr (K := 32) (N := 64) (V c main_v58) (V c main_arg10) :=
  (dat2 V c).arrAt_eq_of_cover 4 (prodArr (K := 32) (N := 64) (V c main_v58) (V c main_arg10)) (fun t _ => flushed4_eq V c t) cover4

/-- THE SECOND OUTPUT after the run: the product of the pre-scaled node features by the weights, plus the bias row. -/
theorem arr5 (c : Dev nD) : (dat2 V c).arrAt 5 cfg2.N = prodBiasArr (K := 32) (N := 64) (V c main_v61) (V c main_arg10) (V c main_v62) :=
  (dat2 V c).arrAt_eq_of_cover 5 (prodBiasArr (K := 32) (N := 64) (V c main_v61) (V c main_arg10) (V c main_v62)) (fun t _ => flushed5_eq V c t) cover5

end Cert.KernelIdeal.Proj2

end
-- ==== Proof.Proj4.lean ====
/-
  The two arrays a projection kernel leaves, entry by entry.

  The kernel walks the node axis in 20 tiles of 5000 rows. At a tile it multiplies the tile of the node features and
  the tile of the pre-scaled node features by the whole weight matrix (the matrix unit, into a zero accumulator) and
  adds the bias row to the second product. A tile's row r of tile t is row 5000·t + r of the array, the weight
  matrix and the bias row are the same at every tile, and the 20 tiles cover the 100000 rows; so after the run
    first output  (p, q) = Σ_k X (p, k) · W (k, q)
    second output (p, q) = Σ_k Xs (p, k) · W (k, q) + b (0, q)
  whatever arrays X, Xs, W, b the kernel finds when it is entered.
-/
import proofs.«147466_j88089779241259_1_alg».proof.Proof.Gen.KernelIdeal.Frame
import proofs.«147466_j88089779241259_1_alg».proof.Proof.LibPlainMatmul
import proofs.«147466_j88089779241259_1_alg».proof.Proof.LibRowBias
import proofs.«147466_j88089779241259_1_alg».proof.Proof.LayerSpec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Proj4

open Cert.KernelIdeal Cert.KernelIdeal.Gen Idealize.ShloMosaic Idealize.ShloMosaic.ValueIdx Idealize.ShloMosaic.TcCoe Idealize.SL.Sem Cert.LayerSpec

theorem hz : (![0, 0] : Fin 2 → Nat) = fun _ => 0 := funext fun a => by fin_cases a <;> rfl

/-! ## The product's placement of coordinates -/

theorem lhs0 (i : S5000x128.Idx) (q : dot_S5000x64_S64x128_S5000x128_1_0_0_1_n_n.contr.Idx) : (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhs1 (i : S5000x128.Idx) (q : dot_S5000x64_S64x128_S5000x128_1_0_0_1_n_n.contr.Idx) : (dot_S5000x64_S64x128_S5000x128_1_0_0_1_n_n.lhsIdx i q 1).val = (q ⟨0, by decide⟩).val :=
  dot_S5000x64_S64x128_S5000x128_1_0_0_1_n_n.lhsIdx_val_of_single rfl i q
theorem rhs0 (i : S5000x128.Idx) (q : dot_S5000x64_S64x128_S5000x128_1_0_0_1_n_n.contr.Idx) : (dot_S5000x64_S64x128_S5000x128_1_0_0_1_n_n.rhsIdx i q 0).val = (q ⟨0, by decide⟩).val :=
  dot_S5000x64_S64x128_S5000x128_1_0_0_1_n_n.rhsIdx_val_of_single rfl i q
theorem rhs1 (i : S5000x128.Idx) (q : dot_S5000x64_S64x128_S5000x128_1_0_0_1_n_n.contr.Idx) : (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-! ## The body's two stored values at an entry of the tile -/

/-- The first stored value: the tile times the weight matrix. -/
theorem prod_apply (w : Vec Ideal S64x128 .f32) (x : Vec Ideal S5000x64 .f32) (r : Fin 5000) (q : Fin 128) :
    k4_pay2 (F := Ideal) w x (ix2 r q) = ∑ k : Fin 64, x (ix2 r k) * w (ix2 k q) := by
  unfold k4_pay2 k4_pay1
  try simp only [shapeCast_self]
  exact Cert.PlainMatmul.matmul_zero_apply dot_S5000x64_S64x128_S5000x128_1_0_0_1_n_n rfl rfl lhs0 lhs1 rhs0 rhs1 none x w r q

/-- The second stored value: the pre-scaled tile times the weight matrix, plus the bias row. -/
theorem prodBias_apply (w : Vec Ideal S64x128 .f32) (x : Vec Ideal S5000x64 .f32) (b : Vec Ideal S1x128 .f32) (r : Fin 5000) (q : Fin 128) :
    k4_pay3 (F := Ideal) w x b (ix2 r q) = (∑ k : Fin 64, x (ix2 r k) * w (ix2 k q)) + b (ix2 (0 : Fin 1) q) := by
  unfold k4_pay3 k4_pay1
  simp only [shapeCast_self]
  rw [addf_apply, Cert.RowBias.bcastRow_apply]
  exact congrArg (· + b (ix2 (0 : Fin 1) q)) (Cert.PlainMatmul.matmul_zero_apply dot_S5000x64_S64x128_S5000x128_1_0_0_1_n_n rfl rfl lhs0 lhs1 rhs0 rhs1 none x w r q)

/-! ## The arrays after the run -/

variable (V : (c : Dev nD) → (b : Ref sig .tc) → Buf (Elt Ideal) ((c : Thread nD τ).loc b))

/-- The printed index maps over the grid: the row-tiled windows move together, tile by tile; the weight matrix and the
    bias row stay at block (0, 0). -/
theorem idx_facts : ∀ t : Fin cfg4.N,
    win4_0.index t (0 : Fin 2) = win4_4.index t (0 : Fin 2) ∧ win4_0.index t (1 : Fin 2) = 0
    ∧ win4_1.index t (0 : Fin 2) = win4_5.index t (0 : Fin 2) ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (1 : Fin 2) = 0 ∧ win4_5.index t (1 : Fin 2) = 0
    ∧ win4_4.index t (0 : Fin 2) ≤ 19 ∧ win4_5.index t (0 : Fin 2) ≤ 19 :=
  (by decide +kernel : ∀ t : Fin grid4.N, _)

/-- Every one of the 20 row tiles is some point's, for either output. -/
theorem idx_onto4 : ∀ q0 : Fin 20, ∃ t : Fin cfg4.N, win4_4.index t = ![q0.val, 0] :=
  (by decide +kernel : ∀ q0 : Fin 20, ∃ t : Fin grid4.N, win4_4.index t = ![q0.val, 0])
theorem idx_onto5 : ∀ q0 : Fin 20, ∃ t : Fin cfg4.N, win4_5.index t = ![q0.val, 0] :=
  (by decide +kernel : ∀ q0 : Fin 20, ∃ t : Fin grid4.N, win4_5.index t = ![q0.val, 0])

set_option maxHeartbeats 4000000 in
/-- What point t writes back to the first output is tile t of the product of the arrays as the kernel finds them. -/
theorem flushed4_eq (c : Dev nD) (t : Fin cfg4.N) :
    (dat4 V c).flushed 4 t = ((cfg4.win 4).blk t).view.read (Elt Ideal) (prodArr (K := 64) (N := 128) (V c main_v81) (V c main_arg16)) := by
  show (cfg4.win 4).cut (grid4.coords t) ((dat4 V c).after 4 t) = _
  rw [after4_4]
  unfold out4_4
  rw [View.canon_unit_zero hz]
  simp only [View.ld_unit_zero (S := S64x128) hz, View.ld_unit_zero (S := S5000x64) hz]
  obtain ⟨e00, e01, e10, e11, e20, e21, e30, e31, e41, e51, b4, b5⟩ := idx_facts t
  funext j
  obtain ⟨r, q, rfl⟩ : ∃ (r : Fin 5000) (q : Fin 128), j = ix2 r q := ⟨j 0, j 1, eq_ix2 j⟩
  refine (prod_apply (iblk4 V c 2 t) (iblk4 V c 0 t) r q).trans ?_
  show dotRow (fun k : Fin 64 => V c main_v81 (((cfg4.win 0).blk t).view.emb (ix2 r k))) (fun k : Fin 64 => V c main_arg16 (((cfg4.win 2).blk t).view.emb (ix2 k q)))
    = dotRow (fun k : Fin 64 => V c main_v81 (ix2 ((((cfg4.win 4).blk t).view.emb (ix2 r q)) 0) k)) (fun k : Fin 64 => V c main_arg16 (ix2 k ((((cfg4.win 4).blk t).view.emb (ix2 r q)) 1)))
  have h0 : ∀ k : Fin 64, (((cfg4.win 0).blk t).view.emb (ix2 r k)) = ix2 ((((cfg4.win 4).blk t).view.emb (ix2 r q)) 0) k := fun k => by
    funext a; apply Fin.ext
    match a with
    | ⟨0, _⟩ => show win4_0.index t (0 : Fin 2) * 5000 + 1 * r.val = win4_4.index t (0 : Fin 2) * 5000 + 1 * r.val; omega
    | ⟨1, _⟩ => show win4_0.index t (1 : Fin 2) * 64 + 1 * k.val = k.val; omega
  have h2 : ∀ k : Fin 64, (((cfg4.win 2).blk t).view.emb (ix2 k q)) = ix2 k ((((cfg4.win 4).blk t).view.emb (ix2 r q)) 1) := fun k => by
    funext a; apply Fin.ext
    match a with
    | ⟨0, _⟩ => show win4_2.index t (0 : Fin 2) * 64 + 1 * k.val = k.val; omega
    | ⟨1, _⟩ => show win4_2.index t (1 : Fin 2) * 128 + 1 * q.val = win4_4.index t (1 : Fin 2) * 128 + 1 * q.val; omega
  have hf : (fun k : Fin 64 => V c main_v81 (((cfg4.win 0).blk t).view.emb (ix2 r k))) = fun k : Fin 64 => V c main_v81 (ix2 ((((cfg4.win 4).blk t).view.emb (ix2 r q)) 0) k) := funext fun k => by rw [h0 k]; rfl
  have hg : (fun k : Fin 64 => V c main_arg16 (((cfg4.win 2).blk t).view.emb (ix2 k q))) = fun k : Fin 64 => V c main_arg16 (ix2 k ((((cfg4.win 4).blk t).view.emb (ix2 r q)) 1)) := funext fun k => by rw [h2 k]; rfl
  rw [hf, hg] <;> rfl

set_option maxHeartbeats 4000000 in
/-- What point t writes back to the second output is tile t of the biased product. -/
theorem flushed5_eq (c : Dev nD) (t : Fin cfg4.N) :
    (dat4 V c).flushed 5 t = ((cfg4.win 5).blk t).view.read (Elt Ideal) (prodBiasArr (K := 64) (N := 128) (V c main_v84) (V c main_arg16) (V c main_v85)) := by
  show (cfg4.win 5).cut (grid4.coords t) ((dat4 V c).after 5 t) = _
  rw [after4_5]
  unfold out4_5
  rw [View.canon_unit_zero hz]
  simp only [View.ld_unit_zero (S := S64x128) hz, View.ld_unit_zero (S := S5000x64) hz, View.ld_unit_zero (S := S1x128) hz]
  obtain ⟨e00, e01, e10, e11, e20, e21, e30, e31, e41, e51, b4, b5⟩ := idx_facts t
  funext j
  obtain ⟨r, q, rfl⟩ : ∃ (r : Fin 5000) (q : Fin 128), j = ix2 r q := ⟨j 0, j 1, eq_ix2 j⟩
  refine (prodBias_apply (iblk4 V c 2 t) (iblk4 V c 1 t) (iblk4 V c 3 t) r q).trans ?_
  show dotRowBias (fun k : Fin 64 => V c main_v84 (((cfg4.win 1).blk t).view.emb (ix2 r k))) (fun k : Fin 64 => V c main_arg16 (((cfg4.win 2).blk t).view.emb (ix2 k q))) (V c main_v85 (((cfg4.win 3).blk t).view.emb (ix2 (0 : Fin 1) q)))
    = dotRowBias (fun k : Fin 64 => V c main_v84 (ix2 ((((cfg4.win 5).blk t).view.emb (ix2 r q)) 0) k)) (fun k : Fin 64 => V c main_arg16 (ix2 k ((((cfg4.win 5).blk t).view.emb (ix2 r q)) 1))) (V c main_v85 (ix2 (0 : Fin 1) ((((cfg4.win 5).blk t).view.emb (ix2 r q)) 1)))
  have h1 : ∀ k : Fin 64, (((cfg4.win 1).blk t).view.emb (ix2 r k)) = ix2 ((((cfg4.win 5).blk t).view.emb (ix2 r q)) 0) k := fun k => by
    funext a; apply Fin.ext
    match a with
    | ⟨0, _⟩ => show win4_1.index t (0 : Fin 2) * 5000 + 1 * r.val = win4_5.index t (0 : Fin 2) * 5000 + 1 * r.val; omega
    | ⟨1, _⟩ => show win4_1.index t (1 : Fin 2) * 64 + 1 * k.val = k.val; omega
  have h2 : ∀ k : Fin 64, (((cfg4.win 2).blk t).view.emb (ix2 k q)) = ix2 k ((((cfg4.win 5).blk t).view.emb (ix2 r q)) 1) := fun k => by
    funext a; apply Fin.ext
    match a with
    | ⟨0, _⟩ => show win4_2.index t (0 : Fin 2) * 64 + 1 * k.val = k.val; omega
    | ⟨1, _⟩ => show win4_2.index t (1 : Fin 2) * 128 + 1 * q.val = win4_5.index t (1 : Fin 2) * 128 + 1 * q.val; omega
  have h3 : (((cfg4.win 3).blk t).view.emb (ix2 (0 : Fin 1) q)) = ix2 (0 : Fin 1) ((((cfg4.win 5).blk t).view.emb (ix2 r q)) 1) := by
    funext a; apply Fin.ext
    match a with
    | ⟨0, _⟩ => show win4_3.index t (0 : Fin 2) * 1 + 1 * 0 = 0; omega
    | ⟨1, _⟩ => show win4_3.index t (1 : Fin 2) * 128 + 1 * q.val = win4_5.index t (1 : Fin 2) * 128 + 1 * q.val; omega
  have hf : (fun k : Fin 64 => V c main_v84 (((cfg4.win 1).blk t).view.emb (ix2 r k))) = fun k : Fin 64 => V c main_v84 (ix2 ((((cfg4.win 5).blk t).view.emb (ix2 r q)) 0) k) := funext fun k => by rw [h1 k]; rfl
  have hg : (fun k : Fin 64 => V c main_arg16 (((cfg4.win 2).blk t).view.emb (ix2 k q))) = fun k : Fin 64 => V c main_arg16 (ix2 k ((((cfg4.win 5).blk t).view.emb (ix2 r q)) 1)) := funext fun k => by rw [h2 k]; rfl
  rw [hf, hg, h3] <;> rfl

/-- An index of an output array lies in point t's tile iff each coordinate lies in the tile's range on its axis. -/
theorem mem_blk4 (t : Fin cfg4.N) (i : S100000x128.Idx) :
    i ∈ ((cfg4.win 4).blk t).view.set ↔ ∀ a : Fin 2, win4_4.index t a * S5000x128.size a ≤ (i a).val ∧ (i a).val < win4_4.index t a * S5000x128.size a + S5000x128.size a := by
  show i ∈ ((View.whole main_v86_0).slice (win4_4.rect t)).set ↔ _
  rw [View.set_slice_whole, Rect.mem_set_unit]
  exact Iff.rfl
theorem mem_blk5 (t : Fin cfg4.N) (i : S100000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v86_1).slice (win4_5.rect t)).set ↔ _
  rw [View.set_slice_whole, Rect.mem_set_unit]
  exact Iff.rfl

/-- Row p of the array lies in the tile of the point whose tile index is p / 5000. -/
theorem cover4 (i : S100000x128.Idx) : ∃ t : Fin cfg4.N, (cfg4.win 4).flush t = true ∧ i ∈ ((cfg4.win 4).blk t).view.set := by
  have hi0 : (i 0).val < 100000 := (i 0).isLt
  have hi1 : (i 1).val < 128 := (i 1).isLt
  obtain ⟨t, ht⟩ := idx_onto4 ⟨(i 0).val / 5000, by omega⟩
  have q0 : win4_4.index t (0 : Fin 2) = (i 0).val / 5000 := congrFun ht 0
  have q1 : win4_4.index t (1 : Fin 2) = 0 := congrFun ht 1
  refine ⟨t, flush4_4 t, ?_⟩
  rw [mem_blk4]
  intro a
  match a with
  | ⟨0, _⟩ => show win4_4.index t (0 : Fin 2) * 5000 ≤ (i 0).val ∧ (i 0).val < win4_4.index t (0 : Fin 2) * 5000 + 5000; omega
  | ⟨1, _⟩ => show win4_4.index t (1 : Fin 2) * 128 ≤ (i 1).val ∧ (i 1).val < win4_4.index t (1 : Fin 2) * 128 + 128; omega
theorem cover5 (i : S100000x128.Idx) : ∃ t : Fin cfg4.N, (cfg4.win 5).flush t = true ∧ i ∈ ((cfg4.win 5).blk t).view.set := by
  have hi0 : (i 0).val < 100000 := (i 0).isLt
  have hi1 : (i 1).val < 128 := (i 1).isLt
  obtain ⟨t, ht⟩ := idx_onto5 ⟨(i 0).val / 5000, by omega⟩
  have q0 : win4_5.index t (0 : Fin 2) = (i 0).val / 5000 := congrFun ht 0
  have q1 : win4_5.index t (1 : Fin 2) = 0 := congrFun ht 1
  refine ⟨t, flush4_5 t, ?_⟩
  rw [mem_blk5]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 128 ≤ (i 1).val ∧ (i 1).val < win4_5.index t (1 : Fin 2) * 128 + 128; omega

/-- THE FIRST OUTPUT after the run: the product of the node features by the weights. -/
theorem arr4 (c : Dev nD) : (dat4 V c).arrAt 4 cfg4.N = prodArr (K := 64) (N := 128) (V c main_v81) (V c main_arg16) :=
  (dat4 V c).arrAt_eq_of_cover 4 (prodArr (K := 64) (N := 128) (V c main_v81) (V c main_arg16)) (fun t _ => flushed4_eq V c t) cover4

/-- THE SECOND OUTPUT after the run: the product of the pre-scaled node features by the weights, plus the bias row. -/
theorem arr5 (c : Dev nD) : (dat4 V c).arrAt 5 cfg4.N = prodBiasArr (K := 64) (N := 128) (V c main_v84) (V c main_arg16) (V c main_v85) :=
  (dat4 V c).arrAt_eq_of_cover 5 (prodBiasArr (K := 64) (N := 128) (V c main_v84) (V c main_arg16) (V c main_v85)) (fun t _ => flushed5_eq V c t) cover5

end Cert.KernelIdeal.Proj4

end
-- ==== Proof.Norm1.lean ====
/-
  The array a normalising kernel leaves, entry by entry.

  The kernel walks the node axis in 20 tiles of 5000 rows. At a tile it adds the aggregated messages and the self-loop
  term, subtracts the running-mean row, multiplies by the row g · rsqrt (v + eps), adds the shift row and takes the
  maximum with zero. The four parameter rows are the same at every tile, row r of tile t is row 5000·t + r of the
  array, and the 20 tiles cover the 100000 rows; so after the run
    output (p, q) = max (((A (p, q) + C (p, q)) − mu (0, q)) · (g (0, q) · rsqrt (v (0, q) + eps)) + be (0, q)) 0
  whatever arrays the kernel finds when it is entered.
-/
import proofs.«147466_j88089779241259_1_alg».proof.Proof.Gen.KernelIdeal.Frame
import proofs.«147466_j88089779241259_1_alg».proof.Proof.LibRowBias
import proofs.«147466_j88089779241259_1_alg».proof.Proof.LayerSpec
import Idealize.ShloMosaic.Lib.Pipeline.Value
import Idealize.ShloMosaic.Lib.ValueIdx

set_option maxRecDepth 16384

noncomputable section

namespace Cert.KernelIdeal.Norm1

open Cert.KernelIdeal Cert.KernelIdeal.Gen Idealize.ShloMosaic Idealize.ShloMosaic.ValueIdx Idealize.ShloMosaic.TcCoe Idealize.SL.Sem Cert.LayerSpec

theorem hz : (![0, 0] : Fin 2 → Nat) = fun _ => 0 := funext fun a => by fin_cases a <;> rfl

/-- The body's stored value at an entry of the tile. -/
theorem body_apply (agg corr : Vec Ideal S5000x32 .f32) (g v mu be : Vec Ideal S1x32 .f32) (r : Fin 5000) (q : Fin 32) :
    k1_pay1 (F := Ideal) agg corr g v mu be (ix2 r q)
      = entry (agg (ix2 r q)) (corr (ix2 r q)) (g (ix2 (0 : Fin 1) q)) (v (ix2 (0 : Fin 1) q)) (mu (ix2 (0 : Fin 1) q)) (be (ix2 (0 : Fin 1) q)) := by
  unfold k1_pay1 entry
  simp only [shapeCast_self]
  rw [maximumf_apply, addf_apply, mulf_apply, subf_apply, addf_apply, Cert.RowBias.bcastRow_apply, Cert.RowBias.bcastRow_apply,
    Cert.RowBias.bcastRow_apply, mulf_apply]
  rfl

variable (V : (c : Dev nD) → (b : Ref sig .tc) → Buf (Elt Ideal) ((c : Thread nD τ).loc b))

/-- The printed index maps over the grid: the two summands move with the output, tile by tile; the parameter rows stay
    at block (0, 0). -/
theorem idx_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (1 : Fin 2) = 0 ∧ win1_6.index t (0 : Fin 2) ≤ 19 :=
  (by decide +kernel : ∀ t : Fin grid1.N, _)

/-- Every one of the 20 row tiles is some point's. -/
theorem idx_onto6 : ∀ q0 : Fin 20, ∃ t : Fin cfg1.N, win1_6.index t = ![q0.val, 0] :=
  (by decide +kernel : ∀ q0 : Fin 20, ∃ t : Fin grid1.N, win1_6.index t = ![q0.val, 0])

set_option maxHeartbeats 4000000 in
/-- What point t writes back is tile t of the normalised array of the arrays as the kernel finds them. -/
theorem flushed6_eq (c : Dev nD) (t : Fin cfg1.N) :
    (dat1 V c).flushed 6 t = ((cfg1.win 6).blk t).view.read (Elt Ideal)
      (normArr (N := 32) (V c main_v53) (V c main_v40_1) (V c main_v54) (V c main_v55) (V c main_v56) (V c main_v57)) := by
  show (cfg1.win 6).cut (grid1.coords t) ((dat1 V c).after 6 t) = _
  rw [after1_6]
  unfold out1_6
  rw [View.canon_unit_zero hz]
  simp only [View.ld_unit_zero (S := S5000x32) hz, View.ld_unit_zero (S := S1x32) hz]
  obtain ⟨e00, e01, e10, e11, e20, e21, e30, e31, e40, e41, e50, e51, e61, b6⟩ := idx_facts t
  funext j
  obtain ⟨r, q, rfl⟩ : ∃ (r : Fin 5000) (q : Fin 32), j = ix2 r q := ⟨j 0, j 1, eq_ix2 j⟩
  refine (body_apply (iblk1 V c 0 t) (iblk1 V c 1 t) (iblk1 V c 2 t) (iblk1 V c 5 t) (iblk1 V c 4 t) (iblk1 V c 3 t) r q).trans ?_
  have h0 : (((cfg1.win 0).blk t).view.emb (ix2 r q)) = (((cfg1.win 6).blk t).view.emb (ix2 r q)) := by
    funext a; apply Fin.ext
    match a with
    | ⟨0, _⟩ => show win1_0.index t (0 : Fin 2) * 5000 + 1 * r.val = win1_6.index t (0 : Fin 2) * 5000 + 1 * r.val; omega
    | ⟨1, _⟩ => show win1_0.index t (1 : Fin 2) * 32 + 1 * q.val = win1_6.index t (1 : Fin 2) * 32 + 1 * q.val; omega
  have h1 : (((cfg1.win 1).blk t).view.emb (ix2 r q)) = (((cfg1.win 6).blk t).view.emb (ix2 r q)) := by
    funext a; apply Fin.ext
    match a with
    | ⟨0, _⟩ => show win1_1.index t (0 : Fin 2) * 5000 + 1 * r.val = win1_6.index t (0 : Fin 2) * 5000 + 1 * r.val; omega
    | ⟨1, _⟩ => show win1_1.index t (1 : Fin 2) * 32 + 1 * q.val = win1_6.index t (1 : Fin 2) * 32 + 1 * q.val; omega
  have h2 : (((cfg1.win 2).blk t).view.emb (ix2 (0 : Fin 1) q)) = ix2 (0 : Fin 1) ((((cfg1.win 6).blk t).view.emb (ix2 r q)) 1) := by
    funext a; apply Fin.ext
    match a with
    | ⟨0, _⟩ => show win1_2.index t (0 : Fin 2) * 1 + 1 * 0 = 0; omega
    | ⟨1, _⟩ => show win1_2.index t (1 : Fin 2) * 32 + 1 * q.val = win1_6.index t (1 : Fin 2) * 32 + 1 * q.val; omega
  have h3 : (((cfg1.win 3).blk t).view.emb (ix2 (0 : Fin 1) q)) = ix2 (0 : Fin 1) ((((cfg1.win 6).blk t).view.emb (ix2 r q)) 1) := by
    funext a; apply Fin.ext
    match a with
    | ⟨0, _⟩ => show win1_3.index t (0 : Fin 2) * 1 + 1 * 0 = 0; omega
    | ⟨1, _⟩ => show win1_3.index t (1 : Fin 2) * 32 + 1 * q.val = win1_6.index t (1 : Fin 2) * 32 + 1 * q.val; omega
  have h4 : (((cfg1.win 4).blk t).view.emb (ix2 (0 : Fin 1) q)) = ix2 (0 : Fin 1) ((((cfg1.win 6).blk t).view.emb (ix2 r q)) 1) := by
    funext a; apply Fin.ext
    match a with
    | ⟨0, _⟩ => show win1_4.index t (0 : Fin 2) * 1 + 1 * 0 = 0; omega
    | ⟨1, _⟩ => show win1_4.index t (1 : Fin 2) * 32 + 1 * q.val = win1_6.index t (1 : Fin 2) * 32 + 1 * q.val; omega
  have h5 : (((cfg1.win 5).blk t).view.emb (ix2 (0 : Fin 1) q)) = ix2 (0 : Fin 1) ((((cfg1.win 6).blk t).view.emb (ix2 r q)) 1) := by
    funext a; apply Fin.ext
    match a with
    | ⟨0, _⟩ => show win1_5.index t (0 : Fin 2) * 1 + 1 * 0 = 0; omega
    | ⟨1, _⟩ => show win1_5.index t (1 : Fin 2) * 32 + 1 * q.val = win1_6.index t (1 : Fin 2) * 32 + 1 * q.val; omega
  show entry (V c main_v53 (((cfg1.win 0).blk t).view.emb (ix2 r q))) (V c main_v40_1 (((cfg1.win 1).blk t).view.emb (ix2 r q))) (V c main_v54 (((cfg1.win 2).blk t).view.emb (ix2 (0 : Fin 1) q)))
      (V c main_v57 (((cfg1.win 5).blk t).view.emb (ix2 (0 : Fin 1) q))) (V c main_v56 (((cfg1.win 4).blk t).view.emb (ix2 (0 : Fin 1) q))) (V c main_v55 (((cfg1.win 3).blk t).view.emb (ix2 (0 : Fin 1) q)))
    = entry (V c main_v53 (((cfg1.win 6).blk t).view.emb (ix2 r q))) (V c main_v40_1 (((cfg1.win 6).blk t).view.emb (ix2 r q))) (V c main_v54 (ix2 (0 : Fin 1) ((((cfg1.win 6).blk t).view.emb (ix2 r q)) 1)))
      (V c main_v57 (ix2 (0 : Fin 1) ((((cfg1.win 6).blk t).view.emb (ix2 r q)) 1))) (V c main_v56 (ix2 (0 : Fin 1) ((((cfg1.win 6).blk t).view.emb (ix2 r q)) 1))) (V c main_v55 (ix2 (0 : Fin 1) ((((cfg1.win 6).blk t).view.emb (ix2 r q)) 1)))
  rw [h0, h1, h2, h3, h4, h5]
  rfl

/-- An index of the output array lies in point t's tile iff each coordinate lies in the tile's range on its axis. -/
theorem mem_blk6 (t : Fin cfg1.N) (i : S100000x32.Idx) :
    i ∈ ((cfg1.win 6).blk t).view.set ↔ ∀ a : Fin 2, win1_6.index t a * S5000x32.size a ≤ (i a).val ∧ (i a).val < win1_6.index t a * S5000x32.size a + S5000x32.size a := by
  show i ∈ ((View.whole main_v58).slice (win1_6.rect t)).set ↔ _
  rw [View.set_slice_whole, Rect.mem_set_unit]
  exact Iff.rfl

/-- Row p of the array lies in the tile of the point whose tile index is p / 5000. -/
theorem cover6 (i : S100000x32.Idx) : ∃ t : Fin cfg1.N, (cfg1.win 6).flush t = true ∧ i ∈ ((cfg1.win 6).blk t).view.set := by
  have hi0 : (i 0).val < 100000 := (i 0).isLt
  have hi1 : (i 1).val < 32 := (i 1).isLt
  obtain ⟨t, ht⟩ := idx_onto6 ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk6]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 32 ≤ (i 1).val ∧ (i 1).val < win1_6.index t (1 : Fin 2) * 32 + 32; omega

/-- THE OUTPUT after the run: the normalised array. -/
theorem arr6 (c : Dev nD) : (dat1 V c).arrAt 6 cfg1.N
    = normArr (N := 32) (V c main_v53) (V c main_v40_1) (V c main_v54) (V c main_v55) (V c main_v56) (V c main_v57) :=
  (dat1 V c).arrAt_eq_of_cover 6 _ (fun t _ => flushed6_eq V c t) cover6

end Cert.KernelIdeal.Norm1

end
-- ==== Proof.Norm3.lean ====
/-
  The array a normalising kernel leaves, entry by entry.

  The kernel walks the node axis in 20 tiles of 5000 rows. At a tile it adds the aggregated messages and the self-loop
  term, subtracts the running-mean row, multiplies by the row g · rsqrt (v + eps), adds the shift row and takes the
  maximum with zero. The four parameter rows are the same at every tile, row r of tile t is row 5000·t + r of the
  array, and the 20 tiles cover the 100000 rows; so after the run
    output (p, q) = max (((A (p, q) + C (p, q)) − mu (0, q)) · (g (0, q) · rsqrt (v (0, q) + eps)) + be (0, q)) 0
  whatever arrays the kernel finds when it is entered.
-/
import proofs.«147466_j88089779241259_1_alg».proof.Proof.Gen.KernelIdeal.Frame
import proofs.«147466_j88089779241259_1_alg».proof.Proof.LibRowBias
import proofs.«147466_j88089779241259_1_alg».proof.Proof.LayerSpec
import Idealize.ShloMosaic.Lib.Pipeline.Value
import Idealize.ShloMosaic.Lib.ValueIdx

set_option maxRecDepth 16384

noncomputable section

namespace Cert.KernelIdeal.Norm3

open Cert.KernelIdeal Cert.KernelIdeal.Gen Idealize.ShloMosaic Idealize.ShloMosaic.ValueIdx Idealize.ShloMosaic.TcCoe Idealize.SL.Sem Cert.LayerSpec

theorem hz : (![0, 0] : Fin 2 → Nat) = fun _ => 0 := funext fun a => by fin_cases a <;> rfl

/-- The body's stored value at an entry of the tile. -/
theorem body_apply (agg corr : Vec Ideal S5000x64 .f32) (g v mu be : Vec Ideal S1x64 .f32) (r : Fin 5000) (q : Fin 64) :
    k3_pay1 (F := Ideal) agg corr g v mu be (ix2 r q)
      = entry (agg (ix2 r q)) (corr (ix2 r q)) (g (ix2 (0 : Fin 1) q)) (v (ix2 (0 : Fin 1) q)) (mu (ix2 (0 : Fin 1) q)) (be (ix2 (0 : Fin 1) q)) := by
  unfold k3_pay1 entry
  simp only [shapeCast_self]
  rw [maximumf_apply, addf_apply, mulf_apply, subf_apply, addf_apply, Cert.RowBias.bcastRow_apply, Cert.RowBias.bcastRow_apply,
    Cert.RowBias.bcastRow_apply, mulf_apply]
  rfl

variable (V : (c : Dev nD) → (b : Ref sig .tc) → Buf (Elt Ideal) ((c : Thread nD τ).loc b))

/-- The printed index maps over the grid: the two summands move with the output, tile by tile; the parameter rows stay
    at block (0, 0). -/
theorem idx_facts : ∀ t : Fin cfg3.N,
    win3_0.index t (0 : Fin 2) = win3_6.index t (0 : Fin 2) ∧ win3_0.index t (1 : Fin 2) = 0
    ∧ win3_1.index t (0 : Fin 2) = win3_6.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (1 : Fin 2) = 0 ∧ win3_6.index t (0 : Fin 2) ≤ 19 :=
  (by decide +kernel : ∀ t : Fin grid3.N, _)

/-- Every one of the 20 row tiles is some point's. -/
theorem idx_onto6 : ∀ q0 : Fin 20, ∃ t : Fin cfg3.N, win3_6.index t = ![q0.val, 0] :=
  (by decide +kernel : ∀ q0 : Fin 20, ∃ t : Fin grid3.N, win3_6.index t = ![q0.val, 0])

set_option maxHeartbeats 4000000 in
/-- What point t writes back is tile t of the normalised array of the arrays as the kernel finds them. -/
theorem flushed6_eq (c : Dev nD) (t : Fin cfg3.N) :
    (dat3 V c).flushed 6 t = ((cfg3.win 6).blk t).view.read (Elt Ideal)
      (normArr (N := 64) (V c main_v76) (V c main_v63_1) (V c main_v77) (V c main_v78) (V c main_v79) (V c main_v80)) := by
  show (cfg3.win 6).cut (grid3.coords t) ((dat3 V c).after 6 t) = _
  rw [after3_6]
  unfold out3_6
  rw [View.canon_unit_zero hz]
  simp only [View.ld_unit_zero (S := S5000x64) hz, View.ld_unit_zero (S := S1x64) hz]
  obtain ⟨e00, e01, e10, e11, e20, e21, e30, e31, e40, e41, e50, e51, e61, b6⟩ := idx_facts t
  funext j
  obtain ⟨r, q, rfl⟩ : ∃ (r : Fin 5000) (q : Fin 64), j = ix2 r q := ⟨j 0, j 1, eq_ix2 j⟩
  refine (body_apply (iblk3 V c 0 t) (iblk3 V c 1 t) (iblk3 V c 2 t) (iblk3 V c 5 t) (iblk3 V c 4 t) (iblk3 V c 3 t) r q).trans ?_
  have h0 : (((cfg3.win 0).blk t).view.emb (ix2 r q)) = (((cfg3.win 6).blk t).view.emb (ix2 r q)) := by
    funext a; apply Fin.ext
    match a with
    | ⟨0, _⟩ => show win3_0.index t (0 : Fin 2) * 5000 + 1 * r.val = win3_6.index t (0 : Fin 2) * 5000 + 1 * r.val; omega
    | ⟨1, _⟩ => show win3_0.index t (1 : Fin 2) * 64 + 1 * q.val = win3_6.index t (1 : Fin 2) * 64 + 1 * q.val; omega
  have h1 : (((cfg3.win 1).blk t).view.emb (ix2 r q)) = (((cfg3.win 6).blk t).view.emb (ix2 r q)) := by
    funext a; apply Fin.ext
    match a with
    | ⟨0, _⟩ => show win3_1.index t (0 : Fin 2) * 5000 + 1 * r.val = win3_6.index t (0 : Fin 2) * 5000 + 1 * r.val; omega
    | ⟨1, _⟩ => show win3_1.index t (1 : Fin 2) * 64 + 1 * q.val = win3_6.index t (1 : Fin 2) * 64 + 1 * q.val; omega
  have h2 : (((cfg3.win 2).blk t).view.emb (ix2 (0 : Fin 1) q)) = ix2 (0 : Fin 1) ((((cfg3.win 6).blk t).view.emb (ix2 r q)) 1) := by
    funext a; apply Fin.ext
    match a with
    | ⟨0, _⟩ => show win3_2.index t (0 : Fin 2) * 1 + 1 * 0 = 0; omega
    | ⟨1, _⟩ => show win3_2.index t (1 : Fin 2) * 64 + 1 * q.val = win3_6.index t (1 : Fin 2) * 64 + 1 * q.val; omega
  have h3 : (((cfg3.win 3).blk t).view.emb (ix2 (0 : Fin 1) q)) = ix2 (0 : Fin 1) ((((cfg3.win 6).blk t).view.emb (ix2 r q)) 1) := by
    funext a; apply Fin.ext
    match a with
    | ⟨0, _⟩ => show win3_3.index t (0 : Fin 2) * 1 + 1 * 0 = 0; omega
    | ⟨1, _⟩ => show win3_3.index t (1 : Fin 2) * 64 + 1 * q.val = win3_6.index t (1 : Fin 2) * 64 + 1 * q.val; omega
  have h4 : (((cfg3.win 4).blk t).view.emb (ix2 (0 : Fin 1) q)) = ix2 (0 : Fin 1) ((((cfg3.win 6).blk t).view.emb (ix2 r q)) 1) := by
    funext a; apply Fin.ext
    match a with
    | ⟨0, _⟩ => show win3_4.index t (0 : Fin 2) * 1 + 1 * 0 = 0; omega
    | ⟨1, _⟩ => show win3_4.index t (1 : Fin 2) * 64 + 1 * q.val = win3_6.index t (1 : Fin 2) * 64 + 1 * q.val; omega
  have h5 : (((cfg3.win 5).blk t).view.emb (ix2 (0 : Fin 1) q)) = ix2 (0 : Fin 1) ((((cfg3.win 6).blk t).view.emb (ix2 r q)) 1) := by
    funext a; apply Fin.ext
    match a with
    | ⟨0, _⟩ => show win3_5.index t (0 : Fin 2) * 1 + 1 * 0 = 0; omega
    | ⟨1, _⟩ => show win3_5.index t (1 : Fin 2) * 64 + 1 * q.val = win3_6.index t (1 : Fin 2) * 64 + 1 * q.val; omega
  show entry (V c main_v76 (((cfg3.win 0).blk t).view.emb (ix2 r q))) (V c main_v63_1 (((cfg3.win 1).blk t).view.emb (ix2 r q))) (V c main_v77 (((cfg3.win 2).blk t).view.emb (ix2 (0 : Fin 1) q)))
      (V c main_v80 (((cfg3.win 5).blk t).view.emb (ix2 (0 : Fin 1) q))) (V c main_v79 (((cfg3.win 4).blk t).view.emb (ix2 (0 : Fin 1) q))) (V c main_v78 (((cfg3.win 3).blk t).view.emb (ix2 (0 : Fin 1) q)))
    = entry (V c main_v76 (((cfg3.win 6).blk t).view.emb (ix2 r q))) (V c main_v63_1 (((cfg3.win 6).blk t).view.emb (ix2 r q))) (V c main_v77 (ix2 (0 : Fin 1) ((((cfg3.win 6).blk t).view.emb (ix2 r q)) 1)))
      (V c main_v80 (ix2 (0 : Fin 1) ((((cfg3.win 6).blk t).view.emb (ix2 r q)) 1))) (V c main_v79 (ix2 (0 : Fin 1) ((((cfg3.win 6).blk t).view.emb (ix2 r q)) 1))) (V c main_v78 (ix2 (0 : Fin 1) ((((cfg3.win 6).blk t).view.emb (ix2 r q)) 1)))
  rw [h0, h1, h2, h3, h4, h5]
  rfl

/-- An index of the output array lies in point t's tile iff each coordinate lies in the tile's range on its axis. -/
theorem mem_blk6 (t : Fin cfg3.N) (i : S100000x64.Idx) :
    i ∈ ((cfg3.win 6).blk t).view.set ↔ ∀ a : Fin 2, win3_6.index t a * S5000x64.size a ≤ (i a).val ∧ (i a).val < win3_6.index t a * S5000x64.size a + S5000x64.size a := by
  show i ∈ ((View.whole main_v81).slice (win3_6.rect t)).set ↔ _
  rw [View.set_slice_whole, Rect.mem_set_unit]
  exact Iff.rfl

/-- Row p of the array lies in the tile of the point whose tile index is p / 5000. -/
theorem cover6 (i : S100000x64.Idx) : ∃ t : Fin cfg3.N, (cfg3.win 6).flush t = true ∧ i ∈ ((cfg3.win 6).blk t).view.set := by
  have hi0 : (i 0).val < 100000 := (i 0).isLt
  have hi1 : (i 1).val < 64 := (i 1).isLt
  obtain ⟨t, ht⟩ := idx_onto6 ⟨(i 0).val / 5000, by omega⟩
  have q0 : win3_6.index t (0 : Fin 2) = (i 0).val / 5000 := congrFun ht 0
  have q1 : win3_6.index t (1 : Fin 2) = 0 := congrFun ht 1
  refine ⟨t, flush3_6 t, ?_⟩
  rw [mem_blk6]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 64 ≤ (i 1).val ∧ (i 1).val < win3_6.index t (1 : Fin 2) * 64 + 64; omega

/-- THE OUTPUT after the run: the normalised array. -/
theorem arr6 (c : Dev nD) : (dat3 V c).arrAt 6 cfg3.N
    = normArr (N := 64) (V c main_v76) (V c main_v63_1) (V c main_v77) (V c main_v78) (V c main_v79) (V c main_v80) :=
  (dat3 V c).arrAt_eq_of_cover 6 _ (fun t _ => flushed6_eq V c t) cover6

end Cert.KernelIdeal.Norm3

end
-- ==== Proof.Norm5.lean ====
/-
  The array a normalising kernel leaves, entry by entry.

  The kernel walks the node axis in 20 tiles of 5000 rows. At a tile it adds the aggregated messages and the self-loop
  term, subtracts the running-mean row, multiplies by the row g · rsqrt (v + eps), adds the shift row and takes the
  maximum with zero. The four parameter rows are the same at every tile, row r of tile t is row 5000·t + r of the
  array, and the 20 tiles cover the 100000 rows; so after the run
    output (p, q) = max (((A (p, q) + C (p, q)) − mu (0, q)) · (g (0, q) · rsqrt (v (0, q) + eps)) + be (0, q)) 0
  whatever arrays the kernel finds when it is entered.
-/
import proofs.«147466_j88089779241259_1_alg».proof.Proof.Gen.KernelIdeal.Frame
import proofs.«147466_j88089779241259_1_alg».proof.Proof.LibRowBias
import proofs.«147466_j88089779241259_1_alg».proof.Proof.LayerSpec
import Idealize.ShloMosaic.Lib.Pipeline.Value
import Idealize.ShloMosaic.Lib.ValueIdx

set_option maxRecDepth 16384

noncomputable section

namespace Cert.KernelIdeal.Norm5

open Cert.KernelIdeal Cert.KernelIdeal.Gen Idealize.ShloMosaic Idealize.ShloMosaic.ValueIdx Idealize.ShloMosaic.TcCoe Idealize.SL.Sem Cert.LayerSpec

theorem hz : (![0, 0] : Fin 2 → Nat) = fun _ => 0 := funext fun a => by fin_cases a <;> rfl

/-- The body's stored value at an entry of the tile. -/
theorem body_apply (agg corr : Vec Ideal S5000x128 .f32) (g v mu be : Vec Ideal S1x128 .f32) (r : Fin 5000) (q : Fin 128) :
    k5_pay1 (F := Ideal) agg corr g v mu be (ix2 r q)
      = entry (agg (ix2 r q)) (corr (ix2 r q)) (g (ix2 (0 : Fin 1) q)) (v (ix2 (0 : Fin 1) q)) (mu (ix2 (0 : Fin 1) q)) (be (ix2 (0 : Fin 1) q)) := by
  unfold k5_pay1 entry
  simp only [shapeCast_self]
  rw [maximumf_apply, addf_apply, mulf_apply, subf_apply, addf_apply, Cert.RowBias.bcastRow_apply, Cert.RowBias.bcastRow_apply,
    Cert.RowBias.bcastRow_apply, mulf_apply]
  rfl

variable (V : (c : Dev nD) → (b : Ref sig .tc) → Buf (Elt Ideal) ((c : Thread nD τ).loc b))

/-- The printed index maps over the grid: the two summands move with the output, tile by tile; the parameter rows stay
    at block (0, 0). -/
theorem idx_facts : ∀ t : Fin cfg5.N,
    win5_0.index t (0 : Fin 2) = win5_6.index t (0 : Fin 2) ∧ win5_0.index t (1 : Fin 2) = 0
    ∧ win5_1.index t (0 : Fin 2) = win5_6.index t (0 : Fin 2) ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (1 : Fin 2) = 0 ∧ win5_6.index t (0 : Fin 2) ≤ 19 :=
  (by decide +kernel : ∀ t : Fin grid5.N, _)

/-- Every one of the 20 row tiles is some point's. -/
theorem idx_onto6 : ∀ q0 : Fin 20, ∃ t : Fin cfg5.N, win5_6.index t = ![q0.val, 0] :=
  (by decide +kernel : ∀ q0 : Fin 20, ∃ t : Fin grid5.N, win5_6.index t = ![q0.val, 0])

set_option maxHeartbeats 4000000 in
/-- What point t writes back is tile t of the normalised array of the arrays as the kernel finds them. -/
theorem flushed6_eq (c : Dev nD) (t : Fin cfg5.N) :
    (dat5 V c).flushed 6 t = ((cfg5.win 6).blk t).view.read (Elt Ideal)
      (normArr (N := 128) (V c main_v99) (V c main_v86_1) (V c main_v100) (V c main_v101) (V c main_v102) (V c main_v103)) := by
  show (cfg5.win 6).cut (grid5.coords t) ((dat5 V c).after 6 t) = _
  rw [after5_6]
  unfold out5_6
  rw [View.canon_unit_zero hz]
  simp only [View.ld_unit_zero (S := S5000x128) hz, View.ld_unit_zero (S := S1x128) hz]
  obtain ⟨e00, e01, e10, e11, e20, e21, e30, e31, e40, e41, e50, e51, e61, b6⟩ := idx_facts t
  funext j
  obtain ⟨r, q, rfl⟩ : ∃ (r : Fin 5000) (q : Fin 128), j = ix2 r q := ⟨j 0, j 1, eq_ix2 j⟩
  refine (body_apply (iblk5 V c 0 t) (iblk5 V c 1 t) (iblk5 V c 2 t) (iblk5 V c 5 t) (iblk5 V c 4 t) (iblk5 V c 3 t) r q).trans ?_
  have h0 : (((cfg5.win 0).blk t).view.emb (ix2 r q)) = (((cfg5.win 6).blk t).view.emb (ix2 r q)) := by
    funext a; apply Fin.ext
    match a with
    | ⟨0, _⟩ => show win5_0.index t (0 : Fin 2) * 5000 + 1 * r.val = win5_6.index t (0 : Fin 2) * 5000 + 1 * r.val; omega
    | ⟨1, _⟩ => show win5_0.index t (1 : Fin 2) * 128 + 1 * q.val = win5_6.index t (1 : Fin 2) * 128 + 1 * q.val; omega
  have h1 : (((cfg5.win 1).blk t).view.emb (ix2 r q)) = (((cfg5.win 6).blk t).view.emb (ix2 r q)) := by
    funext a; apply Fin.ext
    match a with
    | ⟨0, _⟩ => show win5_1.index t (0 : Fin 2) * 5000 + 1 * r.val = win5_6.index t (0 : Fin 2) * 5000 + 1 * r.val; omega
    | ⟨1, _⟩ => show win5_1.index t (1 : Fin 2) * 128 + 1 * q.val = win5_6.index t (1 : Fin 2) * 128 + 1 * q.val; omega
  have h2 : (((cfg5.win 2).blk t).view.emb (ix2 (0 : Fin 1) q)) = ix2 (0 : Fin 1) ((((cfg5.win 6).blk t).view.emb (ix2 r q)) 1) := by
    funext a; apply Fin.ext
    match a with
    | ⟨0, _⟩ => show win5_2.index t (0 : Fin 2) * 1 + 1 * 0 = 0; omega
    | ⟨1, _⟩ => show win5_2.index t (1 : Fin 2) * 128 + 1 * q.val = win5_6.index t (1 : Fin 2) * 128 + 1 * q.val; omega
  have h3 : (((cfg5.win 3).blk t).view.emb (ix2 (0 : Fin 1) q)) = ix2 (0 : Fin 1) ((((cfg5.win 6).blk t).view.emb (ix2 r q)) 1) := by
    funext a; apply Fin.ext
    match a with
    | ⟨0, _⟩ => show win5_3.index t (0 : Fin 2) * 1 + 1 * 0 = 0; omega
    | ⟨1, _⟩ => show win5_3.index t (1 : Fin 2) * 128 + 1 * q.val = win5_6.index t (1 : Fin 2) * 128 + 1 * q.val; omega
  have h4 : (((cfg5.win 4).blk t).view.emb (ix2 (0 : Fin 1) q)) = ix2 (0 : Fin 1) ((((cfg5.win 6).blk t).view.emb (ix2 r q)) 1) := by
    funext a; apply Fin.ext
    match a with
    | ⟨0, _⟩ => show win5_4.index t (0 : Fin 2) * 1 + 1 * 0 = 0; omega
    | ⟨1, _⟩ => show win5_4.index t (1 : Fin 2) * 128 + 1 * q.val = win5_6.index t (1 : Fin 2) * 128 + 1 * q.val; omega
  have h5 : (((cfg5.win 5).blk t).view.emb (ix2 (0 : Fin 1) q)) = ix2 (0 : Fin 1) ((((cfg5.win 6).blk t).view.emb (ix2 r q)) 1) := by
    funext a; apply Fin.ext
    match a with
    | ⟨0, _⟩ => show win5_5.index t (0 : Fin 2) * 1 + 1 * 0 = 0; omega
    | ⟨1, _⟩ => show win5_5.index t (1 : Fin 2) * 128 + 1 * q.val = win5_6.index t (1 : Fin 2) * 128 + 1 * q.val; omega
  show entry (V c main_v99 (((cfg5.win 0).blk t).view.emb (ix2 r q))) (V c main_v86_1 (((cfg5.win 1).blk t).view.emb (ix2 r q))) (V c main_v100 (((cfg5.win 2).blk t).view.emb (ix2 (0 : Fin 1) q)))
      (V c main_v103 (((cfg5.win 5).blk t).view.emb (ix2 (0 : Fin 1) q))) (V c main_v102 (((cfg5.win 4).blk t).view.emb (ix2 (0 : Fin 1) q))) (V c main_v101 (((cfg5.win 3).blk t).view.emb (ix2 (0 : Fin 1) q)))
    = entry (V c main_v99 (((cfg5.win 6).blk t).view.emb (ix2 r q))) (V c main_v86_1 (((cfg5.win 6).blk t).view.emb (ix2 r q))) (V c main_v100 (ix2 (0 : Fin 1) ((((cfg5.win 6).blk t).view.emb (ix2 r q)) 1)))
      (V c main_v103 (ix2 (0 : Fin 1) ((((cfg5.win 6).blk t).view.emb (ix2 r q)) 1))) (V c main_v102 (ix2 (0 : Fin 1) ((((cfg5.win 6).blk t).view.emb (ix2 r q)) 1))) (V c main_v101 (ix2 (0 : Fin 1) ((((cfg5.win 6).blk t).view.emb (ix2 r q)) 1)))
  rw [h0, h1, h2, h3, h4, h5]
  rfl

/-- An index of the output array lies in point t's tile iff each coordinate lies in the tile's range on its axis. -/
theorem mem_blk6 (t : Fin cfg5.N) (i : S100000x128.Idx) :
    i ∈ ((cfg5.win 6).blk t).view.set ↔ ∀ a : Fin 2, win5_6.index t a * S5000x128.size a ≤ (i a).val ∧ (i a).val < win5_6.index t a * S5000x128.size a + S5000x128.size a := by
  show i ∈ ((View.whole main_v104).slice (win5_6.rect t)).set ↔ _
  rw [View.set_slice_whole, Rect.mem_set_unit]
  exact Iff.rfl

/-- Row p of the array lies in the tile of the point whose tile index is p / 5000. -/
theorem cover6 (i : S100000x128.Idx) : ∃ t : Fin cfg5.N, (cfg5.win 6).flush t = true ∧ i ∈ ((cfg5.win 6).blk t).view.set := by
  have hi0 : (i 0).val < 100000 := (i 0).isLt
  have hi1 : (i 1).val < 128 := (i 1).isLt
  obtain ⟨t, ht⟩ := idx_onto6 ⟨(i 0).val / 5000, by omega⟩
  have q0 : win5_6.index t (0 : Fin 2) = (i 0).val / 5000 := congrFun ht 0
  have q1 : win5_6.index t (1 : Fin 2) = 0 := congrFun ht 1
  refine ⟨t, flush5_6 t, ?_⟩
  rw [mem_blk6]
  intro a
  match a with
  | ⟨0, _⟩ => show win5_6.index t (0 : Fin 2) * 5000 ≤ (i 0).val ∧ (i 0).val < win5_6.index t (0 : Fin 2) * 5000 + 5000; omega
  | ⟨1, _⟩ => show win5_6.index t (1 : Fin 2) * 128 ≤ (i 1).val ∧ (i 1).val < win5_6.index t (1 : Fin 2) * 128 + 128; omega

/-- THE OUTPUT after the run: the normalised array. -/
theorem arr6 (c : Dev nD) : (dat5 V c).arrAt 6 cfg5.N
    = normArr (N := 128) (V c main_v99) (V c main_v86_1) (V c main_v100) (V c main_v101) (V c main_v102) (V c main_v103) :=
  (dat5 V c).arrAt_eq_of_cover 6 _ (fun t _ => flushed6_eq V c t) cover6

end Cert.KernelIdeal.Norm5

end
-- ==== Proof.SelfNorm.lean ====
/-
  The reference's self-loop coefficient is a nonnegative real, whatever the degree is.

  With `deg` the degree at a node (an extended real), the reference computes `w = (deg > 0 ? 1 / sqrt deg : 0)` and
  the self-loop coefficient `w · w`. If `deg` is a positive real, `w = (√deg)⁻¹`, a nonnegative real; if `deg = ⊤`,
  `sqrt ⊤ = ⊤` and `1 / ⊤ = 0`; in every other case the comparison fails and `w = 0`. So `w` is a nonnegative real
  `d`, and `w · w = d · d` is one too. No finiteness of the inputs is used.
-/
import proofs.«147466_j88089779241259_1_alg».proof.Proof.Gen.ReferenceIdeal.Read
import Idealize.ShloMosaic.Lib.ValueIdx
import Idealize.ShloMosaic.Lib.IdealHost

noncomputable section

namespace Cert.SelfNorm

open Idealize.ShloMosaic Idealize.ShloMosaic.ValueIdx
open Cert.ReferenceIdeal Cert.ReferenceIdeal.Read

/-- `1 / sqrt deg` where `deg > 0`, and `0` elsewhere, is a nonnegative real at every extended real `deg`. -/
theorem dinv_real (deg : EReal) :
    ∃ d : ℝ, 0 ≤ d ∧ (if 0 < deg then Ideal.div 1 (Ideal.sqrt deg) else 0) = ((d : ℝ) : EReal) := by
  induction deg using EReal.rec with
  | bot => exact ⟨0, le_rfl, by simp⟩
  | top => exact ⟨0, le_rfl, by simp [Ideal.div]⟩
  | coe r =>
    by_cases hr : 0 < r
    · have h0 : (0 : EReal) < (r : EReal) := by exact_mod_cast hr
      have hs : Real.sqrt r ≠ 0 := (Real.sqrt_pos.2 hr).ne'
      refine ⟨(Real.sqrt r)⁻¹, inv_nonneg.2 (Real.sqrt_nonneg r), ?_⟩
      rw [if_pos h0]
      simp [Ideal.div, not_lt.2 hr.le, hs]
      exact (EReal.coe_inv _).symm
    · have h0 : ¬ (0 : EReal) < (r : EReal) := by exact_mod_cast hr
      exact ⟨0, le_rfl, by rw [if_neg h0]; rfl⟩

/-- The select on the comparison `deg > +0.0` between the quotient `1.0 / sqrt deg` and `+0.0`, at the extended
    reals: the constants' patterns denote `0` and `1`, and the comparison's bit is 1 exactly when `0 < deg`. -/
theorem select_core (deg : Ideal .f32) :
    Scalar.select (FloatOps.cmpf .ogt deg (FloatOps.ofBits (F := Ideal) .f32 0x00000000#32))
        (FloatOps.hostDivf (FloatOps.ofBits (F := Ideal) .f32 0x3F800000#32) (FloatOps.hostUnary .sqrt deg))
        (FloatOps.ofBits (F := Ideal) .f32 0x00000000#32)
      = if (0 : EReal) < deg then Ideal.div 1 (Ideal.sqrt deg) else 0 := by
  rw [Ideal.ofBits_def, Ideal.ofBits_def, Ideal.ofBits_zero_f32, Ideal.ofBits_one_f32, Ideal.hostDivf_def,
    Ideal.hostUnary_sqrt_def, Ideal.cmpf_def]
  by_cases h : (0 : EReal) < deg
  · rw [if_pos h]
    have : Ideal.cmp .ogt deg 0 = 1#1 := by simp [Ideal.cmp, h]
    rw [this, select_one]
  · rw [if_neg h]
    have : Ideal.cmp .ogt deg 0 = 0#1 := by simp [Ideal.cmp, h]
    rw [this, select_zero]

/-- The reference's normalizer at a node is `1 / sqrt deg` where the degree `deg` is positive and `0` elsewhere:
    each stage read at the index, the scalar constants read through their broadcasts. -/
theorem v18_eq (x1 : (⟨S2x1600000, .i32⟩ : BufTy).Contents (Elt Ideal)) (x2 : (⟨S1600000, .f32⟩ : BufTy).Contents (Elt Ideal))
    (i : S100000.Idx) :
    val_main_v18 (F := Ideal) x1 x2 i
      = if (0 : EReal) < val_main_v12 (F := Ideal) x1 x2 i
          then Ideal.div 1 (Ideal.sqrt (val_main_v12 (F := Ideal) x1 x2 i)) else 0 := by
  rw [val_main_v18_apply, val_main_v14_apply, val_main_v17_apply, val_main_v15_apply, val_main_v13_apply,
    val_main_v16_apply, val_main_call0_v1_apply, val_main_call0_v0_apply, val_main_cst_1_apply, val_main_cst_2_apply,
    val_main_cst_3_apply]
  exact select_core _

/-- The normalizer at a node is a nonnegative real. -/
theorem v18_real (x1 : (⟨S2x1600000, .i32⟩ : BufTy).Contents (Elt Ideal)) (x2 : (⟨S1600000, .f32⟩ : BufTy).Contents (Elt Ideal))
    (i : S100000.Idx) : ∃ d : ℝ, 0 ≤ d ∧ val_main_v18 (F := Ideal) x1 x2 i = ((d : ℝ) : EReal) := by
  obtain ⟨d, hd, e⟩ := dinv_real (val_main_v12 (F := Ideal) x1 x2 i)
  exact ⟨d, hd, (v18_eq x1 x2 i).trans e⟩

/-- The self-loop coefficient, the normalizer's square, is a nonnegative real. -/
theorem selfnorm_real (x1 : (⟨Cert.ReferenceIdeal.S2x1600000, .i32⟩ : BufTy).Contents (Elt Ideal))
    (x2 : (⟨Cert.ReferenceIdeal.S1600000, .f32⟩ : BufTy).Contents (Elt Ideal)) (i : Cert.ReferenceIdeal.S100000.Idx) :
    ∃ s : ℝ, 0 ≤ s ∧ Cert.ReferenceIdeal.Read.val_main_v35 (F := Ideal) x1 x2 i = ((s : ℝ) : EReal) := by
  obtain ⟨d, hd, e⟩ := v18_real x1 x2 i
  refine ⟨d * d, mul_nonneg hd hd, ?_⟩
  rw [val_main_v35_apply, e, Ideal.mulf_def, EReal.coe_mul]

end Cert.SelfNorm

end
-- ==== Proof.Bridge.lean ====
/-
  The kernel's result is the reference's, at the same arguments.

  The kernel's program is the reference's host program with each layer's dense part replaced by two tiled kernels. Its
  buffer contents are followed segment by segment: a stretch of host operations computes each of its results from what
  the stretch finds; a kernel leaves its output arrays at the entrywise formulas of the arrays it finds and nothing else
  changed. The edge index vectors, the edge normalisation and the self-loop coefficients are computed once, before the
  first kernel, by the reference's own operations. Layer by layer: the first projection IS the host's product; hence
  the gather, scaling and scatter-add of it IS the reference's aggregated messages; the second projection is the
  pre-scaled input times the weights plus the bias; and the normalised sum of the two is the reference's layer output
  by the law of the two spellings (the self-loop coefficients are nonnegative reals, the variances are ≥ 0). After the
  third layer both programs pool, project and add in the same operations.
-/
import proofs.«147466_j88089779241259_1_alg».proof.Proof.Gen.KernelIdeal.Frame
import proofs.«147466_j88089779241259_1_alg».proof.Proof.Gen.ReferenceIdeal.Read
import proofs.«147466_j88089779241259_1_alg».proof.Proof.LayerSpec
import proofs.«147466_j88089779241259_1_alg».proof.Proof.Proj0
import proofs.«147466_j88089779241259_1_alg».proof.Proof.Proj2
import proofs.«147466_j88089779241259_1_alg».proof.Proof.Proj4
import proofs.«147466_j88089779241259_1_alg».proof.Proof.Norm1
import proofs.«147466_j88089779241259_1_alg».proof.Proof.Norm3
import proofs.«147466_j88089779241259_1_alg».proof.Proof.Norm5
import proofs.«147466_j88089779241259_1_alg».proof.Proof.SelfNorm
import proofs.«147466_j88089779241259_1_alg».proof.Proof.PreDomain
import Idealize.ShloMosaic.Lib.StableHlo.Run

set_option maxRecDepth 100000
set_option maxHeartbeats 4000000

noncomputable section

namespace Cert.Bridge

open Cert.KernelIdeal Cert.KernelIdeal.Gen Idealize.ShloMosaic Idealize.ShloMosaic.ValueIdx Idealize.ShloMosaic.TcCoe Idealize.SL.Sem
open Idealize.ShloMosaic.StableHlo Cert.LayerSpec

/-- Follow a buffer back through the segments to the launch memory: a host operation's result at its own buffer is its
    function of its operands, at any other buffer what was there; a kernel changes only its own arrays. -/
macro "walk" : tactic =>
  `(tactic| simp (disch := decide) only [W1, W2, W3, W5, W7, W9, W11, W13, W15, W16, W17, V3, V5, V7, V9, V11, V13, W4_of_ne, W6_of_ne, W8_of_ne, W10_of_ne, W12_of_ne, W14_of_ne, hostOps0, hostOps0_1, hostOps0_2, hostOps1, hostOps2, hostOps3, hostOps4, hostOps5, hostOps6, hostOps6_1, hostOps6_2, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne'])

/-- The same, stopping at the contents the first kernel is entered with. -/
macro "walk3" : tactic =>
  `(tactic| simp (disch := decide) only [W5, W7, W9, W11, W13, W15, W16, W17, V5, V7, V9, V11, V13, W4_of_ne, W6_of_ne, W8_of_ne, W10_of_ne, W12_of_ne, W14_of_ne, hostOps1, hostOps2, hostOps3, hostOps4, hostOps5, hostOps6, hostOps6_1, hostOps6_2, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne'])

variable (m : (ℓ : Loc nD τ sig) → Buf (Elt Ideal) ℓ) (ρ : Dev nD → PrngReg) (c : Dev nD)

/-! ## A called function's typed references

A called function's operations move contents between a value's tensor type and its buffer's type along an equation that
holds by computation; at each literal buffer the move is the identity. -/

theorem to_cst_3 (x : (⟨S_, .f32⟩ : BufTy).Contents (Elt Ideal)) :
    (TRef.of (sig := sig) (T := ⟨S_, .f32⟩) main_cst_3).toBuf x = x := rfl
theorem of_cst_3 (x : (⟨S_, .f32⟩ : BufTy).Contents (Elt Ideal)) :
    (TRef.of (sig := sig) (T := ⟨S_, .f32⟩) main_cst_3).ofBuf x = x := rfl
theorem to_call0_v0 (x : (⟨S_, .f32⟩ : BufTy).Contents (Elt Ideal)) :
    (TRef.of (sig := sig) (T := ⟨S_, .f32⟩) main_call0_v0).toBuf x = x := rfl
theorem of_call0_v0 (x : (⟨S_, .f32⟩ : BufTy).Contents (Elt Ideal)) :
    (TRef.of (sig := sig) (T := ⟨S_, .f32⟩) main_call0_v0).ofBuf x = x := rfl
theorem to_call0_v1 (x : (⟨S100000, .f32⟩ : BufTy).Contents (Elt Ideal)) :
    (TRef.of (sig := sig) (T := ⟨S100000, .f32⟩) main_call0_v1).toBuf x = x := rfl
theorem of_call0_v1 (x : (⟨S100000, .f32⟩ : BufTy).Contents (Elt Ideal)) :
    (TRef.of (sig := sig) (T := ⟨S100000, .f32⟩) main_call0_v1).ofBuf x = x := rfl
theorem to_v14 (x : (⟨S100000, .i1⟩ : BufTy).Contents (Elt Ideal)) :
    (TRef.of (sig := sig) (T := ⟨S100000, .i1⟩) main_v14).toBuf x = x := rfl
theorem of_v14 (x : (⟨S100000, .i1⟩ : BufTy).Contents (Elt Ideal)) :
    (TRef.of (sig := sig) (T := ⟨S100000, .i1⟩) main_v14).ofBuf x = x := rfl
theorem to_v17 (x : (⟨S100000, .f32⟩ : BufTy).Contents (Elt Ideal)) :
    (TRef.of (sig := sig) (T := ⟨S100000, .f32⟩) main_v17).toBuf x = x := rfl
theorem of_v17 (x : (⟨S100000, .f32⟩ : BufTy).Contents (Elt Ideal)) :
    (TRef.of (sig := sig) (T := ⟨S100000, .f32⟩) main_v17).ofBuf x = x := rfl
theorem to_v18 (x : (⟨S100000, .f32⟩ : BufTy).Contents (Elt Ideal)) :
    (TRef.of (sig := sig) (T := ⟨S100000, .f32⟩) main_v18).toBuf x = x := rfl
theorem of_v18 (x : (⟨S100000, .f32⟩ : BufTy).Contents (Elt Ideal)) :
    (TRef.of (sig := sig) (T := ⟨S100000, .f32⟩) main_v18).ofBuf x = x := rfl
theorem to_call1_cst (x : (⟨S_, .f32⟩ : BufTy).Contents (Elt Ideal)) :
    (TRef.of (sig := sig) (T := ⟨S_, .f32⟩) main_call1_cst).toBuf x = x := rfl
theorem of_call1_cst (x : (⟨S_, .f32⟩ : BufTy).Contents (Elt Ideal)) :
    (TRef.of (sig := sig) (T := ⟨S_, .f32⟩) main_call1_cst).ofBuf x = x := rfl
theorem to_call1_v0 (x : (⟨S64x64, .f32⟩ : BufTy).Contents (Elt Ideal)) :
    (TRef.of (sig := sig) (T := ⟨S64x64, .f32⟩) main_call1_v0).toBuf x = x := rfl
theorem of_call1_v0 (x : (⟨S64x64, .f32⟩ : BufTy).Contents (Elt Ideal)) :
    (TRef.of (sig := sig) (T := ⟨S64x64, .f32⟩) main_call1_v0).ofBuf x = x := rfl
theorem to_v120 (x : (⟨S64x64, .f32⟩ : BufTy).Contents (Elt Ideal)) :
    (TRef.of (sig := sig) (T := ⟨S64x64, .f32⟩) main_v120).toBuf x = x := rfl
theorem of_v120 (x : (⟨S64x64, .f32⟩ : BufTy).Contents (Elt Ideal)) :
    (TRef.of (sig := sig) (T := ⟨S64x64, .f32⟩) main_v120).ofBuf x = x := rfl
theorem to_v121 (x : (⟨S64x64, .f32⟩ : BufTy).Contents (Elt Ideal)) :
    (TRef.of (sig := sig) (T := ⟨S64x64, .f32⟩) main_v121).toBuf x = x := rfl
theorem of_v121 (x : (⟨S64x64, .f32⟩ : BufTy).Contents (Elt Ideal)) :
    (TRef.of (sig := sig) (T := ⟨S64x64, .f32⟩) main_v121).ofBuf x = x := rfl

/-! ## What the first kernel finds -/

theorem base_arg0 : W3 m ρ c (Proc.devRef .tc main_arg0) = (m ((c : Thread nD τ).loc main_arg0)) := by
  walk <;> rfl
theorem base_arg1 : W3 m ρ c (Proc.devRef .tc main_arg1) = (m ((c : Thread nD τ).loc main_arg1)) := by
  walk <;> rfl
theorem base_arg2 : W3 m ρ c (Proc.devRef .tc main_arg2) = (m ((c : Thread nD τ).loc main_arg2)) := by
  walk <;> rfl
theorem base_arg3 : W3 m ρ c (Proc.devRef .tc main_arg3) = (m ((c : Thread nD τ).loc main_arg3)) := by
  walk <;> rfl
theorem base_arg4 : W3 m ρ c (Proc.devRef .tc main_arg4) = (m ((c : Thread nD τ).loc main_arg4)) := by
  walk <;> rfl
theorem base_arg5 : W3 m ρ c (Proc.devRef .tc main_arg5) = (m ((c : Thread nD τ).loc main_arg5)) := by
  walk <;> rfl
theorem base_arg6 : W3 m ρ c (Proc.devRef .tc main_arg6) = (m ((c : Thread nD τ).loc main_arg6)) := by
  walk <;> rfl
theorem base_arg7 : W3 m ρ c (Proc.devRef .tc main_arg7) = (m ((c : Thread nD τ).loc main_arg7)) := by
  walk <;> rfl
theorem base_arg8 : W3 m ρ c (Proc.devRef .tc main_arg8) = (m ((c : Thread nD τ).loc main_arg8)) := by
  walk <;> rfl
theorem base_arg9 : W3 m ρ c (Proc.devRef .tc main_arg9) = (m ((c : Thread nD τ).loc main_arg9)) := by
  walk <;> rfl
theorem base_arg10 : W3 m ρ c (Proc.devRef .tc main_arg10) = (m ((c : Thread nD τ).loc main_arg10)) := by
  walk <;> rfl
theorem base_arg11 : W3 m ρ c (Proc.devRef .tc main_arg11) = (m ((c : Thread nD τ).loc main_arg11)) := by
  walk <;> rfl
theorem base_arg12 : W3 m ρ c (Proc.devRef .tc main_arg12) = (m ((c : Thread nD τ).loc main_arg12)) := by
  walk <;> rfl
theorem base_arg13 : W3 m ρ c (Proc.devRef .tc main_arg13) = (m ((c : Thread nD τ).loc main_arg13)) := by
  walk <;> rfl
theorem base_arg14 : W3 m ρ c (Proc.devRef .tc main_arg14) = (m ((c : Thread nD τ).loc main_arg14)) := by
  walk <;> rfl
theorem base_arg15 : W3 m ρ c (Proc.devRef .tc main_arg15) = (m ((c : Thread nD τ).loc main_arg15)) := by
  walk <;> rfl
theorem base_arg16 : W3 m ρ c (Proc.devRef .tc main_arg16) = (m ((c : Thread nD τ).loc main_arg16)) := by
  walk <;> rfl
theorem base_arg17 : W3 m ρ c (Proc.devRef .tc main_arg17) = (m ((c : Thread nD τ).loc main_arg17)) := by
  walk <;> rfl
theorem base_arg18 : W3 m ρ c (Proc.devRef .tc main_arg18) = (m ((c : Thread nD τ).loc main_arg18)) := by
  walk <;> rfl
theorem base_arg19 : W3 m ρ c (Proc.devRef .tc main_arg19) = (m ((c : Thread nD τ).loc main_arg19)) := by
  walk <;> rfl
theorem base_arg20 : W3 m ρ c (Proc.devRef .tc main_arg20) = (m ((c : Thread nD τ).loc main_arg20)) := by
  walk <;> rfl
theorem base_arg21 : W3 m ρ c (Proc.devRef .tc main_arg21) = (m ((c : Thread nD τ).loc main_arg21)) := by
  walk <;> rfl
theorem base_arg22 : W3 m ρ c (Proc.devRef .tc main_arg22) = (m ((c : Thread nD τ).loc main_arg22)) := by
  walk <;> rfl
theorem base_arg23 : W3 m ρ c (Proc.devRef .tc main_arg23) = (m ((c : Thread nD τ).loc main_arg23)) := by
  walk <;> rfl
theorem base_arg24 : W3 m ρ c (Proc.devRef .tc main_arg24) = (m ((c : Thread nD τ).loc main_arg24)) := by
  walk <;> rfl
theorem base_arg25 : W3 m ρ c (Proc.devRef .tc main_arg25) = (m ((c : Thread nD τ).loc main_arg25)) := by
  walk <;> rfl

/-- The edge sources, the edge targets, the edge normalisation and the self-loop coefficients are the reference's. -/
theorem base_v1 : W3 m ρ c (Proc.devRef .tc main_v1) = Cert.ReferenceIdeal.Read.val_main_v1 (F := Ideal) (m ((c : Thread nD τ).loc main_arg1)) := by
  walk <;> rfl
theorem base_v3 : W3 m ρ c (Proc.devRef .tc main_v3) = Cert.ReferenceIdeal.Read.val_main_v3 (F := Ideal) (m ((c : Thread nD τ).loc main_arg1)) := by
  walk <;> rfl
theorem base_v35 : W3 m ρ c (Proc.devRef .tc main_v35) = Cert.ReferenceIdeal.Read.val_main_v35 (F := Ideal) (m ((c : Thread nD τ).loc main_arg1)) (m ((c : Thread nD τ).loc main_arg2)) := by
  walk
  rw [to_v18, of_v14, of_v17, of_call0_v1, to_call0_v1, of_call0_v0, to_call0_v0, of_cst_3]
  rfl
theorem base_v34 : W3 m ρ c (Proc.devRef .tc main_v34) = Cert.ReferenceIdeal.Read.val_main_v34 (F := Ideal) (m ((c : Thread nD τ).loc main_arg1)) (m ((c : Thread nD τ).loc main_arg2)) := by
  walk
  rw [to_v18, of_v14, of_v17, of_call0_v1, to_call0_v1, of_call0_v0, to_call0_v0, of_cst_3]
  rfl

/-- The node features pre-scaled by the self-loop coefficients, and the first bias as a row. -/
theorem base_v38 : (W3 m ρ c (Proc.devRef .tc main_v38) : (⟨2, ![100000, 64]⟩ : Shape).Idx → EReal) = (mulf (F := Ideal) (φ := .f32) (m ((c : Thread nD τ).loc main_arg0)) (broadcastInDim S100000x64 ![0, 1] bcast_S100000x1_S100000x64_0_1 (broadcastInDim S100000x1 ![0] bcast_S100000_S100000x1_0 (Cert.ReferenceIdeal.Read.val_main_v35 (F := Ideal) (m ((c : Thread nD τ).loc main_arg1)) (m ((c : Thread nD τ).loc main_arg2)))))) := by
  walk
  rw [to_v18, of_v14, of_v17, of_call0_v1, to_call0_v1, of_call0_v0, to_call0_v0, of_cst_3]
  rfl
theorem base_v39 : (W3 m ρ c (Proc.devRef .tc main_v39) : (⟨2, ![1, 32]⟩ : Shape).Idx → EReal) = (shapeCast S1x32 (m ((c : Thread nD τ).loc main_arg5)) shapeCasts_S32_S1x32) := by
  walk <;> rfl

/-! ## What is kept across the kernels

A kernel changes only its own arrays and a stretch of host operations only its own results: the edge vectors, the
self-loop coefficients and the arguments read later are still what they were. -/

/-! ### Kept across kernel 1 and the stretch before it (level 4) -/
theorem carry4_v1 : W4 m ρ c (Proc.devRef .tc main_v1) = Cert.ReferenceIdeal.Read.val_main_v1 (F := Ideal) (m ((c : Thread nD τ).loc main_arg1)) :=
  (W4_of_ne m ρ c main_v1 (by decide)).trans (base_v1 m ρ c)
theorem carry4_v3 : W4 m ρ c (Proc.devRef .tc main_v3) = Cert.ReferenceIdeal.Read.val_main_v3 (F := Ideal) (m ((c : Thread nD τ).loc main_arg1)) :=
  (W4_of_ne m ρ c main_v3 (by decide)).trans (base_v3 m ρ c)
theorem carry4_v34 : W4 m ρ c (Proc.devRef .tc main_v34) = Cert.ReferenceIdeal.Read.val_main_v34 (F := Ideal) (m ((c : Thread nD τ).loc main_arg1)) (m ((c : Thread nD τ).loc main_arg2)) :=
  (W4_of_ne m ρ c main_v34 (by decide)).trans (base_v34 m ρ c)
theorem carry4_v35 : W4 m ρ c (Proc.devRef .tc main_v35) = Cert.ReferenceIdeal.Read.val_main_v35 (F := Ideal) (m ((c : Thread nD τ).loc main_arg1)) (m ((c : Thread nD τ).loc main_arg2)) :=
  (W4_of_ne m ρ c main_v35 (by decide)).trans (base_v35 m ρ c)
theorem carry4_arg6 : W4 m ρ c (Proc.devRef .tc main_arg6) = (m ((c : Thread nD τ).loc main_arg6)) :=
  (W4_of_ne m ρ c main_arg6 (by decide)).trans (base_arg6 m ρ c)
theorem carry4_arg7 : W4 m ρ c (Proc.devRef .tc main_arg7) = (m ((c : Thread nD τ).loc main_arg7)) :=
  (W4_of_ne m ρ c main_arg7 (by decide)).trans (base_arg7 m ρ c)
theorem carry4_arg8 : W4 m ρ c (Proc.devRef .tc main_arg8) = (m ((c : Thread nD τ).loc main_arg8)) :=
  (W4_of_ne m ρ c main_arg8 (by decide)).trans (base_arg8 m ρ c)
theorem carry4_arg9 : W4 m ρ c (Proc.devRef .tc main_arg9) = (m ((c : Thread nD τ).loc main_arg9)) :=
  (W4_of_ne m ρ c main_arg9 (by decide)).trans (base_arg9 m ρ c)
theorem carry4_arg10 : W4 m ρ c (Proc.devRef .tc main_arg10) = (m ((c : Thread nD τ).loc main_arg10)) :=
  (W4_of_ne m ρ c main_arg10 (by decide)).trans (base_arg10 m ρ c)
theorem carry4_arg11 : W4 m ρ c (Proc.devRef .tc main_arg11) = (m ((c : Thread nD τ).loc main_arg11)) :=
  (W4_of_ne m ρ c main_arg11 (by decide)).trans (base_arg11 m ρ c)
theorem carry4_arg12 : W4 m ρ c (Proc.devRef .tc main_arg12) = (m ((c : Thread nD τ).loc main_arg12)) :=
  (W4_of_ne m ρ c main_arg12 (by decide)).trans (base_arg12 m ρ c)
theorem carry4_arg13 : W4 m ρ c (Proc.devRef .tc main_arg13) = (m ((c : Thread nD τ).loc main_arg13)) :=
  (W4_of_ne m ρ c main_arg13 (by decide)).trans (base_arg13 m ρ c)
theorem carry4_arg14 : W4 m ρ c (Proc.devRef .tc main_arg14) = (m ((c : Thread nD τ).loc main_arg14)) :=
  (W4_of_ne m ρ c main_arg14 (by decide)).trans (base_arg14 m ρ c)
theorem carry4_arg15 : W4 m ρ c (Proc.devRef .tc main_arg15) = (m ((c : Thread nD τ).loc main_arg15)) :=
  (W4_of_ne m ρ c main_arg15 (by decide)).trans (base_arg15 m ρ c)
theorem carry4_arg16 : W4 m ρ c (Proc.devRef .tc main_arg16) = (m ((c : Thread nD τ).loc main_arg16)) :=
  (W4_of_ne m ρ c main_arg16 (by decide)).trans (base_arg16 m ρ c)
theorem carry4_arg17 : W4 m ρ c (Proc.devRef .tc main_arg17) = (m ((c : Thread nD τ).loc main_arg17)) :=
  (W4_of_ne m ρ c main_arg17 (by decide)).trans (base_arg17 m ρ c)
theorem carry4_arg18 : W4 m ρ c (Proc.devRef .tc main_arg18) = (m ((c : Thread nD τ).loc main_arg18)) :=
  (W4_of_ne m ρ c main_arg18 (by decide)).trans (base_arg18 m ρ c)
theorem carry4_arg19 : W4 m ρ c (Proc.devRef .tc main_arg19) = (m ((c : Thread nD τ).loc main_arg19)) :=
  (W4_of_ne m ρ c main_arg19 (by decide)).trans (base_arg19 m ρ c)
theorem carry4_arg20 : W4 m ρ c (Proc.devRef .tc main_arg20) = (m ((c : Thread nD τ).loc main_arg20)) :=
  (W4_of_ne m ρ c main_arg20 (by decide)).trans (base_arg20 m ρ c)
theorem carry4_arg21 : W4 m ρ c (Proc.devRef .tc main_arg21) = (m ((c : Thread nD τ).loc main_arg21)) :=
  (W4_of_ne m ρ c main_arg21 (by decide)).trans (base_arg21 m ρ c)
theorem carry4_arg3 : W4 m ρ c (Proc.devRef .tc main_arg3) = (m ((c : Thread nD τ).loc main_arg3)) :=
  (W4_of_ne m ρ c main_arg3 (by decide)).trans (base_arg3 m ρ c)
theorem carry4_arg22 : W4 m ρ c (Proc.devRef .tc main_arg22) = (m ((c : Thread nD τ).loc main_arg22)) :=
  (W4_of_ne m ρ c main_arg22 (by decide)).trans (base_arg22 m ρ c)
theorem carry4_arg23 : W4 m ρ c (Proc.devRef .tc main_arg23) = (m ((c : Thread nD τ).loc main_arg23)) :=
  (W4_of_ne m ρ c main_arg23 (by decide)).trans (base_arg23 m ρ c)
theorem carry4_arg24 : W4 m ρ c (Proc.devRef .tc main_arg24) = (m ((c : Thread nD τ).loc main_arg24)) :=
  (W4_of_ne m ρ c main_arg24 (by decide)).trans (base_arg24 m ρ c)
theorem carry4_arg25 : W4 m ρ c (Proc.devRef .tc main_arg25) = (m ((c : Thread nD τ).loc main_arg25)) :=
  (W4_of_ne m ρ c main_arg25 (by decide)).trans (base_arg25 m ρ c)

/-! ### Kept across kernel 2 and the stretch before it (level 6) -/
theorem carry6_v1 : W6 m ρ c (Proc.devRef .tc main_v1) = Cert.ReferenceIdeal.Read.val_main_v1 (F := Ideal) (m ((c : Thread nD τ).loc main_arg1)) := by
  rw [W6_of_ne m ρ c main_v1 (by decide)]
  walk3
  exact carry4_v1 m ρ c
theorem carry6_v3 : W6 m ρ c (Proc.devRef .tc main_v3) = Cert.ReferenceIdeal.Read.val_main_v3 (F := Ideal) (m ((c : Thread nD τ).loc main_arg1)) := by
  rw [W6_of_ne m ρ c main_v3 (by decide)]
  walk3
  exact carry4_v3 m ρ c
theorem carry6_v34 : W6 m ρ c (Proc.devRef .tc main_v34) = Cert.ReferenceIdeal.Read.val_main_v34 (F := Ideal) (m ((c : Thread nD τ).loc main_arg1)) (m ((c : Thread nD τ).loc main_arg2)) := by
  rw [W6_of_ne m ρ c main_v34 (by decide)]
  walk3
  exact carry4_v34 m ρ c
theorem carry6_v35 : W6 m ρ c (Proc.devRef .tc main_v35) = Cert.ReferenceIdeal.Read.val_main_v35 (F := Ideal) (m ((c : Thread nD τ).loc main_arg1)) (m ((c : Thread nD τ).loc main_arg2)) := by
  rw [W6_of_ne m ρ c main_v35 (by decide)]
  walk3
  exact carry4_v35 m ρ c
theorem carry6_arg10 : W6 m ρ c (Proc.devRef .tc main_arg10) = (m ((c : Thread nD τ).loc main_arg10)) := by
  rw [W6_of_ne m ρ c main_arg10 (by decide)]
  walk3
  exact carry4_arg10 m ρ c
theorem carry6_arg11 : W6 m ρ c (Proc.devRef .tc main_arg11) = (m ((c : Thread nD τ).loc main_arg11)) := by
  rw [W6_of_ne m ρ c main_arg11 (by decide)]
  walk3
  exact carry4_arg11 m ρ c
theorem carry6_arg12 : W6 m ρ c (Proc.devRef .tc main_arg12) = (m ((c : Thread nD τ).loc main_arg12)) := by
  rw [W6_of_ne m ρ c main_arg12 (by decide)]
  walk3
  exact carry4_arg12 m ρ c
theorem carry6_arg13 : W6 m ρ c (Proc.devRef .tc main_arg13) = (m ((c : Thread nD τ).loc main_arg13)) := by
  rw [W6_of_ne m ρ c main_arg13 (by decide)]
  walk3
  exact carry4_arg13 m ρ c
theorem carry6_arg14 : W6 m ρ c (Proc.devRef .tc main_arg14) = (m ((c : Thread nD τ).loc main_arg14)) := by
  rw [W6_of_ne m ρ c main_arg14 (by decide)]
  walk3
  exact carry4_arg14 m ρ c
theorem carry6_arg15 : W6 m ρ c (Proc.devRef .tc main_arg15) = (m ((c : Thread nD τ).loc main_arg15)) := by
  rw [W6_of_ne m ρ c main_arg15 (by decide)]
  walk3
  exact carry4_arg15 m ρ c
theorem carry6_arg16 : W6 m ρ c (Proc.devRef .tc main_arg16) = (m ((c : Thread nD τ).loc main_arg16)) := by
  rw [W6_of_ne m ρ c main_arg16 (by decide)]
  walk3
  exact carry4_arg16 m ρ c
theorem carry6_arg17 : W6 m ρ c (Proc.devRef .tc main_arg17) = (m ((c : Thread nD τ).loc main_arg17)) := by
  rw [W6_of_ne m ρ c main_arg17 (by decide)]
  walk3
  exact carry4_arg17 m ρ c
theorem carry6_arg18 : W6 m ρ c (Proc.devRef .tc main_arg18) = (m ((c : Thread nD τ).loc main_arg18)) := by
  rw [W6_of_ne m ρ c main_arg18 (by decide)]
  walk3
  exact carry4_arg18 m ρ c
theorem carry6_arg19 : W6 m ρ c (Proc.devRef .tc main_arg19) = (m ((c : Thread nD τ).loc main_arg19)) := by
  rw [W6_of_ne m ρ c main_arg19 (by decide)]
  walk3
  exact carry4_arg19 m ρ c
theorem carry6_arg20 : W6 m ρ c (Proc.devRef .tc main_arg20) = (m ((c : Thread nD τ).loc main_arg20)) := by
  rw [W6_of_ne m ρ c main_arg20 (by decide)]
  walk3
  exact carry4_arg20 m ρ c
theorem carry6_arg21 : W6 m ρ c (Proc.devRef .tc main_arg21) = (m ((c : Thread nD τ).loc main_arg21)) := by
  rw [W6_of_ne m ρ c main_arg21 (by decide)]
  walk3
  exact carry4_arg21 m ρ c
theorem carry6_arg3 : W6 m ρ c (Proc.devRef .tc main_arg3) = (m ((c : Thread nD τ).loc main_arg3)) := by
  rw [W6_of_ne m ρ c main_arg3 (by decide)]
  walk3
  exact carry4_arg3 m ρ c
theorem carry6_arg22 : W6 m ρ c (Proc.devRef .tc main_arg22) = (m ((c : Thread nD τ).loc main_arg22)) := by
  rw [W6_of_ne m ρ c main_arg22 (by decide)]
  walk3
  exact carry4_arg22 m ρ c
theorem carry6_arg23 : W6 m ρ c (Proc.devRef .tc main_arg23) = (m ((c : Thread nD τ).loc main_arg23)) := by
  rw [W6_of_ne m ρ c main_arg23 (by decide)]
  walk3
  exact carry4_arg23 m ρ c
theorem carry6_arg24 : W6 m ρ c (Proc.devRef .tc main_arg24) = (m ((c : Thread nD τ).loc main_arg24)) := by
  rw [W6_of_ne m ρ c main_arg24 (by decide)]
  walk3
  exact carry4_arg24 m ρ c
theorem carry6_arg25 : W6 m ρ c (Proc.devRef .tc main_arg25) = (m ((c : Thread nD τ).loc main_arg25)) := by
  rw [W6_of_ne m ρ c main_arg25 (by decide)]
  walk3
  exact carry4_arg25 m ρ c

/-! ### Kept across kernel 3 and the stretch before it (level 8) -/
theorem carry8_v1 : W8 m ρ c (Proc.devRef .tc main_v1) = Cert.ReferenceIdeal.Read.val_main_v1 (F := Ideal) (m ((c : Thread nD τ).loc main_arg1)) := by
  rw [W8_of_ne m ρ c main_v1 (by decide)]
  walk3
  exact carry6_v1 m ρ c
theorem carry8_v3 : W8 m ρ c (Proc.devRef .tc main_v3) = Cert.ReferenceIdeal.Read.val_main_v3 (F := Ideal) (m ((c : Thread nD τ).loc main_arg1)) := by
  rw [W8_of_ne m ρ c main_v3 (by decide)]
  walk3
  exact carry6_v3 m ρ c
theorem carry8_v34 : W8 m ρ c (Proc.devRef .tc main_v34) = Cert.ReferenceIdeal.Read.val_main_v34 (F := Ideal) (m ((c : Thread nD τ).loc main_arg1)) (m ((c : Thread nD τ).loc main_arg2)) := by
  rw [W8_of_ne m ρ c main_v34 (by decide)]
  walk3
  exact carry6_v34 m ρ c
theorem carry8_v35 : W8 m ρ c (Proc.devRef .tc main_v35) = Cert.ReferenceIdeal.Read.val_main_v35 (F := Ideal) (m ((c : Thread nD τ).loc main_arg1)) (m ((c : Thread nD τ).loc main_arg2)) := by
  rw [W8_of_ne m ρ c main_v35 (by decide)]
  walk3
  exact carry6_v35 m ρ c
theorem carry8_arg12 : W8 m ρ c (Proc.devRef .tc main_arg12) = (m ((c : Thread nD τ).loc main_arg12)) := by
  rw [W8_of_ne m ρ c main_arg12 (by decide)]
  walk3
  exact carry6_arg12 m ρ c
theorem carry8_arg13 : W8 m ρ c (Proc.devRef .tc main_arg13) = (m ((c : Thread nD τ).loc main_arg13)) := by
  rw [W8_of_ne m ρ c main_arg13 (by decide)]
  walk3
  exact carry6_arg13 m ρ c
theorem carry8_arg14 : W8 m ρ c (Proc.devRef .tc main_arg14) = (m ((c : Thread nD τ).loc main_arg14)) := by
  rw [W8_of_ne m ρ c main_arg14 (by decide)]
  walk3
  exact carry6_arg14 m ρ c
theorem carry8_arg15 : W8 m ρ c (Proc.devRef .tc main_arg15) = (m ((c : Thread nD τ).loc main_arg15)) := by
  rw [W8_of_ne m ρ c main_arg15 (by decide)]
  walk3
  exact carry6_arg15 m ρ c
theorem carry8_arg16 : W8 m ρ c (Proc.devRef .tc main_arg16) = (m ((c : Thread nD τ).loc main_arg16)) := by
  rw [W8_of_ne m ρ c main_arg16 (by decide)]
  walk3
  exact carry6_arg16 m ρ c
theorem carry8_arg17 : W8 m ρ c (Proc.devRef .tc main_arg17) = (m ((c : Thread nD τ).loc main_arg17)) := by
  rw [W8_of_ne m ρ c main_arg17 (by decide)]
  walk3
  exact carry6_arg17 m ρ c
theorem carry8_arg18 : W8 m ρ c (Proc.devRef .tc main_arg18) = (m ((c : Thread nD τ).loc main_arg18)) := by
  rw [W8_of_ne m ρ c main_arg18 (by decide)]
  walk3
  exact carry6_arg18 m ρ c
theorem carry8_arg19 : W8 m ρ c (Proc.devRef .tc main_arg19) = (m ((c : Thread nD τ).loc main_arg19)) := by
  rw [W8_of_ne m ρ c main_arg19 (by decide)]
  walk3
  exact carry6_arg19 m ρ c
theorem carry8_arg20 : W8 m ρ c (Proc.devRef .tc main_arg20) = (m ((c : Thread nD τ).loc main_arg20)) := by
  rw [W8_of_ne m ρ c main_arg20 (by decide)]
  walk3
  exact carry6_arg20 m ρ c
theorem carry8_arg21 : W8 m ρ c (Proc.devRef .tc main_arg21) = (m ((c : Thread nD τ).loc main_arg21)) := by
  rw [W8_of_ne m ρ c main_arg21 (by decide)]
  walk3
  exact carry6_arg21 m ρ c
theorem carry8_arg3 : W8 m ρ c (Proc.devRef .tc main_arg3) = (m ((c : Thread nD τ).loc main_arg3)) := by
  rw [W8_of_ne m ρ c main_arg3 (by decide)]
  walk3
  exact carry6_arg3 m ρ c
theorem carry8_arg22 : W8 m ρ c (Proc.devRef .tc main_arg22) = (m ((c : Thread nD τ).loc main_arg22)) := by
  rw [W8_of_ne m ρ c main_arg22 (by decide)]
  walk3
  exact carry6_arg22 m ρ c
theorem carry8_arg23 : W8 m ρ c (Proc.devRef .tc main_arg23) = (m ((c : Thread nD τ).loc main_arg23)) := by
  rw [W8_of_ne m ρ c main_arg23 (by decide)]
  walk3
  exact carry6_arg23 m ρ c
theorem carry8_arg24 : W8 m ρ c (Proc.devRef .tc main_arg24) = (m ((c : Thread nD τ).loc main_arg24)) := by
  rw [W8_of_ne m ρ c main_arg24 (by decide)]
  walk3
  exact carry6_arg24 m ρ c
theorem carry8_arg25 : W8 m ρ c (Proc.devRef .tc main_arg25) = (m ((c : Thread nD τ).loc main_arg25)) := by
  rw [W8_of_ne m ρ c main_arg25 (by decide)]
  walk3
  exact carry6_arg25 m ρ c

/-! ### Kept across kernel 4 and the stretch before it (level 10) -/
theorem carry10_v1 : W10 m ρ c (Proc.devRef .tc main_v1) = Cert.ReferenceIdeal.Read.val_main_v1 (F := Ideal) (m ((c : Thread nD τ).loc main_arg1)) := by
  rw [W10_of_ne m ρ c main_v1 (by decide)]
  walk3
  exact carry8_v1 m ρ c
theorem carry10_v3 : W10 m ρ c (Proc.devRef .tc main_v3) = Cert.ReferenceIdeal.Read.val_main_v3 (F := Ideal) (m ((c : Thread nD τ).loc main_arg1)) := by
  rw [W10_of_ne m ρ c main_v3 (by decide)]
  walk3
  exact carry8_v3 m ρ c
theorem carry10_v34 : W10 m ρ c (Proc.devRef .tc main_v34) = Cert.ReferenceIdeal.Read.val_main_v34 (F := Ideal) (m ((c : Thread nD τ).loc main_arg1)) (m ((c : Thread nD τ).loc main_arg2)) := by
  rw [W10_of_ne m ρ c main_v34 (by decide)]
  walk3
  exact carry8_v34 m ρ c
theorem carry10_v35 : W10 m ρ c (Proc.devRef .tc main_v35) = Cert.ReferenceIdeal.Read.val_main_v35 (F := Ideal) (m ((c : Thread nD τ).loc main_arg1)) (m ((c : Thread nD τ).loc main_arg2)) := by
  rw [W10_of_ne m ρ c main_v35 (by decide)]
  walk3
  exact carry8_v35 m ρ c
theorem carry10_arg16 : W10 m ρ c (Proc.devRef .tc main_arg16) = (m ((c : Thread nD τ).loc main_arg16)) := by
  rw [W10_of_ne m ρ c main_arg16 (by decide)]
  walk3
  exact carry8_arg16 m ρ c
theorem carry10_arg17 : W10 m ρ c (Proc.devRef .tc main_arg17) = (m ((c : Thread nD τ).loc main_arg17)) := by
  rw [W10_of_ne m ρ c main_arg17 (by decide)]
  walk3
  exact carry8_arg17 m ρ c
theorem carry10_arg18 : W10 m ρ c (Proc.devRef .tc main_arg18) = (m ((c : Thread nD τ).loc main_arg18)) := by
  rw [W10_of_ne m ρ c main_arg18 (by decide)]
  walk3
  exact carry8_arg18 m ρ c
theorem carry10_arg19 : W10 m ρ c (Proc.devRef .tc main_arg19) = (m ((c : Thread nD τ).loc main_arg19)) := by
  rw [W10_of_ne m ρ c main_arg19 (by decide)]
  walk3
  exact carry8_arg19 m ρ c
theorem carry10_arg20 : W10 m ρ c (Proc.devRef .tc main_arg20) = (m ((c : Thread nD τ).loc main_arg20)) := by
  rw [W10_of_ne m ρ c main_arg20 (by decide)]
  walk3
  exact carry8_arg20 m ρ c
theorem carry10_arg21 : W10 m ρ c (Proc.devRef .tc main_arg21) = (m ((c : Thread nD τ).loc main_arg21)) := by
  rw [W10_of_ne m ρ c main_arg21 (by decide)]
  walk3
  exact carry8_arg21 m ρ c
theorem carry10_arg3 : W10 m ρ c (Proc.devRef .tc main_arg3) = (m ((c : Thread nD τ).loc main_arg3)) := by
  rw [W10_of_ne m ρ c main_arg3 (by decide)]
  walk3
  exact carry8_arg3 m ρ c
theorem carry10_arg22 : W10 m ρ c (Proc.devRef .tc main_arg22) = (m ((c : Thread nD τ).loc main_arg22)) := by
  rw [W10_of_ne m ρ c main_arg22 (by decide)]
  walk3
  exact carry8_arg22 m ρ c
theorem carry10_arg23 : W10 m ρ c (Proc.devRef .tc main_arg23) = (m ((c : Thread nD τ).loc main_arg23)) := by
  rw [W10_of_ne m ρ c main_arg23 (by decide)]
  walk3
  exact carry8_arg23 m ρ c
theorem carry10_arg24 : W10 m ρ c (Proc.devRef .tc main_arg24) = (m ((c : Thread nD τ).loc main_arg24)) := by
  rw [W10_of_ne m ρ c main_arg24 (by decide)]
  walk3
  exact carry8_arg24 m ρ c
theorem carry10_arg25 : W10 m ρ c (Proc.devRef .tc main_arg25) = (m ((c : Thread nD τ).loc main_arg25)) := by
  rw [W10_of_ne m ρ c main_arg25 (by decide)]
  walk3
  exact carry8_arg25 m ρ c

/-! ### Kept across kernel 5 and the stretch before it (level 12) -/
theorem carry12_v1 : W12 m ρ c (Proc.devRef .tc main_v1) = Cert.ReferenceIdeal.Read.val_main_v1 (F := Ideal) (m ((c : Thread nD τ).loc main_arg1)) := by
  rw [W12_of_ne m ρ c main_v1 (by decide)]
  walk3
  exact carry10_v1 m ρ c
theorem carry12_v3 : W12 m ρ c (Proc.devRef .tc main_v3) = Cert.ReferenceIdeal.Read.val_main_v3 (F := Ideal) (m ((c : Thread nD τ).loc main_arg1)) := by
  rw [W12_of_ne m ρ c main_v3 (by decide)]
  walk3
  exact carry10_v3 m ρ c
theorem carry12_v34 : W12 m ρ c (Proc.devRef .tc main_v34) = Cert.ReferenceIdeal.Read.val_main_v34 (F := Ideal) (m ((c : Thread nD τ).loc main_arg1)) (m ((c : Thread nD τ).loc main_arg2)) := by
  rw [W12_of_ne m ρ c main_v34 (by decide)]
  walk3
  exact carry10_v34 m ρ c
theorem carry12_arg18 : W12 m ρ c (Proc.devRef .tc main_arg18) = (m ((c : Thread nD τ).loc main_arg18)) := by
  rw [W12_of_ne m ρ c main_arg18 (by decide)]
  walk3
  exact carry10_arg18 m ρ c
theorem carry12_arg19 : W12 m ρ c (Proc.devRef .tc main_arg19) = (m ((c : Thread nD τ).loc main_arg19)) := by
  rw [W12_of_ne m ρ c main_arg19 (by decide)]
  walk3
  exact carry10_arg19 m ρ c
theorem carry12_arg20 : W12 m ρ c (Proc.devRef .tc main_arg20) = (m ((c : Thread nD τ).loc main_arg20)) := by
  rw [W12_of_ne m ρ c main_arg20 (by decide)]
  walk3
  exact carry10_arg20 m ρ c
theorem carry12_arg21 : W12 m ρ c (Proc.devRef .tc main_arg21) = (m ((c : Thread nD τ).loc main_arg21)) := by
  rw [W12_of_ne m ρ c main_arg21 (by decide)]
  walk3
  exact carry10_arg21 m ρ c
theorem carry12_arg3 : W12 m ρ c (Proc.devRef .tc main_arg3) = (m ((c : Thread nD τ).loc main_arg3)) := by
  rw [W12_of_ne m ρ c main_arg3 (by decide)]
  walk3
  exact carry10_arg3 m ρ c
theorem carry12_arg22 : W12 m ρ c (Proc.devRef .tc main_arg22) = (m ((c : Thread nD τ).loc main_arg22)) := by
  rw [W12_of_ne m ρ c main_arg22 (by decide)]
  walk3
  exact carry10_arg22 m ρ c
theorem carry12_arg23 : W12 m ρ c (Proc.devRef .tc main_arg23) = (m ((c : Thread nD τ).loc main_arg23)) := by
  rw [W12_of_ne m ρ c main_arg23 (by decide)]
  walk3
  exact carry10_arg23 m ρ c
theorem carry12_arg24 : W12 m ρ c (Proc.devRef .tc main_arg24) = (m ((c : Thread nD τ).loc main_arg24)) := by
  rw [W12_of_ne m ρ c main_arg24 (by decide)]
  walk3
  exact carry10_arg24 m ρ c
theorem carry12_arg25 : W12 m ρ c (Proc.devRef .tc main_arg25) = (m ((c : Thread nD τ).loc main_arg25)) := by
  rw [W12_of_ne m ρ c main_arg25 (by decide)]
  walk3
  exact carry10_arg25 m ρ c

/-! ### Kept across kernel 6 and the stretch before it (level 14) -/
theorem carry14_arg3 : W14 m ρ c (Proc.devRef .tc main_arg3) = (m ((c : Thread nD τ).loc main_arg3)) := by
  rw [W14_of_ne m ρ c main_arg3 (by decide)]
  walk3
  exact carry12_arg3 m ρ c
theorem carry14_arg22 : W14 m ρ c (Proc.devRef .tc main_arg22) = (m ((c : Thread nD τ).loc main_arg22)) := by
  rw [W14_of_ne m ρ c main_arg22 (by decide)]
  walk3
  exact carry12_arg22 m ρ c
theorem carry14_arg23 : W14 m ρ c (Proc.devRef .tc main_arg23) = (m ((c : Thread nD τ).loc main_arg23)) := by
  rw [W14_of_ne m ρ c main_arg23 (by decide)]
  walk3
  exact carry12_arg23 m ρ c
theorem carry14_arg24 : W14 m ρ c (Proc.devRef .tc main_arg24) = (m ((c : Thread nD τ).loc main_arg24)) := by
  rw [W14_of_ne m ρ c main_arg24 (by decide)]
  walk3
  exact carry12_arg24 m ρ c
theorem carry14_arg25 : W14 m ρ c (Proc.devRef .tc main_arg25) = (m ((c : Thread nD τ).loc main_arg25)) := by
  rw [W14_of_ne m ρ c main_arg25 (by decide)]
  walk3
  exact carry12_arg25 m ρ c

/-! ## Layer 1 -/

/-- The layer's first projection is the host's product of the layer's input by its weights. -/
theorem proj1  :
    (W4 m ρ c (Proc.devRef .tc main_v40_0) : (⟨2, ![100000, 32]⟩ : Shape).Idx → EReal) = (Cert.ReferenceIdeal.Read.val_main_v36 (F := Ideal) (m ((c : Thread nD τ).loc main_arg0)) (m ((c : Thread nD τ).loc main_arg4))) := by
  refine (show (W4 m ρ c (Proc.devRef .tc main_v40_0) : (⟨2, ![100000, 32]⟩ : Shape).Idx → EReal) = _ from W4_arr m ρ c 4).trans ?_
  rw [Cert.KernelIdeal.Proj0.arr4]
  have a0 : (V3 m ρ c main_arg0 : (⟨2, ![100000, 64]⟩ : Shape).Idx → EReal) = (m ((c : Thread nD τ).loc main_arg0)) := base_arg0 m ρ c
  have a2 : (V3 m ρ c main_arg4 : (⟨2, ![64, 32]⟩ : Shape).Idx → EReal) = (m ((c : Thread nD τ).loc main_arg4)) := base_arg4 m ρ c
  rw [a0, a2]
  exact prodArr_eq_dot (K := 64) (N := 32) (m ((c : Thread nD τ).loc main_arg0)) (m ((c : Thread nD τ).loc main_arg4)) Cert.ReferenceIdeal.dot_S100000x64_S64x32_S100000x32_1_0_0_1_n_n rfl rfl
    Cert.ReferenceIdeal.Read.lhs_main_v36_0 Cert.ReferenceIdeal.Read.lhs_main_v36_1 Cert.ReferenceIdeal.Read.rhs_main_v36_0 Cert.ReferenceIdeal.Read.rhs_main_v36_1

/-- The aggregated messages of the layer: the same gather, scaling and scatter-add of the same projection. -/
theorem agg1  :
    (W5 m ρ c (Proc.devRef .tc main_v53) : (⟨2, ![100000, 32]⟩ : Shape).Idx → EReal) = (Cert.ReferenceIdeal.Read.val_main_v49 (F := Ideal) (m ((c : Thread nD τ).loc main_arg0)) (m ((c : Thread nD τ).loc main_arg1)) (m ((c : Thread nD τ).loc main_arg2)) (m ((c : Thread nD τ).loc main_arg4))) := by
  walk3
  rw [proj1 m ρ c , carry4_v1 m ρ c, carry4_v3 m ρ c, carry4_v34 m ρ c]
  rfl

/-- The layer's second projection: the pre-scaled input times the weights, plus the bias row. -/
theorem self1  :
    (W4 m ρ c (Proc.devRef .tc main_v40_1) : (⟨2, ![100000, 32]⟩ : Shape).Idx → EReal)
      = prodBiasArr (K := 64) (N := 32) (mulf (F := Ideal) (φ := .f32) (m ((c : Thread nD τ).loc main_arg0)) (broadcastInDim S100000x64 ![0, 1] bcast_S100000x1_S100000x64_0_1 (broadcastInDim S100000x1 ![0] bcast_S100000_S100000x1_0 (Cert.ReferenceIdeal.Read.val_main_v35 (F := Ideal) (m ((c : Thread nD τ).loc main_arg1)) (m ((c : Thread nD τ).loc main_arg2)))))) (m ((c : Thread nD τ).loc main_arg4)) (shapeCast S1x32 (m ((c : Thread nD τ).loc main_arg5)) shapeCasts_S32_S1x32) := by
  refine (show (W4 m ρ c (Proc.devRef .tc main_v40_1) : (⟨2, ![100000, 32]⟩ : Shape).Idx → EReal) = _ from W4_arr m ρ c 5).trans ?_
  rw [Cert.KernelIdeal.Proj0.arr5]
  have a1 : (V3 m ρ c main_v38 : (⟨2, ![100000, 64]⟩ : Shape).Idx → EReal) = (mulf (F := Ideal) (φ := .f32) (m ((c : Thread nD τ).loc main_arg0)) (broadcastInDim S100000x64 ![0, 1] bcast_S100000x1_S100000x64_0_1 (broadcastInDim S100000x1 ![0] bcast_S100000_S100000x1_0 (Cert.ReferenceIdeal.Read.val_main_v35 (F := Ideal) (m ((c : Thread nD τ).loc main_arg1)) (m ((c : Thread nD τ).loc main_arg2)))))) := base_v38 m ρ c
  have a2 : (V3 m ρ c main_arg4 : (⟨2, ![64, 32]⟩ : Shape).Idx → EReal) = (m ((c : Thread nD τ).loc main_arg4)) := base_arg4 m ρ c
  have a3 : (V3 m ρ c main_v39 : (⟨2, ![1, 32]⟩ : Shape).Idx → EReal) = (shapeCast S1x32 (m ((c : Thread nD τ).loc main_arg5)) shapeCasts_S32_S1x32) := base_v39 m ρ c
  rw [a1, a2, a3]

/-- THE LAYER'S OUTPUT is the host's: the kernel's pre-scaling, inner bias and rsqrt factor against the host's scaled
    projection, outer bias and division by sqrt. -/
theorem out1 (hv1 : ∀ q : Fin 32, (0 : EReal) ≤ (m ((c : Thread nD τ).loc main_arg9)) (ix1 q)) :
    (W6 m ρ c (Proc.devRef .tc main_v58) : (⟨2, ![100000, 32]⟩ : Shape).Idx → EReal) = (Cert.ReferenceIdeal.Read.val_main_v70 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (show (W6 m ρ c (Proc.devRef .tc main_v58) : (⟨2, ![100000, 32]⟩ : Shape).Idx → EReal) = _ from W6_arr m ρ c 6).trans ?_
  rw [Cert.KernelIdeal.Norm1.arr6]
  have e0 : (V5 m ρ c main_v53 : (⟨2, ![100000, 32]⟩ : Shape).Idx → EReal) = (Cert.ReferenceIdeal.Read.val_main_v49 (F := Ideal) (m ((c : Thread nD τ).loc main_arg0)) (m ((c : Thread nD τ).loc main_arg1)) (m ((c : Thread nD τ).loc main_arg2)) (m ((c : Thread nD τ).loc main_arg4))) := agg1 m ρ c
  have e1 : (V5 m ρ c main_v40_1 : (⟨2, ![100000, 32]⟩ : Shape).Idx → EReal) = prodBiasArr (K := 64) (N := 32) (mulf (F := Ideal) (φ := .f32) (m ((c : Thread nD τ).loc main_arg0)) (broadcastInDim S100000x64 ![0, 1] bcast_S100000x1_S100000x64_0_1 (broadcastInDim S100000x1 ![0] bcast_S100000_S100000x1_0 (Cert.ReferenceIdeal.Read.val_main_v35 (F := Ideal) (m ((c : Thread nD τ).loc main_arg1)) (m ((c : Thread nD τ).loc main_arg2)))))) (m ((c : Thread nD τ).loc main_arg4)) (shapeCast S1x32 (m ((c : Thread nD τ).loc main_arg5)) shapeCasts_S32_S1x32) := by
    walk3
    exact self1 m ρ c
  have r0 : (V5 m ρ c main_v54 : (⟨2, ![1, 32]⟩ : Shape).Idx → EReal) = (shapeCast S1x32 (m ((c : Thread nD τ).loc main_arg6)) shapeCasts_S32_S1x32) := by
    walk3
    rw [carry4_arg6 m ρ c] <;> rfl
  have r1 : (V5 m ρ c main_v55 : (⟨2, ![1, 32]⟩ : Shape).Idx → EReal) = (shapeCast S1x32 (m ((c : Thread nD τ).loc main_arg7)) shapeCasts_S32_S1x32) := by
    walk3
    rw [carry4_arg7 m ρ c] <;> rfl
  have r2 : (V5 m ρ c main_v56 : (⟨2, ![1, 32]⟩ : Shape).Idx → EReal) = (shapeCast S1x32 (m ((c : Thread nD τ).loc main_arg8)) shapeCasts_S32_S1x32) := by
    walk3
    rw [carry4_arg8 m ρ c] <;> rfl
  have r3 : (V5 m ρ c main_v57 : (⟨2, ![1, 32]⟩ : Shape).Idx → EReal) = (shapeCast S1x32 (m ((c : Thread nD τ).loc main_arg9)) shapeCasts_S32_S1x32) := by
    walk3
    rw [carry4_arg9 m ρ c] <;> rfl
  rw [e0, e1, r0, r1, r2, r3]
  refine (layer_eq (K := 64) (N := 32) (m ((c : Thread nD τ).loc main_arg0)) (m ((c : Thread nD τ).loc main_arg4)) (Cert.ReferenceIdeal.Read.val_main_v35 (F := Ideal) (m ((c : Thread nD τ).loc main_arg1)) (m ((c : Thread nD τ).loc main_arg2))) (m ((c : Thread nD τ).loc main_arg5)) (m ((c : Thread nD τ).loc main_arg6)) (m ((c : Thread nD τ).loc main_arg7)) (m ((c : Thread nD τ).loc main_arg8)) (m ((c : Thread nD τ).loc main_arg9)) (Cert.ReferenceIdeal.Read.val_main_v49 (F := Ideal) (m ((c : Thread nD τ).loc main_arg0)) (m ((c : Thread nD τ).loc main_arg1)) (m ((c : Thread nD τ).loc main_arg2)) (m ((c : Thread nD τ).loc main_arg4)))
    Cert.ReferenceIdeal.dot_S100000x64_S64x32_S100000x32_1_0_0_1_n_n rfl rfl Cert.ReferenceIdeal.Read.lhs_main_v36_0 Cert.ReferenceIdeal.Read.lhs_main_v36_1 Cert.ReferenceIdeal.Read.rhs_main_v36_0 Cert.ReferenceIdeal.Read.rhs_main_v36_1
    bcast_S100000_S100000x1_0 bcast_S100000x1_S100000x64_0_1 (by decide) (by decide) (by decide)
    (by decide) (by decide) shapeCasts_S32_S1x32
    (fun p => Cert.SelfNorm.selfnorm_real (m ((c : Thread nD τ).loc main_arg1)) (m ((c : Thread nD τ).loc main_arg2)) (ix1 p)) hv1 Cert.PreDomain.eps Cert.PreDomain.eps_pos_real Cert.PreDomain.ofBits_eps).trans ?_
  rfl

/-! ## Layer 2 -/

/-- The layer's first projection is the host's product of the layer's input by its weights. -/
theorem proj2 (hv1 : ∀ q : Fin 32, (0 : EReal) ≤ (m ((c : Thread nD τ).loc main_arg9)) (ix1 q)) :
    (W8 m ρ c (Proc.devRef .tc main_v63_0) : (⟨2, ![100000, 64]⟩ : Shape).Idx → EReal) = (Cert.ReferenceIdeal.Read.val_main_v71 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  refine (show (W8 m ρ c (Proc.devRef .tc main_v63_0) : (⟨2, ![100000, 64]⟩ : Shape).Idx → EReal) = _ from W8_arr m ρ c 4).trans ?_
  rw [Cert.KernelIdeal.Proj2.arr4]
  have a0 : (V7 m ρ c main_v58 : (⟨2, ![100000, 32]⟩ : Shape).Idx → EReal) = (Cert.ReferenceIdeal.Read.val_main_v70 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
    walk3
    exact out1 m ρ c hv1
  have a2 : (V7 m ρ c main_arg10 : (⟨2, ![32, 64]⟩ : Shape).Idx → EReal) = (m ((c : Thread nD τ).loc main_arg10)) := by
    walk3
    exact carry6_arg10 m ρ c
  rw [a0, a2]
  exact prodArr_eq_dot (K := 32) (N := 64) (Cert.ReferenceIdeal.Read.val_main_v70 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) Cert.ReferenceIdeal.dot_S100000x32_S32x64_S100000x64_1_0_0_1_n_n rfl rfl
    Cert.ReferenceIdeal.Read.lhs_main_v71_0 Cert.ReferenceIdeal.Read.lhs_main_v71_1 Cert.ReferenceIdeal.Read.rhs_main_v71_0 Cert.ReferenceIdeal.Read.rhs_main_v71_1

/-- The aggregated messages of the layer: the same gather, scaling and scatter-add of the same projection. -/
theorem agg2 (hv1 : ∀ q : Fin 32, (0 : EReal) ≤ (m ((c : Thread nD τ).loc main_arg9)) (ix1 q)) :
    (W9 m ρ c (Proc.devRef .tc main_v76) : (⟨2, ![100000, 64]⟩ : Shape).Idx → EReal) = (Cert.ReferenceIdeal.Read.val_main_v84 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  walk3
  rw [proj2 m ρ c hv1, carry8_v1 m ρ c, carry8_v3 m ρ c, carry8_v34 m ρ c]
  rfl

/-- The layer's second projection: the pre-scaled input times the weights, plus the bias row. -/
theorem self2 (hv1 : ∀ q : Fin 32, (0 : EReal) ≤ (m ((c : Thread nD τ).loc main_arg9)) (ix1 q)) :
    (W8 m ρ c (Proc.devRef .tc main_v63_1) : (⟨2, ![100000, 64]⟩ : Shape).Idx → EReal)
      = prodBiasArr (K := 32) (N := 64) (mulf (F := Ideal) (φ := .f32) (Cert.ReferenceIdeal.Read.val_main_v70 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (broadcastInDim S100000x32 ![0, 1] bcast_S100000x1_S100000x32_0_1 (broadcastInDim S100000x1 ![0] bcast_S100000_S100000x1_0 (Cert.ReferenceIdeal.Read.val_main_v35 (F := Ideal) (m ((c : Thread nD τ).loc main_arg1)) (m ((c : Thread nD τ).loc main_arg2)))))) (m ((c : Thread nD τ).loc main_arg10)) (shapeCast S1x64 (m ((c : Thread nD τ).loc main_arg11)) shapeCasts_S64_S1x64) := by
  refine (show (W8 m ρ c (Proc.devRef .tc main_v63_1) : (⟨2, ![100000, 64]⟩ : Shape).Idx → EReal) = _ from W8_arr m ρ c 5).trans ?_
  rw [Cert.KernelIdeal.Proj2.arr5]
  have a1 : (V7 m ρ c main_v61 : (⟨2, ![100000, 32]⟩ : Shape).Idx → EReal) = (mulf (F := Ideal) (φ := .f32) (Cert.ReferenceIdeal.Read.val_main_v70 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (broadcastInDim S100000x32 ![0, 1] bcast_S100000x1_S100000x32_0_1 (broadcastInDim S100000x1 ![0] bcast_S100000_S100000x1_0 (Cert.ReferenceIdeal.Read.val_main_v35 (F := Ideal) (m ((c : Thread nD τ).loc main_arg1)) (m ((c : Thread nD τ).loc main_arg2)))))) := by
    walk3
    rw [out1 m ρ c hv1, carry6_v35 m ρ c] <;> rfl
  have a2 : (V7 m ρ c main_arg10 : (⟨2, ![32, 64]⟩ : Shape).Idx → EReal) = (m ((c : Thread nD τ).loc main_arg10)) := by
    walk3
    exact carry6_arg10 m ρ c
  have a3 : (V7 m ρ c main_v62 : (⟨2, ![1, 64]⟩ : Shape).Idx → EReal) = (shapeCast S1x64 (m ((c : Thread nD τ).loc main_arg11)) shapeCasts_S64_S1x64) := by
    walk3
    rw [carry6_arg11 m ρ c] <;> rfl
  rw [a1, a2, a3]

/-- THE LAYER'S OUTPUT is the host's: the kernel's pre-scaling, inner bias and rsqrt factor against the host's scaled
    projection, outer bias and division by sqrt. -/
theorem out2 (hv1 : ∀ q : Fin 32, (0 : EReal) ≤ (m ((c : Thread nD τ).loc main_arg9)) (ix1 q)) (hv2 : ∀ q : Fin 64, (0 : EReal) ≤ (m ((c : Thread nD τ).loc main_arg15)) (ix1 q)) :
    (W10 m ρ c (Proc.devRef .tc main_v81) : (⟨2, ![100000, 64]⟩ : Shape).Idx → EReal) = (Cert.ReferenceIdeal.Read.val_main_v105 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  refine (show (W10 m ρ c (Proc.devRef .tc main_v81) : (⟨2, ![100000, 64]⟩ : Shape).Idx → EReal) = _ from W10_arr m ρ c 6).trans ?_
  rw [Cert.KernelIdeal.Norm3.arr6]
  have e0 : (V9 m ρ c main_v76 : (⟨2, ![100000, 64]⟩ : Shape).Idx → EReal) = (Cert.ReferenceIdeal.Read.val_main_v84 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := agg2 m ρ c hv1
  have e1 : (V9 m ρ c main_v63_1 : (⟨2, ![100000, 64]⟩ : Shape).Idx → EReal) = prodBiasArr (K := 32) (N := 64) (mulf (F := Ideal) (φ := .f32) (Cert.ReferenceIdeal.Read.val_main_v70 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (broadcastInDim S100000x32 ![0, 1] bcast_S100000x1_S100000x32_0_1 (broadcastInDim S100000x1 ![0] bcast_S100000_S100000x1_0 (Cert.ReferenceIdeal.Read.val_main_v35 (F := Ideal) (m ((c : Thread nD τ).loc main_arg1)) (m ((c : Thread nD τ).loc main_arg2)))))) (m ((c : Thread nD τ).loc main_arg10)) (shapeCast S1x64 (m ((c : Thread nD τ).loc main_arg11)) shapeCasts_S64_S1x64) := by
    walk3
    exact self2 m ρ c hv1
  have r0 : (V9 m ρ c main_v77 : (⟨2, ![1, 64]⟩ : Shape).Idx → EReal) = (shapeCast S1x64 (m ((c : Thread nD τ).loc main_arg12)) shapeCasts_S64_S1x64) := by
    walk3
    rw [carry8_arg12 m ρ c] <;> rfl
  have r1 : (V9 m ρ c main_v78 : (⟨2, ![1, 64]⟩ : Shape).Idx → EReal) = (shapeCast S1x64 (m ((c : Thread nD τ).loc main_arg13)) shapeCasts_S64_S1x64) := by
    walk3
    rw [carry8_arg13 m ρ c] <;> rfl
  have r2 : (V9 m ρ c main_v79 : (⟨2, ![1, 64]⟩ : Shape).Idx → EReal) = (shapeCast S1x64 (m ((c : Thread nD τ).loc main_arg14)) shapeCasts_S64_S1x64) := by
    walk3
    rw [carry8_arg14 m ρ c] <;> rfl
  have r3 : (V9 m ρ c main_v80 : (⟨2, ![1, 64]⟩ : Shape).Idx → EReal) = (shapeCast S1x64 (m ((c : Thread nD τ).loc main_arg15)) shapeCasts_S64_S1x64) := by
    walk3
    rw [carry8_arg15 m ρ c] <;> rfl
  rw [e0, e1, r0, r1, r2, r3]
  refine (layer_eq (K := 32) (N := 64) (Cert.ReferenceIdeal.Read.val_main_v70 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (Cert.ReferenceIdeal.Read.val_main_v35 (F := Ideal) (m ((c : Thread nD τ).loc main_arg1)) (m ((c : Thread nD τ).loc main_arg2))) (m ((c : Thread nD τ).loc main_arg11)) (m ((c : Thread nD τ).loc main_arg12)) (m ((c : Thread nD τ).loc main_arg13)) (m ((c : Thread nD τ).loc main_arg14)) (m ((c : Thread nD τ).loc main_arg15)) (Cert.ReferenceIdeal.Read.val_main_v84 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
    Cert.ReferenceIdeal.dot_S100000x32_S32x64_S100000x64_1_0_0_1_n_n rfl rfl Cert.ReferenceIdeal.Read.lhs_main_v71_0 Cert.ReferenceIdeal.Read.lhs_main_v71_1 Cert.ReferenceIdeal.Read.rhs_main_v71_0 Cert.ReferenceIdeal.Read.rhs_main_v71_1
    bcast_S100000_S100000x1_0 bcast_S100000x1_S100000x32_0_1 (by decide) (by decide) (by decide)
    (by decide) (by decide) shapeCasts_S64_S1x64
    (fun p => Cert.SelfNorm.selfnorm_real (m ((c : Thread nD τ).loc main_arg1)) (m ((c : Thread nD τ).loc main_arg2)) (ix1 p)) hv2 Cert.PreDomain.eps Cert.PreDomain.eps_pos_real Cert.PreDomain.ofBits_eps).trans ?_
  rfl

/-! ## Layer 3 -/

/-- The layer's first projection is the host's product of the layer's input by its weights. -/
theorem proj3 (hv1 : ∀ q : Fin 32, (0 : EReal) ≤ (m ((c : Thread nD τ).loc main_arg9)) (ix1 q)) (hv2 : ∀ q : Fin 64, (0 : EReal) ≤ (m ((c : Thread nD τ).loc main_arg15)) (ix1 q)) :
    (W12 m ρ c (Proc.devRef .tc main_v86_0) : (⟨2, ![100000, 128]⟩ : Shape).Idx → EReal) = (Cert.ReferenceIdeal.Read.val_main_v106 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) := by
  refine (show (W12 m ρ c (Proc.devRef .tc main_v86_0) : (⟨2, ![100000, 128]⟩ : Shape).Idx → EReal) = _ from W12_arr m ρ c 4).trans ?_
  rw [Cert.KernelIdeal.Proj4.arr4]
  have a0 : (V11 m ρ c main_v81 : (⟨2, ![100000, 64]⟩ : Shape).Idx → EReal) = (Cert.ReferenceIdeal.Read.val_main_v105 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
    walk3
    exact out2 m ρ c hv1 hv2
  have a2 : (V11 m ρ c main_arg16 : (⟨2, ![64, 128]⟩ : Shape).Idx → EReal) = (m ((c : Thread nD τ).loc main_arg16)) := by
    walk3
    exact carry10_arg16 m ρ c
  rw [a0, a2]
  exact prodArr_eq_dot (K := 64) (N := 128) (Cert.ReferenceIdeal.Read.val_main_v105 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (m ((c : Thread nD τ).loc main_arg16)) Cert.ReferenceIdeal.dot_S100000x64_S64x128_S100000x128_1_0_0_1_n_n rfl rfl
    Cert.ReferenceIdeal.Read.lhs_main_v106_0 Cert.ReferenceIdeal.Read.lhs_main_v106_1 Cert.ReferenceIdeal.Read.rhs_main_v106_0 Cert.ReferenceIdeal.Read.rhs_main_v106_1

/-- The aggregated messages of the layer: the same gather, scaling and scatter-add of the same projection. -/
theorem agg3 (hv1 : ∀ q : Fin 32, (0 : EReal) ≤ (m ((c : Thread nD τ).loc main_arg9)) (ix1 q)) (hv2 : ∀ q : Fin 64, (0 : EReal) ≤ (m ((c : Thread nD τ).loc main_arg15)) (ix1 q)) :
    (W13 m ρ c (Proc.devRef .tc main_v99) : (⟨2, ![100000, 128]⟩ : Shape).Idx → EReal) = (Cert.ReferenceIdeal.Read.val_main_v119 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) := by
  walk3
  rw [proj3 m ρ c hv1 hv2, carry12_v1 m ρ c, carry12_v3 m ρ c, carry12_v34 m ρ c]
  rfl

/-- The layer's second projection: the pre-scaled input times the weights, plus the bias row. -/
theorem self3 (hv1 : ∀ q : Fin 32, (0 : EReal) ≤ (m ((c : Thread nD τ).loc main_arg9)) (ix1 q)) (hv2 : ∀ q : Fin 64, (0 : EReal) ≤ (m ((c : Thread nD τ).loc main_arg15)) (ix1 q)) :
    (W12 m ρ c (Proc.devRef .tc main_v86_1) : (⟨2, ![100000, 128]⟩ : Shape).Idx → EReal)
      = prodBiasArr (K := 64) (N := 128) (mulf (F := Ideal) (φ := .f32) (Cert.ReferenceIdeal.Read.val_main_v105 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (broadcastInDim S100000x64 ![0, 1] bcast_S100000x1_S100000x64_0_1 (broadcastInDim S100000x1 ![0] bcast_S100000_S100000x1_0 (Cert.ReferenceIdeal.Read.val_main_v35 (F := Ideal) (m ((c : Thread nD τ).loc main_arg1)) (m ((c : Thread nD τ).loc main_arg2)))))) (m ((c : Thread nD τ).loc main_arg16)) (shapeCast S1x128 (m ((c : Thread nD τ).loc main_arg17)) shapeCasts_S128_S1x128) := by
  refine (show (W12 m ρ c (Proc.devRef .tc main_v86_1) : (⟨2, ![100000, 128]⟩ : Shape).Idx → EReal) = _ from W12_arr m ρ c 5).trans ?_
  rw [Cert.KernelIdeal.Proj4.arr5]
  have a1 : (V11 m ρ c main_v84 : (⟨2, ![100000, 64]⟩ : Shape).Idx → EReal) = (mulf (F := Ideal) (φ := .f32) (Cert.ReferenceIdeal.Read.val_main_v105 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (broadcastInDim S100000x64 ![0, 1] bcast_S100000x1_S100000x64_0_1 (broadcastInDim S100000x1 ![0] bcast_S100000_S100000x1_0 (Cert.ReferenceIdeal.Read.val_main_v35 (F := Ideal) (m ((c : Thread nD τ).loc main_arg1)) (m ((c : Thread nD τ).loc main_arg2)))))) := by
    walk3
    rw [out2 m ρ c hv1 hv2, carry10_v35 m ρ c] <;> rfl
  have a2 : (V11 m ρ c main_arg16 : (⟨2, ![64, 128]⟩ : Shape).Idx → EReal) = (m ((c : Thread nD τ).loc main_arg16)) := by
    walk3
    exact carry10_arg16 m ρ c
  have a3 : (V11 m ρ c main_v85 : (⟨2, ![1, 128]⟩ : Shape).Idx → EReal) = (shapeCast S1x128 (m ((c : Thread nD τ).loc main_arg17)) shapeCasts_S128_S1x128) := by
    walk3
    rw [carry10_arg17 m ρ c] <;> rfl
  rw [a1, a2, a3]

/-- THE LAYER'S OUTPUT is the host's: the kernel's pre-scaling, inner bias and rsqrt factor against the host's scaled
    projection, outer bias and division by sqrt. -/
theorem out3 (hv1 : ∀ q : Fin 32, (0 : EReal) ≤ (m ((c : Thread nD τ).loc main_arg9)) (ix1 q)) (hv2 : ∀ q : Fin 64, (0 : EReal) ≤ (m ((c : Thread nD τ).loc main_arg15)) (ix1 q)) (hv3 : ∀ q : Fin 128, (0 : EReal) ≤ (m ((c : Thread nD τ).loc main_arg21)) (ix1 q)) :
    (W14 m ρ c (Proc.devRef .tc main_v104) : (⟨2, ![100000, 128]⟩ : Shape).Idx → EReal) = (Cert.ReferenceIdeal.Read.val_main_v140 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) := by
  refine (show (W14 m ρ c (Proc.devRef .tc main_v104) : (⟨2, ![100000, 128]⟩ : Shape).Idx → EReal) = _ from W14_arr m ρ c 6).trans ?_
  rw [Cert.KernelIdeal.Norm5.arr6]
  have e0 : (V13 m ρ c main_v99 : (⟨2, ![100000, 128]⟩ : Shape).Idx → EReal) = (Cert.ReferenceIdeal.Read.val_main_v119 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) := agg3 m ρ c hv1 hv2
  have e1 : (V13 m ρ c main_v86_1 : (⟨2, ![100000, 128]⟩ : Shape).Idx → EReal) = prodBiasArr (K := 64) (N := 128) (mulf (F := Ideal) (φ := .f32) (Cert.ReferenceIdeal.Read.val_main_v105 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (broadcastInDim S100000x64 ![0, 1] bcast_S100000x1_S100000x64_0_1 (broadcastInDim S100000x1 ![0] bcast_S100000_S100000x1_0 (Cert.ReferenceIdeal.Read.val_main_v35 (F := Ideal) (m ((c : Thread nD τ).loc main_arg1)) (m ((c : Thread nD τ).loc main_arg2)))))) (m ((c : Thread nD τ).loc main_arg16)) (shapeCast S1x128 (m ((c : Thread nD τ).loc main_arg17)) shapeCasts_S128_S1x128) := by
    walk3
    exact self3 m ρ c hv1 hv2
  have r0 : (V13 m ρ c main_v100 : (⟨2, ![1, 128]⟩ : Shape).Idx → EReal) = (shapeCast S1x128 (m ((c : Thread nD τ).loc main_arg18)) shapeCasts_S128_S1x128) := by
    walk3
    rw [carry12_arg18 m ρ c] <;> rfl
  have r1 : (V13 m ρ c main_v101 : (⟨2, ![1, 128]⟩ : Shape).Idx → EReal) = (shapeCast S1x128 (m ((c : Thread nD τ).loc main_arg19)) shapeCasts_S128_S1x128) := by
    walk3
    rw [carry12_arg19 m ρ c] <;> rfl
  have r2 : (V13 m ρ c main_v102 : (⟨2, ![1, 128]⟩ : Shape).Idx → EReal) = (shapeCast S1x128 (m ((c : Thread nD τ).loc main_arg20)) shapeCasts_S128_S1x128) := by
    walk3
    rw [carry12_arg20 m ρ c] <;> rfl
  have r3 : (V13 m ρ c main_v103 : (⟨2, ![1, 128]⟩ : Shape).Idx → EReal) = (shapeCast S1x128 (m ((c : Thread nD τ).loc main_arg21)) shapeCasts_S128_S1x128) := by
    walk3
    rw [carry12_arg21 m ρ c] <;> rfl
  rw [e0, e1, r0, r1, r2, r3]
  refine (layer_eq (K := 64) (N := 128) (Cert.ReferenceIdeal.Read.val_main_v105 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (m ((c : Thread nD τ).loc main_arg16)) (Cert.ReferenceIdeal.Read.val_main_v35 (F := Ideal) (m ((c : Thread nD τ).loc main_arg1)) (m ((c : Thread nD τ).loc main_arg2))) (m ((c : Thread nD τ).loc main_arg17)) (m ((c : Thread nD τ).loc main_arg18)) (m ((c : Thread nD τ).loc main_arg19)) (m ((c : Thread nD τ).loc main_arg20)) (m ((c : Thread nD τ).loc main_arg21)) (Cert.ReferenceIdeal.Read.val_main_v119 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)))
    Cert.ReferenceIdeal.dot_S100000x64_S64x128_S100000x128_1_0_0_1_n_n rfl rfl Cert.ReferenceIdeal.Read.lhs_main_v106_0 Cert.ReferenceIdeal.Read.lhs_main_v106_1 Cert.ReferenceIdeal.Read.rhs_main_v106_0 Cert.ReferenceIdeal.Read.rhs_main_v106_1
    bcast_S100000_S100000x1_0 bcast_S100000x1_S100000x64_0_1 (by decide) (by decide) (by decide)
    (by decide) (by decide) shapeCasts_S128_S1x128
    (fun p => Cert.SelfNorm.selfnorm_real (m ((c : Thread nD τ).loc main_arg1)) (m ((c : Thread nD τ).loc main_arg2)) (ix1 p)) hv3 Cert.PreDomain.eps Cert.PreDomain.eps_pos_real Cert.PreDomain.ofBits_eps).trans ?_
  rfl

/-! ## The pooled head -/

/-- THE RESULT: after the third layer both programs sum the node rows per graph, divide by the clamped counts, apply the
    two dense layers; the operations and their operands are the same. -/
theorem result (hv1 : ∀ q : Fin 32, (0 : EReal) ≤ (m ((c : Thread nD τ).loc main_arg9)) (ix1 q)) (hv2 : ∀ q : Fin 64, (0 : EReal) ≤ (m ((c : Thread nD τ).loc main_arg15)) (ix1 q)) (hv3 : ∀ q : Fin 128, (0 : EReal) ≤ (m ((c : Thread nD τ).loc main_arg21)) (ix1 q)) :
    (W17 m ρ c (Proc.devRef .tc main_v125) : (⟨2, ![64, 1]⟩ : Shape).Idx → EReal)
      = Cert.ReferenceIdeal.Read.val_main_v161 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) := by
  walk3
  rw [to_v121, of_v120, of_call1_v0, to_call1_v0, of_call1_cst, to_call1_cst]
  rw [out3 m ρ c hv1 hv2 hv3, carry14_arg3 m ρ c, carry14_arg22 m ρ c, carry14_arg23 m ρ c, carry14_arg24 m ρ c, carry14_arg25 m ρ c]
  rfl

end Cert.Bridge

end
-- ==== Proof.lean ====
/-
  A three-layer graph convolution network with a pooled head: the tiled kernels against the plain reference, on the
  extended reals.

  Both programs compute, from the edge list and the edge weights, the symmetric normalisation of the edges and the
  self-loop coefficient of every node, and then three layers. A layer projects the node features by its weight matrix,
  gathers the projected rows along the edges, scales them, scatter-adds them to the target nodes, adds the self-loop
  term and the bias, normalises lane by lane with the running statistics and thresholds at zero. The kernels do the
  dense part of a layer in tiles of 5000 nodes: one kernel projects the features and, from features pre-scaled by the
  self-loop coefficient, the self-loop term with the bias already added; a second kernel adds the aggregated messages,
  normalises with g · rsqrt (v + eps) and thresholds. The reference scales the projection instead, adds the bias
  afterwards and normalises with g / sqrt (v + eps). The gather and the scatter-add are the same host operations in
  both programs, and so is everything after the third layer (the per-graph mean and two dense layers).

  The two spellings agree entry by entry because a self-loop coefficient is a nonnegative real, which may cross the
  contraction's sum on the extended reals, and because the running variances are ≥ 0 (the precondition's domain
  conjunct: below −eps the reference's own square root is undefined), so the radicand is a positive real whose
  reciprocal square root is the reciprocal of its square root. Tile by tile the kernels' outputs are restrictions of
  whole-array functions, and the 20 tiles cover the node axis.

  The frames are the generated ones; the reference's is its generated run with the result dropped. There is no
  ledger entry to preserve. The kernel's result is read where the run of its segments leaves it.
-/
import proofs.«147466_j88089779241259_1_alg».proof.Defs
import proofs.«147466_j88089779241259_1_alg».proof.Proof.Gen.Kernel
import proofs.«147466_j88089779241259_1_alg».proof.Proof.Gen.Kernel.Skeleton
import proofs.«147466_j88089779241259_1_alg».proof.Proof.Gen.Kernel.Launch
import proofs.«147466_j88089779241259_1_alg».proof.Proof.Gen.Kernel.Points
import proofs.«147466_j88089779241259_1_alg».proof.Proof.Gen.Kernel.Frame
import proofs.«147466_j88089779241259_1_alg».proof.Proof.Gen.KernelIdeal
import proofs.«147466_j88089779241259_1_alg».proof.Proof.Gen.KernelIdeal.Skeleton
import proofs.«147466_j88089779241259_1_alg».proof.Proof.Gen.KernelIdeal.Launch
import proofs.«147466_j88089779241259_1_alg».proof.Proof.Gen.KernelIdeal.Points
import proofs.«147466_j88089779241259_1_alg».proof.Proof.Gen.KernelIdeal.Frame
import proofs.«147466_j88089779241259_1_alg».proof.Proof.Gen.ReferenceIdeal
import proofs.«147466_j88089779241259_1_alg».proof.Proof.Gen.Pre_finite_inputs
import proofs.«147466_j88089779241259_1_alg».proof.Proof.Gen.ReferenceIdeal.Run
import proofs.«147466_j88089779241259_1_alg».proof.Proof.Gen.ReferenceIdeal.Read
import proofs.«147466_j88089779241259_1_alg».proof.Proof.RunValue
import proofs.«147466_j88089779241259_1_alg».proof.Proof.PreDomain
import proofs.«147466_j88089779241259_1_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed runs to the end without a fault and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a host program: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing that needs a statement. -/
theorem preserves : Cert.preserves_Kernel_KernelIdeal := trivial

/-- From memories that agree on the arguments, with finite inputs and variances ≥ 0, both programs end with the
    reference's last stage of the arguments in their result arrays. -/
theorem algebraic : Cert.algebraic_KernelIdeal_ReferenceIdeal := by
  intro m ρ m' ρ' hpre hagree
  refine ⟨fun c => Cert.ReferenceIdeal.Read.val_main_v161 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)), ?_, ?_⟩
  · refine (θ_run Cert.KernelIdeal.defs _ _).mono (fun r h c => ⟨(h c).1.trans ?_, (h c).2⟩)
      (Cert.KernelIdeal.RunValue.run (F := Ideal) m ρ)
    obtain ⟨hv1, hv2, hv3⟩ := Cert.PreDomain.var_nonneg m hpre c
    exact Cert.Bridge.result m ρ c hv1 hv2 hv3
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v161_eq]
    obtain ⟨a0, a1, a2, a3, a4, a5, a6, a7, a8, a9, a10, a11, a12, a13, a14, a15, a16, a17, a18, a19, a20, a21, a22, a23, a24, a25⟩ := hagree c
    rw [a0, a1, a2, a3, a4, a5, a6, a7, a8, a9, a10, a11, a12, a13, a14, a15, a16, a17, a18, a19, a20, a21, a22, a23, a24, a25]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
